-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128x8192 : Shape := ⟨2, ![128, 8192]⟩
abbrev S128 : Shape := ⟨1, ![128]⟩
abbrev S_ : Shape := ⟨0, ![]⟩

abbrev nBuf : Space → Nat
  | .hbm => 21
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .i32⟩
  | .local _ .vmem, ⟨7, _⟩ => ⟨S128x1, .i32⟩
  | .local _ .vmem, ⟨8, _⟩ => ⟨S1x8192, .i32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_call0_v0 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  transposes_S8192x128_p1_0_S128x8192 : S8192x128.Transposes [1, 0] S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  natLt_1_32 : 1 < 32
  reducesTo_S8192x1_S_d0_1 : S8192x1.ReducesTo [0, 1] S_
  h_S_ : 0 < S_.numel
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .i32 = 32 ∨ (Rect.block (s := S8192x1) S128x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S8192x1.size a
  hwx0_7 : ∀ i : grid0.Coords, EltTy.bits .f32 = 32 ∨ (Rect.block (s := S8192x1) S128x1.size (cc0_transform_7 i) (hinb0_7 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S128x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 106
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x1, .f32⟩
  | .hbm, ⟨34, _⟩ => ⟨S8192x8192, .f32⟩
  | .hbm, ⟨35, _⟩ => ⟨S8192x8192, .i1⟩
  | .hbm, ⟨36, _⟩ => ⟨S8192x8192, .i1⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x1, .f32⟩
  | .hbm, ⟨41, _⟩ => ⟨S8192x8192, .f32⟩
  | .hbm, ⟨42, _⟩ => ⟨S8192x8192, .i1⟩
  | .hbm, ⟨43, _⟩ => ⟨S8192x8192, .i1⟩
  | .hbm, ⟨44, _⟩ => ⟨S_, .i1⟩
  | .hbm, ⟨45, _⟩ => ⟨S8192, .i1⟩
  | .hbm, ⟨46, _⟩ => ⟨S_, .i1⟩
  | .hbm, ⟨47, _⟩ => ⟨S8192, .i1⟩
  | .hbm, ⟨48, _⟩ => ⟨S8192, .i1⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S8192, .i32⟩
  | .hbm, ⟨85, _⟩ => ⟨S_, .i32⟩
  | .hbm, ⟨86, _⟩ => ⟨S_, .i32⟩
  | .hbm, ⟨87, _⟩ => ⟨S_, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S_, .i32⟩
  | .hbm, ⟨94, _⟩ => ⟨S_, .i32⟩
  | .hbm, ⟨95, _⟩ => ⟨S_, .f32⟩
  | .hbm, ⟨96, _⟩ => ⟨S_, .f32⟩
  | .hbm, ⟨97, _⟩ => ⟨S_, .i32⟩
  | .hbm, ⟨98, _⟩ => ⟨S_, .i1⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_call2_v0 : Ref sig .tc := ⟨.hbm, 57, rfl⟩
abbrev main_call2_v1 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_call3_v0 : Ref sig .tc := ⟨.hbm, 70, rfl⟩
abbrev main_call3_v1 : Ref sig .tc := ⟨.hbm, 71, rfl⟩
abbrev main_v46 : Ref sig .tc := ⟨.hbm, 72, rfl⟩
abbrev main_cst_14 : Ref sig .tc := ⟨.hbm, 73, rfl⟩
abbrev main_v47 : Ref sig .tc := ⟨.hbm, 74, rfl⟩
abbrev main_v48 : Ref sig .tc := ⟨.hbm, 75, rfl⟩
abbrev main_cst_15 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_16 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_17 : Ref sig .tc := ⟨.hbm, 85, rfl⟩
abbrev main_v56 : Ref sig .tc := ⟨.hbm, 86, rfl⟩
abbrev main_cst_18 : Ref sig .tc := ⟨.hbm, 87, rfl⟩
abbrev main_call4_v0 : Ref sig .tc := ⟨.hbm, 88, rfl⟩
abbrev main_call4_v1 : Ref sig .tc := ⟨.hbm, 89, rfl⟩
abbrev main_v57 : Ref sig .tc := ⟨.hbm, 90, rfl⟩
abbrev main_cst_19 : Ref sig .tc := ⟨.hbm, 91, rfl⟩
abbrev main_v58 : Ref sig .tc := ⟨.hbm, 92, rfl⟩
abbrev main_c_20 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_21 : Ref sig .tc := ⟨.hbm, 97, rfl⟩
abbrev main_v62 : Ref sig .tc := ⟨.hbm, 98, rfl⟩
abbrev main_cst_22 : Ref sig .tc := ⟨.hbm, 99, rfl⟩
abbrev main_v63 : Ref sig .tc := ⟨.hbm, 100, rfl⟩
abbrev main_cst_23 : Ref sig .tc := ⟨.hbm, 101, rfl⟩
abbrev main_v64 : Ref sig .tc := ⟨.hbm, 102, rfl⟩
abbrev main_cst_24 : Ref sig .tc := ⟨.hbm, 103, rfl⟩
abbrev main_v65 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  natLt_1_32 : 1 < 32
  reducesTo_S8192_S_d0 : S8192.ReducesTo [0] S_
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsPay.lean ====
/-
  What the kernel body stores, as pure functions of the six blocks it loads: the query rows x0 (128 rows of 128
  features), the whole key matrix x1, the query labels x2 (a column of 128), the whole label row x3, the query rows'
  numbers x4 (a column of 128) and the whole row of column numbers x5.
-/
import proofs.«125543_j56839597195693_1_alg».proof.Proof.Gen.Kernel.Skeleton

noncomputable section

namespace Cert.Kernel.Hand

open Cert.Kernel Cert.Kernel.Gen
open Idealize.ShloMosaic Idealize.SL.Sem

variable {F : FTy → Type} [FloatOps F]

/-- The block's similarities: each query row against every key row. -/
def simPay (x0 : Vec F S128x128 .f32) (x1 : Vec F S8192x128 .f32) : FVec F S128x8192 .f32 := k0_pay3 x0 x1

/-- The block's mask of positives (same label, another row), of kept negatives, and of "similarity less the margin
    is below the negatives' threshold". -/
def posPay (x2 : Vec F S128x1 .i32) (x3 : Vec F S1x8192 .i32) (x4 : Vec F S128x1 .i32) (x5 : Vec F S1x8192 .i32) :
    IVec S128x8192 1 := k0_pay5 (F := F) x2 x3 x4 x5
def negKeepPay (x0 : Vec F S128x128 .f32) (x1 : Vec F S8192x128 .f32) (x2 : Vec F S128x1 .i32) (x3 : Vec F S1x8192 .i32)
    (x4 : Vec F S128x1 .i32) (x5 : Vec F S1x8192 .i32) : IVec S128x8192 1 := k0_pay7 x0 x1 x2 x3 x4 x5
def belowPay (x0 : Vec F S128x128 .f32) (x1 : Vec F S8192x128 .f32) (x2 : Vec F S128x1 .i32) (x3 : Vec F S1x8192 .i32) :
    IVec S128x8192 1 := k0_pay8 x0 x1 x2 x3

/-- The block's row-validity mask: a row is valid when it keeps some negative and some positive. -/
def maskPay (x0 : Vec F S128x128 .f32) (x1 : Vec F S8192x128 .f32) (x2 : Vec F S128x1 .i32) (x3 : Vec F S1x8192 .i32)
    (x4 : Vec F S128x1 .i32) (x5 : Vec F S1x8192 .i32) : IVec S128x1 1 :=
  k0_pay10 (F := F) (posPay (F := F) x2 x3 x4 x5) (negKeepPay x0 x1 x2 x3 x4 x5) (belowPay x0 x1 x2 x3)

/-- The block's per-row loss before masking by validity. -/
def rowPay (x0 : Vec F S128x128 .f32) (x1 : Vec F S8192x128 .f32) (x2 : Vec F S128x1 .i32) (x3 : Vec F S1x8192 .i32)
    (x4 : Vec F S128x1 .i32) (x5 : Vec F S1x8192 .i32) : FVec F S128x1 .f32 :=
  k0_pay11 (simPay x0 x1) (posPay (F := F) x2 x3 x4 x5) (negKeepPay x0 x1 x2 x3 x4 x5) (belowPay x0 x1 x2 x3)

/-- The value stored into the loss output: the loss where the row is valid, zero elsewhere. -/
def lossPay (x0 : Vec F S128x128 .f32) (x1 : Vec F S8192x128 .f32) (x2 : Vec F S128x1 .i32) (x3 : Vec F S1x8192 .i32)
    (x4 : Vec F S128x1 .i32) (x5 : Vec F S1x8192 .i32) : FVec F S128x1 .f32 :=
  k0_pay1 (maskPay x0 x1 x2 x3 x4 x5) (rowPay x0 x1 x2 x3 x4 x5) (Scalar.ofBits .f32 0x00000000#32)

/-- The value stored into the validity output: the mask as a float. -/
def validPay (x0 : Vec F S128x128 .f32) (x1 : Vec F S8192x128 .f32) (x2 : Vec F S128x1 .i32) (x3 : Vec F S1x8192 .i32)
    (x4 : Vec F S128x1 .i32) (x5 : Vec F S1x8192 .i32) : FVec F S128x1 .f32 :=
  k0_pay2 (F := F) (maskPay x0 x1 x2 x3 x4 x5)

end Cert.Kernel.Hand

end
-- ==== Proof.BitsBody.lean ====
/-
  The kernel body run once, on whole staging buffers: six input buffers held at read contents (the query rows'
  block, the whole key matrix, the query labels' block, the whole label row, the query row numbers' block, the whole
  row of column numbers), two output buffers held at anything. The body loads each input once, computes, and stores
  each output block whole, so after it the inputs are as they were and each output buffer holds the one stored value:
  a pure function of the six loaded blocks (the per-row loss, and the per-row validity flag as a float).
-/
import proofs.«125543_j56839597195693_1_alg».proof.Proof.Gen.Kernel.Launch
import proofs.«125543_j56839597195693_1_alg».proof.Proof.BitsPay
import proofs.«125543_j56839597195693_1_alg».proof.Proof.Gen.Kernel.Skeleton
import proofs.«125543_j56839597195693_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## The body's accesses: each buffer read or written whole -/

abbrev rQ : Rect S128x128 := Rect.unit (s := S128x128) ![0, 0] S128x128.size Facts₀.inb_S128x128_S128x128_0_0
abbrev rK : Rect S8192x128 := Rect.unit (s := S8192x128) ![0, 0] S8192x128.size Facts₀.inb_S8192x128_S8192x128_0_0
abbrev rC : Rect S128x1 := Rect.unit (s := S128x1) ![0, 0] S128x1.size Facts₀.inb_S128x1_S128x1_0_0
abbrev rR : Rect S1x8192 := Rect.unit (s := S1x8192) ![0, 0] S1x8192.size Facts₀.inb_S1x8192_S1x8192_0_0

/-! ## What the body stores, from the six input blocks -/

/-- The loss output's buffer after the body: its one store, of the loss where the row is valid and zero elsewhere,
    computed from the six buffers' contents read whole. -/
def outLoss (x0 : Vec F S128x128 .f32) (x1 : Vec F S8192x128 .f32) (x2 : Vec F S128x1 .i32) (x3 : Vec F S1x8192 .i32)
    (x4 : Vec F S128x1 .i32) (x5 : Vec F S1x8192 .i32) : Vec F S128x1 .f32 :=
  View.canon [⟨rC, lossPay (View.ld x0 rQ) (View.ld x1 rK) (View.ld x2 rC) (View.ld x3 rR) (View.ld x4 rC) (View.ld x5 rR)⟩]

/-- The validity output's buffer after the body: its one store, of the row-validity mask as a float. -/
def outValid (x0 : Vec F S128x128 .f32) (x1 : Vec F S8192x128 .f32) (x2 : Vec F S128x1 .i32) (x3 : Vec F S1x8192 .i32)
    (x4 : Vec F S128x1 .i32) (x5 : Vec F S1x8192 .i32) : Vec F S128x1 .f32 :=
  View.canon [⟨rC, validPay (View.ld x0 rQ) (View.ld x1 rK) (View.ld x2 rC) (View.ld x3 rR) (View.ld x4 rC) (View.ld x5 rR)⟩]

/-- One whole-block store covers the block. -/
theorem cover_col (p0 : Vec F S128x1 .f32) (y : S128x1.Idx) :
    ∃ pc ∈ ([⟨rC, p0⟩] : List (View.Piece (Elt F) S128x1 .f32)), y ∈ pc.1.set :=
  View.cover_of_tiled [⟨rC, p0⟩] S128x1.size (by rfl) y

/-! ## The body's triple -/

set_option maxHeartbeats 4000000 in
/-- The body on whole staging buffers, the inputs' at read contents and the outputs' at anything, runs to the
    continuation with the inputs' buffers as they were and each output's at its one stored value. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .i32) (harg5 : arg5.IsWhole) (arg6 : Memref sig .tc .vmem S1x8192 .i32) (harg6 : arg6.IsWhole)
    (arg7 : Memref sig .tc .vmem S128x1 .f32) (harg7 : arg7.IsWhole) (arg8 : Memref sig .tc .vmem S128x1 .f32) (harg8 : arg8.IsWhole)
    (x0 : Vec F S128x128 .f32) (x1 : Vec F S8192x128 .f32) (x2 : Vec F S128x1 .i32) (x3 : Vec F S1x8192 .i32)
    (x4 : Vec F S128x1 .i32) (x5 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outLoss x0 x1 x2 x3 x4 x5)
            ∗ owns (c : Thread nD τ) arg8 fullShare (outValid x0 x1 x2 x3 x4 x5)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_col _)
  iexists _; isplitr
  swap; · iexact H7
  ipureintro
  exact View.read_writes_eq_canon _ _ _ (cover_col _)

end Cert.Kernel.Hand

end
-- ==== Proof.BitsRun.lean ====
/-
  The kernel program's run, read at its result. @main reshapes the labels into a column and a row, makes the row
  numbers 0 … 8191 and lays them out the same two ways, launches the kernel over 64 blocks of 128 query rows, and then
  reduces the two per-row outputs to the mean loss. The embedding matrix is handed to the kernel twice — once block by
  block as the query rows, once whole as the keys — so the two windows on it each hold half of the array's share; every
  other array is held whole. Each grid point leaves in the two output buffers the per-row loss and the per-row validity
  flag of its block of rows, and writes both back.
-/
import proofs.«125543_j56839597195693_1_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the five host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the host operations before the region, the region, and the two stretches of host operations after it: it
    reduces to the region continued by the later stretches, at the contents the earlier operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a window fetched
    only at the first point keeps its block: its index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The share each window holds its array at: the two windows on the embedding matrix a half each. -/
def shareOf : Fin cfg0.W → PosShare TreeShare := fun
  | ⟨0, _⟩ => fullShare.left
  | ⟨1, _⟩ => fullShare.right
  | _ => fullShare

/-- The proof data of the one pipeline: the arrays as the region finds them; after the body at point `t` each input's
    buffer at its block and each output's at its stored value of the six input blocks; the invariant the scoped rest
    (the kernel keeps nothing between points); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outLoss (iblk m c 0 t) (iblk m c 1 t) (iblk m c 2 t) (iblk m c 3 t) (iblk m c 4 t) (iblk m c 5 t)
    | ⟨7, _⟩ => outValid (iblk m c 0 t) (iblk m c 1 t) (iblk m c 2 t) (iblk m c 3 t) (iblk m c 4 t) (iblk m c 5 t)
  Φ _ := Pipeline.scopedRest spec0 c
  q w := shareOf w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outLoss (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outValid (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsLaunch.lean ====
/-
  The launch of the kernel program, by hand. The embedding matrix is one array read through two windows, so at the
  region's entry its share is split in two, a half to the window that streams the query rows and a half to the window
  that keeps the whole key set resident; every other array goes whole to its one window. At the region's exit the twelve
  host operations that follow — two sums over the rows, a maximum with one, a quotient, a comparison with zero and a
  selection — touch only the two arrays the kernel wrote and buffers no window stages, so they run with both halves of
  the embedding matrix set aside, and the halves are read back at the end as the unchanged argument.
-/
import proofs.«125543_j56839597195693_1_alg».proof.Proof.BitsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The seven distinct arrays behind the eight windows, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v3) ↦{fullShare} W main_v3)
          ∗ (((c : Thread nD τ).loc main_v4) ↦{fullShare} W main_v4) ∗ (((c : Thread nD τ).loc main_v5_0) ↦{fullShare} W main_v5_0)
          ∗ (((c : Thread nD τ).loc main_v5_1) ↦{fullShare} W main_v5_1)) :=
  bigSep_eq_bigSepL_of_eq [main_arg0, main_v0, main_v1, main_v3, main_v4, main_v5_0, main_v5_1] (by decide) (by decide) _

/-- The share each window's array is held at. -/
theorem share_eq (c : Dev nD) (w : Fin cfg0.W) : (dats m 0 c).share w = shareOf w := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The windows' arrays, each whole, at the windows' shares. -/
theorem arrays_whole (c : Dev nD) (G : (w : Fin cfg0.W) → Buf (Elt F) ((cfg0.win w).arr.view.loc (c.tc : Thread nD τ))) :
    (dats m 0 c).arrays G = bigSep Finset.univ fun w : Fin cfg0.W =>
      ((cfg0.win w).arr.view.loc (c.tc : Thread nD τ) ↦[Finset.univ]{shareOf w} G w : sProp 𝕄) := by
  unfold Dat.arrays
  exact bigSep_congr fun w _ => by rw [(arr_whole0 w).set_eq_univ, share_eq]

/-- At the region's entry the embedding matrix, held whole, is split between the two windows that read it — the query
    rows' and the keys' — a half share each; every other array goes whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_whole, bigSep_W0]
  iintro ⟨B0, B1, B2, B3, B4, B5, B6⟩
  ihave B0' := (pointsTo_share (PosShare.mem_left_op_right fullShare)).1 $$ B0
  icases B0' with ⟨B0l, B0r⟩
  isplitl [B0l]
  · iexact B0l
  isplitl [B0r]
  · iexact B0r
  isplitl [B1]
  · iexact B1
  isplitl [B2]
  · iexact B2
  isplitl [B3]
  · iexact B3
  isplitl [B4]
  · iexact B4
  isplitl [B5]
  · iexact B5
  iexact B6

/-! ## The host operations after the region -/

/-- The bypassing buffers: the unscoped buffers that are no window's array. -/
abbrev restSet : Finset (Ref sig .tc) :=
  (Finset.univ.filter fun b : Ref sig .tc => ¬ b.isScoped) \ Finset.univ.image (Pipeline.arrRef spec0)
/-- The two arrays the kernel writes. -/
abbrev outSet : Finset (Ref sig .tc) := {main_v5_0, main_v5_1}
/-- What the operations after the region may touch: the kernel's two outputs and the bypassing buffers. The embedding
    matrix and the label and row-number layouts are not among them. -/
def tailSet : Finset (DevRef τ sig) :=
  (outSet ∪ restSet).map ⟨Proc.devRef (sig := sig) .tc, Proc.devRef_injective _⟩

/-- The buffers' contents at the region's exit: the two outputs as the region's write-backs left them, everything
    else as at its entry. -/
def Wexit (c : Dev nD) : Valuation τ sig (Elt F) :=
  Function.update (Function.update (V0 m c) (Proc.devRef .tc main_v5_0) ((dats m 0 c).arrAt 6 cfg0.N))
    (Proc.devRef .tc main_v5_1) ((dats m 0 c).arrAt 7 cfg0.N)
/-- And after the twelve host operations that follow. -/
def Wfin (c : Dev nD) : Valuation τ sig (Elt F) := StableHlo.after (List.flatten [hostOps1, hostOps1_1]) (Wexit m c)

/-- Each operation after the region touches only the outputs and the bypassing buffers. -/
theorem tail_sub1 : (hostOps1 : List (HloOp τ sig (Elt F))).Forall fun op => op.bufs ⊆ tailSet :=
  ⟨(by decide : ({Proc.devRef .tc main_cst} : Finset (DevRef τ sig)) ⊆ tailSet),
    (by decide : ({Proc.devRef .tc main_v5_1, Proc.devRef .tc main_cst, Proc.devRef .tc main_v6} : Finset (DevRef τ sig)) ⊆ tailSet),
    (by decide : ({Proc.devRef .tc main_cst_0} : Finset (DevRef τ sig)) ⊆ tailSet),
    (by decide : ({Proc.devRef .tc main_v5_0, Proc.devRef .tc main_cst_0, Proc.devRef .tc main_v7} : Finset (DevRef τ sig)) ⊆ tailSet),
    (by decide : ({Proc.devRef .tc main_cst_1} : Finset (DevRef τ sig)) ⊆ tailSet),
    (by decide : ({Proc.devRef .tc main_v6, Proc.devRef .tc main_cst_1, Proc.devRef .tc main_v8} : Finset (DevRef τ sig)) ⊆ tailSet),
    (by decide : ({Proc.devRef .tc main_v7, Proc.devRef .tc main_v8, Proc.devRef .tc main_v9} : Finset (DevRef τ sig)) ⊆ tailSet),
    (by decide : ({Proc.devRef .tc main_cst_2} : Finset (DevRef τ sig)) ⊆ tailSet),
    (by decide : ({Proc.devRef .tc main_v6, Proc.devRef .tc main_cst_2, Proc.devRef .tc main_v10} : Finset (DevRef τ sig)) ⊆ tailSet),
    (by decide : ({Proc.devRef .tc main_cst_3} : Finset (DevRef τ sig)) ⊆ tailSet)⟩
theorem tail_sub2 : (hostOps1_1 : List (HloOp τ sig (Elt F))).Forall fun op => op.bufs ⊆ tailSet :=
  ⟨(by decide : ({Proc.devRef .tc main_cst_3, Proc.devRef .tc main_call0_v0} : Finset (DevRef τ sig)) ⊆ tailSet),
    (by decide : ({Proc.devRef .tc main_v10, Proc.devRef .tc main_v9, Proc.devRef .tc main_call0_v0, Proc.devRef .tc main_v11} : Finset (DevRef τ sig)) ⊆ tailSet)⟩
theorem tail_sub : ∀ ops ∈ ([hostOps1, hostOps1_1] : List (List (HloOp τ sig (Elt F)))), ∀ op ∈ ops, op.bufs ⊆ tailSet := by
  intro ops hops op hop
  simp only [List.mem_cons, List.mem_nil_iff, _root_.or_false] at hops
  rcases hops with rfl | rfl
  · exact (List.forall_iff_forall_mem.mp tail_sub1) op hop
  · exact (List.forall_iff_forall_mem.mp tail_sub2) op hop
theorem tail_fresh : ∀ ops ∈ ([hostOps1, hostOps1_1] : List (List (HloOp τ sig (Elt F)))), ∀ op ∈ ops, op.fresh = ∅ := by
  intro ops hops op hop
  simp only [List.mem_cons, List.mem_nil_iff, _root_.or_false] at hops
  rcases hops with rfl | rfl
  · exact (List.forall_iff_forall_mem.mp hostOps1_fresh) op hop
  · exact (List.forall_iff_forall_mem.mp hostOps1_1_fresh) op hop

/-- None of them writes the loss output, -/
theorem keeps6 : ∀ op ∈ List.flatten ([hostOps1, hostOps1_1] : List (List (HloOp τ sig (Elt F)))), Proc.devRef .tc main_v5_0 ∉ op.writes :=
  List.forall_iff_forall_mem.mp (show (List.flatten ([hostOps1, hostOps1_1] : List (List (HloOp τ sig (Elt F))))).Forall fun op => Proc.devRef .tc main_v5_0 ∉ op.writes from
  ⟨(by decide : Proc.devRef .tc main_v5_0 ∉ ({Proc.devRef .tc main_cst} : Finset (DevRef τ sig))),
    (by decide : Proc.devRef .tc main_v5_0 ∉ ({Proc.devRef .tc main_v6} : Finset (DevRef τ sig))),
    (by decide : Proc.devRef .tc main_v5_0 ∉ ({Proc.devRef .tc main_cst_0} : Finset (DevRef τ sig))),
    (by decide : Proc.devRef .tc main_v5_0 ∉ ({Proc.devRef .tc main_v7} : Finset (DevRef τ sig))),
    (by decide : Proc.devRef .tc main_v5_0 ∉ ({Proc.devRef .tc main_cst_1} : Finset (DevRef τ sig))),
    (by decide : Proc.devRef .tc main_v5_0 ∉ ({Proc.devRef .tc main_v8} : Finset (DevRef τ sig))),
    (by decide : Proc.devRef .tc main_v5_0 ∉ ({Proc.devRef .tc main_v9} : Finset (DevRef τ sig))),
    (by decide : Proc.devRef .tc main_v5_0 ∉ ({Proc.devRef .tc main_cst_2} : Finset (DevRef τ sig))),
    (by decide : Proc.devRef .tc main_v5_0 ∉ ({Proc.devRef .tc main_v10} : Finset (DevRef τ sig))),
    (by decide : Proc.devRef .tc main_v5_0 ∉ ({Proc.devRef .tc main_cst_3} : Finset (DevRef τ sig))),
    (by decide : Proc.devRef .tc main_v5_0 ∉ ({Proc.devRef .tc main_call0_v0} : Finset (DevRef τ sig))),
    (by decide : Proc.devRef .tc main_v5_0 ∉ ({Proc.devRef .tc main_v11} : Finset (DevRef τ sig)))⟩)
/-- nor the validity output. -/
theorem keeps7 : ∀ op ∈ List.flatten ([hostOps1, hostOps1_1] : List (List (HloOp τ sig (Elt F)))), Proc.devRef .tc main_v5_1 ∉ op.writes :=
  List.forall_iff_forall_mem.mp (show (List.flatten ([hostOps1, hostOps1_1] : List (List (HloOp τ sig (Elt F))))).Forall fun op => Proc.devRef .tc main_v5_1 ∉ op.writes from
  ⟨(by decide : Proc.devRef .tc main_v5_1 ∉ ({Proc.devRef .tc main_cst} : Finset (DevRef τ sig))),
    (by decide : Proc.devRef .tc main_v5_1 ∉ ({Proc.devRef .tc main_v6} : Finset (DevRef τ sig))),
    (by decide : Proc.devRef .tc main_v5_1 ∉ ({Proc.devRef .tc main_cst_0} : Finset (DevRef τ sig))),
    (by decide : Proc.devRef .tc main_v5_1 ∉ ({Proc.devRef .tc main_v7} : Finset (DevRef τ sig))),
    (by decide : Proc.devRef .tc main_v5_1 ∉ ({Proc.devRef .tc main_cst_1} : Finset (DevRef τ sig))),
    (by decide : Proc.devRef .tc main_v5_1 ∉ ({Proc.devRef .tc main_v8} : Finset (DevRef τ sig))),
    (by decide : Proc.devRef .tc main_v5_1 ∉ ({Proc.devRef .tc main_v9} : Finset (DevRef τ sig))),
    (by decide : Proc.devRef .tc main_v5_1 ∉ ({Proc.devRef .tc main_cst_2} : Finset (DevRef τ sig))),
    (by decide : Proc.devRef .tc main_v5_1 ∉ ({Proc.devRef .tc main_v10} : Finset (DevRef τ sig))),
    (by decide : Proc.devRef .tc main_v5_1 ∉ ({Proc.devRef .tc main_cst_3} : Finset (DevRef τ sig))),
    (by decide : Proc.devRef .tc main_v5_1 ∉ ({Proc.devRef .tc main_call0_v0} : Finset (DevRef τ sig))),
    (by decide : Proc.devRef .tc main_v5_1 ∉ ({Proc.devRef .tc main_v11} : Finset (DevRef τ sig)))⟩)

/-- The tail's buffers held at a valuation: the two outputs, and the bypassing buffers. -/
theorem held_tail (c : Dev nD) (W : Valuation τ sig (Elt F)) :
    (StableHlo.held (c.tc : Thread nD τ) tailSet W : sProp 𝕄)
      = iprop(((((c : Thread nD τ).loc main_v5_0) ↦{fullShare} W (Proc.devRef .tc main_v5_0)) ∗ (((c : Thread nD τ).loc main_v5_1) ↦{fullShare} W (Proc.devRef .tc main_v5_1)))
          ∗ Pipeline.unscopedRest spec0 c (fun b => W (Proc.devRef .tc b))) := by
  unfold StableHlo.held tailSet Pipeline.unscopedRest
  rw [bigSep_map, bigSep_union (by decide), bigSep_insert (by decide), bigSep_singleton]
  rfl

/-- The exit contents at the two outputs are what the region's write-backs left, -/
theorem Wexit6 (c : Dev nD) : Wexit m c (Proc.devRef .tc main_v5_0) = (dats m 0 c).arrAt 6 cfg0.N := by
  unfold Wexit
  rw [Function.update_of_ne (by decide), Function.update_self]
theorem Wexit7 (c : Dev nD) : Wexit m c (Proc.devRef .tc main_v5_1) = (dats m 0 c).arrAt 7 cfg0.N := by
  unfold Wexit
  rw [Function.update_self]
/-- and at a bypassing buffer the entry contents. -/
theorem Wexit_rest (c : Dev nD) (b : Ref sig .tc) (hb : b ∈ restSet) : Wexit m c (Proc.devRef .tc b) = V m c b := by
  have h6 : b ≠ main_v5_0 := fun e => (Finset.mem_sdiff.mp hb).2 (Finset.mem_image.mpr ⟨6, Finset.mem_univ _, e.symm⟩)
  have h7 : b ≠ main_v5_1 := fun e => (Finset.mem_sdiff.mp hb).2 (Finset.mem_image.mpr ⟨7, Finset.mem_univ _, e.symm⟩)
  unfold Wexit
  rw [Function.update_of_ne (StableHlo.devRef_ne_of_ne h7), Function.update_of_ne (StableHlo.devRef_ne_of_ne h6)]

set_option maxHeartbeats 1000000 in
/-- The twelve host operations after the region run on the two outputs and the bypassing buffers alone: both halves of the
    embedding matrix and the four layouts stay where the region left them, the outputs are read and not written, and the
    bypassing buffers end at the operations' values. -/
theorem htail (c : Dev nD) (Q' : PUnit → sProp 𝕄) :
    iprop((iprop((dats m 0 c).arrays ((dats m 0 c).arrAt · cfg0.N)
              ∗ Pipeline.unscopedRest spec0 c (fun b => Wfin m c (Proc.devRef .tc b))) -∗ Q' ⟨⟩)
        ∗ boundary (c.tc : Thread nD τ) ∗ (dats m 0 c).arrays ((dats m 0 c).arrAt · cfg0.N)
        ∗ Pipeline.unscopedRest spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq hostOps1, StableHlo.seq hostOps1_1]) Q' := by
  have hR : (Pipeline.unscopedRest spec0 c (V m c) : sProp 𝕄) = Pipeline.unscopedRest spec0 c (fun b => Wexit m c (Proc.devRef .tc b)) := by
    unfold Pipeline.unscopedRest
    exact bigSep_congr fun b hb => by beta_reduce; rw [Wexit_rest m c b hb]
  have h6 : StableHlo.after (List.flatten [hostOps1, hostOps1_1]) (Wexit m c) (Proc.devRef .tc main_v5_0) = (dats m 0 c).arrAt 6 cfg0.N :=
    (StableHlo.after_of_forall_not_mem _ _ keeps6).trans (Wexit6 m c)
  have h7 : StableHlo.after (List.flatten [hostOps1, hostOps1_1]) (Wexit m c) (Proc.devRef .tc main_v5_1) = (dats m 0 c).arrAt 7 cfg0.N :=
    (StableHlo.after_of_forall_not_mem _ _ keeps7).trans (Wexit7 m c)
  have hfin : (StableHlo.held (c.tc : Thread nD τ) tailSet (StableHlo.after (List.flatten [hostOps1, hostOps1_1]) (Wexit m c)) : sProp 𝕄)
      ⊢ iprop(((((c : Thread nD τ).loc main_v5_0) ↦{fullShare} (dats m 0 c).arrAt 6 cfg0.N) ∗ (((c : Thread nD τ).loc main_v5_1) ↦{fullShare} (dats m 0 c).arrAt 7 cfg0.N))
          ∗ Pipeline.unscopedRest spec0 c (fun b => StableHlo.after (List.flatten [hostOps1, hostOps1_1]) (Wexit m c) (Proc.devRef .tc b))) := by
    rw [held_tail, h6, h7]
  rw [arrays_whole, bigSep_W0, hR]
  unfold Wfin
  iintro ⟨Hk, Hb, ⟨A0, A1, A2, A3, A4, A5, A6, A7⟩, HR⟩
  ihave HT : (StableHlo.held (c.tc : Thread nD τ) tailSet (Wexit m c) : sProp 𝕄) $$ [A6 A7 HR]
  · rw [held_tail, Wexit6, Wexit7]
    isplitl [A6 A7]
    · isplitl [A6]
      · iexact A6
      iexact A7
    iexact HR
  rw [show ([StableHlo.seq hostOps1, StableHlo.seq hostOps1_1] : List (Prog (TpuEff nD τ sig (Elt F) (Pipeline.Sig Λ₀ (Fin 1) fun p => (pcfgs (F := F) p).Adm) .tc) PUnit))
      = List.map StableHlo.seq [hostOps1, hostOps1_1] ++ [] from rfl]
  iapply (Pipeline.wp_seqs_then (fun q => (cfgs q).toPCfg (Val := Elt F)) defs₀ Variants.none c tailSet [] [hostOps1, hostOps1_1] tail_sub tail_fresh (Wexit m c)) $$ [Hb HT]
  · isplitl [Hb]
    · iexact Hb
    iexact HT
  iintro ⟨Hb, HT⟩
  ihave HT' := hfin $$ HT
  icases HT' with ⟨⟨A6, A7⟩, HR⟩
  rw [Pipeline.chain_nil, wp_pure]
  imodintro
  iapply Hk
  isplitr [HR]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact HR

/-! ## The arguments are never written -/

/-- No host operation before the region writes the embedding matrix or the labels, -/
theorem V_main_arg0 (c : Dev nD) : V m c main_arg0 = m ((c : Thread nD τ).loc main_arg0) :=
  StableHlo.after_of_forall_not_mem (b := Proc.devRef .tc main_arg0) _ _ (List.forall_iff_forall_mem.mp
    (show (List.flatten ([hostOps0] : List (List (HloOp τ sig (Elt F))))).Forall fun op => Proc.devRef .tc main_arg0 ∉ op.writes from
      ⟨(by decide : Proc.devRef .tc main_arg0 ∉ ({Proc.devRef .tc main_v0} : Finset (DevRef τ sig))), (by decide : Proc.devRef .tc main_arg0 ∉ ({Proc.devRef .tc main_v1} : Finset (DevRef τ sig))), (by decide : Proc.devRef .tc main_arg0 ∉ ({Proc.devRef .tc main_v2} : Finset (DevRef τ sig))), (by decide : Proc.devRef .tc main_arg0 ∉ ({Proc.devRef .tc main_v3} : Finset (DevRef τ sig))), (by decide : Proc.devRef .tc main_arg0 ∉ ({Proc.devRef .tc main_v4} : Finset (DevRef τ sig)))⟩))
theorem V_main_arg1 (c : Dev nD) : V m c main_arg1 = m ((c : Thread nD τ).loc main_arg1) :=
  StableHlo.after_of_forall_not_mem (b := Proc.devRef .tc main_arg1) _ _ (List.forall_iff_forall_mem.mp
    (show (List.flatten ([hostOps0] : List (List (HloOp τ sig (Elt F))))).Forall fun op => Proc.devRef .tc main_arg1 ∉ op.writes from
      ⟨(by decide : Proc.devRef .tc main_arg1 ∉ ({Proc.devRef .tc main_v0} : Finset (DevRef τ sig))), (by decide : Proc.devRef .tc main_arg1 ∉ ({Proc.devRef .tc main_v1} : Finset (DevRef τ sig))), (by decide : Proc.devRef .tc main_arg1 ∉ ({Proc.devRef .tc main_v2} : Finset (DevRef τ sig))), (by decide : Proc.devRef .tc main_arg1 ∉ ({Proc.devRef .tc main_v3} : Finset (DevRef τ sig))), (by decide : Proc.devRef .tc main_arg1 ∉ ({Proc.devRef .tc main_v4} : Finset (DevRef τ sig)))⟩))
/-- and none after it writes the labels. -/
theorem Wfin_main_arg1 (c : Dev nD) : Wfin m c (Proc.devRef .tc main_arg1) = m ((c : Thread nD τ).loc main_arg1) := by
  unfold Wfin
  rw [StableHlo.after_of_forall_not_mem (b := Proc.devRef .tc main_arg1) _ _ (List.forall_iff_forall_mem.mp
    (show (List.flatten ([hostOps1, hostOps1_1] : List (List (HloOp τ sig (Elt F))))).Forall fun op => Proc.devRef .tc main_arg1 ∉ op.writes from
      ⟨(by decide : Proc.devRef .tc main_arg1 ∉ ({Proc.devRef .tc main_cst} : Finset (DevRef τ sig))), (by decide : Proc.devRef .tc main_arg1 ∉ ({Proc.devRef .tc main_v6} : Finset (DevRef τ sig))), (by decide : Proc.devRef .tc main_arg1 ∉ ({Proc.devRef .tc main_cst_0} : Finset (DevRef τ sig))), (by decide : Proc.devRef .tc main_arg1 ∉ ({Proc.devRef .tc main_v7} : Finset (DevRef τ sig))), (by decide : Proc.devRef .tc main_arg1 ∉ ({Proc.devRef .tc main_cst_1} : Finset (DevRef τ sig))), (by decide : Proc.devRef .tc main_arg1 ∉ ({Proc.devRef .tc main_v8} : Finset (DevRef τ sig))), (by decide : Proc.devRef .tc main_arg1 ∉ ({Proc.devRef .tc main_v9} : Finset (DevRef τ sig))), (by decide : Proc.devRef .tc main_arg1 ∉ ({Proc.devRef .tc main_cst_2} : Finset (DevRef τ sig))), (by decide : Proc.devRef .tc main_arg1 ∉ ({Proc.devRef .tc main_v10} : Finset (DevRef τ sig))), (by decide : Proc.devRef .tc main_arg1 ∉ ({Proc.devRef .tc main_cst_3} : Finset (DevRef τ sig))), (by decide : Proc.devRef .tc main_arg1 ∉ ({Proc.devRef .tc main_call0_v0} : Finset (DevRef τ sig))), (by decide : Proc.devRef .tc main_arg1 ∉ ({Proc.devRef .tc main_v11} : Finset (DevRef τ sig)))⟩))]
  exact (Wexit_rest m c main_arg1 (by decide)).trans (V_main_arg1 m c)

/-! ## The run -/

-- the launch theorem's implicit arguments are found by unifying its conclusion with this one
set_option backward.isDefEq.respectTransparency.types false in
set_option maxHeartbeats 2000000 in
/-- From any memory with zero counters, every weakly fair execution of @main terminates, nothing faulting, with the result
    buffer at the value the twelve host operations after the region compute from the two arrays the region wrote back,
    and with the embedding matrix and the labels unchanged. -/
theorem run_main : θ_run (defs (F := F)) (onTc (τ := τ) (main (F := F))) ⟨m, fun _ => 0, ρ⟩ (fun r => ∀ c : Dev nD,
      r.2.mem ((c.tc : Thread nD τ).loc main_v11) = Wfin m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1, StableHlo.seq hostOps1_1])
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest spec0 c (V m c))
    (Z' := fun c => Pipeline.unscopedRest spec0 c (fun b => Wfin m c (Proc.devRef .tc b)))
    (hX := fun c => by
      rw [Pipeline.unscopedRestP_none]
      iintro H
      isplitr
      · iempintro
      iexact H)
    (hin := fun c => by
      change iprop(_ ∗ _ ∗ Pipeline.scopedRest spec0 c) ⊢ Pipeline.scopedRest spec0 c
      iintro ⟨-, -, HR⟩
      iexact HR)
    (hout := fun c => by
      change Pipeline.scopedRest spec0 c ⊢ iprop(emp ∗ Pipeline.scopedRest spec0 c)
      iintro HR
      isplitr
      · iempintro
      iexact HR)
    (htail := fun c Q' => htail m c Q')
    (QY := fun c s => ∀ b ∈ restSet, s.mem ((c.tc : Thread nD τ).loc b) = Wfin m c (Proc.devRef .tc b))
    (hY := fun c s' => by
      iintro ⟨-, HU, HSI⟩
      unfold Pipeline.unscopedRest
      imodintro
      iapply (pointsTo_read_all restSet (fun b => (c.tc : Thread nD τ).loc b) (fun b => Wfin m c (Proc.devRef .tc b)) s')
      isplitl [HU] <;> iassumption)
    (hQ := fun s h c => ⟨(h c).2.2 main_v11 (by decide),
      ((h c).1 0).trans (((dats m 0 c).arrAt_in 0 rfl _).trans ((A_eq m c 0).trans (V_main_arg0 m c))),
      ((h c).2.2 main_arg1 (by decide)).trans (Wfin_main_arg1 m c)⟩)

end Cert.Kernel.Hand

end
-- ==== Proof.KerPay.lean ====
/-
  What the kernel body stores, as pure functions of the six blocks it loads: the query rows x0 (128 rows of 128
  features), the whole key matrix x1, the query labels x2 (a column of 128), the whole label row x3, the query rows'
  numbers x4 (a column of 128) and the whole row of column numbers x5.
-/
import proofs.«125543_j56839597195693_1_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The block's similarities: each query row against every key row. -/
def simPay (x0 : Vec F S128x128 .f32) (x1 : Vec F S8192x128 .f32) : FVec F S128x8192 .f32 := k0_pay3 x0 x1

/-- The block's mask of positives (same label, another row), of kept negatives, and of "similarity less the margin
    is below the negatives' threshold". -/
def posPay (x2 : Vec F S128x1 .i32) (x3 : Vec F S1x8192 .i32) (x4 : Vec F S128x1 .i32) (x5 : Vec F S1x8192 .i32) :
    IVec S128x8192 1 := k0_pay5 (F := F) x2 x3 x4 x5
def negKeepPay (x0 : Vec F S128x128 .f32) (x1 : Vec F S8192x128 .f32) (x2 : Vec F S128x1 .i32) (x3 : Vec F S1x8192 .i32)
    (x4 : Vec F S128x1 .i32) (x5 : Vec F S1x8192 .i32) : IVec S128x8192 1 := k0_pay7 x0 x1 x2 x3 x4 x5
def belowPay (x0 : Vec F S128x128 .f32) (x1 : Vec F S8192x128 .f32) (x2 : Vec F S128x1 .i32) (x3 : Vec F S1x8192 .i32) :
    IVec S128x8192 1 := k0_pay8 x0 x1 x2 x3

/-- The block's row-validity mask: a row is valid when it keeps some negative and some positive. -/
def maskPay (x0 : Vec F S128x128 .f32) (x1 : Vec F S8192x128 .f32) (x2 : Vec F S128x1 .i32) (x3 : Vec F S1x8192 .i32)
    (x4 : Vec F S128x1 .i32) (x5 : Vec F S1x8192 .i32) : IVec S128x1 1 :=
  k0_pay10 (F := F) (posPay (F := F) x2 x3 x4 x5) (negKeepPay x0 x1 x2 x3 x4 x5) (belowPay x0 x1 x2 x3)

/-- The block's per-row loss before masking by validity. -/
def rowPay (x0 : Vec F S128x128 .f32) (x1 : Vec F S8192x128 .f32) (x2 : Vec F S128x1 .i32) (x3 : Vec F S1x8192 .i32)
    (x4 : Vec F S128x1 .i32) (x5 : Vec F S1x8192 .i32) : FVec F S128x1 .f32 :=
  k0_pay11 (simPay x0 x1) (posPay (F := F) x2 x3 x4 x5) (negKeepPay x0 x1 x2 x3 x4 x5) (belowPay x0 x1 x2 x3)

/-- The value stored into the loss output: the loss where the row is valid, zero elsewhere. -/
def lossPay (x0 : Vec F S128x128 .f32) (x1 : Vec F S8192x128 .f32) (x2 : Vec F S128x1 .i32) (x3 : Vec F S1x8192 .i32)
    (x4 : Vec F S128x1 .i32) (x5 : Vec F S1x8192 .i32) : FVec F S128x1 .f32 :=
  k0_pay1 (maskPay x0 x1 x2 x3 x4 x5) (rowPay x0 x1 x2 x3 x4 x5) (Scalar.ofBits .f32 0x00000000#32)

/-- The value stored into the validity output: the mask as a float. -/
def validPay (x0 : Vec F S128x128 .f32) (x1 : Vec F S8192x128 .f32) (x2 : Vec F S128x1 .i32) (x3 : Vec F S1x8192 .i32)
    (x4 : Vec F S128x1 .i32) (x5 : Vec F S1x8192 .i32) : FVec F S128x1 .f32 :=
  k0_pay2 (F := F) (maskPay x0 x1 x2 x3 x4 x5)

end Cert.KernelIdeal.Hand

end
-- ==== Proof.IdealBody.lean ====
/-
  The kernel body run once, on whole staging buffers: six input buffers held at read contents (the query rows'
  block, the whole key matrix, the query labels' block, the whole label row, the query row numbers' block, the whole
  row of column numbers), two output buffers held at anything. The body loads each input once, computes, and stores
  each output block whole, so after it the inputs are as they were and each output buffer holds the one stored value:
  a pure function of the six loaded blocks (the per-row loss, and the per-row validity flag as a float).
-/
import proofs.«125543_j56839597195693_1_alg».proof.Proof.Gen.KernelIdeal.Launch
import proofs.«125543_j56839597195693_1_alg».proof.Proof.KerPay
import proofs.«125543_j56839597195693_1_alg».proof.Proof.Gen.KernelIdeal.Skeleton
import proofs.«125543_j56839597195693_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## The body's accesses: each buffer read or written whole -/

abbrev rQ : Rect S128x128 := Rect.unit (s := S128x128) ![0, 0] S128x128.size Facts₀.inb_S128x128_S128x128_0_0
abbrev rK : Rect S8192x128 := Rect.unit (s := S8192x128) ![0, 0] S8192x128.size Facts₀.inb_S8192x128_S8192x128_0_0
abbrev rC : Rect S128x1 := Rect.unit (s := S128x1) ![0, 0] S128x1.size Facts₀.inb_S128x1_S128x1_0_0
abbrev rR : Rect S1x8192 := Rect.unit (s := S1x8192) ![0, 0] S1x8192.size Facts₀.inb_S1x8192_S1x8192_0_0

/-! ## What the body stores, from the six input blocks -/

/-- The loss output's buffer after the body: its one store, of the loss where the row is valid and zero elsewhere,
    computed from the six buffers' contents read whole. -/
def outLoss (x0 : Vec F S128x128 .f32) (x1 : Vec F S8192x128 .f32) (x2 : Vec F S128x1 .i32) (x3 : Vec F S1x8192 .i32)
    (x4 : Vec F S128x1 .i32) (x5 : Vec F S1x8192 .i32) : Vec F S128x1 .f32 :=
  View.canon [⟨rC, lossPay (View.ld x0 rQ) (View.ld x1 rK) (View.ld x2 rC) (View.ld x3 rR) (View.ld x4 rC) (View.ld x5 rR)⟩]

/-- The validity output's buffer after the body: its one store, of the row-validity mask as a float. -/
def outValid (x0 : Vec F S128x128 .f32) (x1 : Vec F S8192x128 .f32) (x2 : Vec F S128x1 .i32) (x3 : Vec F S1x8192 .i32)
    (x4 : Vec F S128x1 .i32) (x5 : Vec F S1x8192 .i32) : Vec F S128x1 .f32 :=
  View.canon [⟨rC, validPay (View.ld x0 rQ) (View.ld x1 rK) (View.ld x2 rC) (View.ld x3 rR) (View.ld x4 rC) (View.ld x5 rR)⟩]

/-- One whole-block store covers the block. -/
theorem cover_col (p0 : Vec F S128x1 .f32) (y : S128x1.Idx) :
    ∃ pc ∈ ([⟨rC, p0⟩] : List (View.Piece (Elt F) S128x1 .f32)), y ∈ pc.1.set :=
  View.cover_of_tiled [⟨rC, p0⟩] S128x1.size (by rfl) y

/-! ## The body's triple -/

set_option maxHeartbeats 4000000 in
/-- The body on whole staging buffers, the inputs' at read contents and the outputs' at anything, runs to the
    continuation with the inputs' buffers as they were and each output's at its one stored value. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .i32) (harg5 : arg5.IsWhole) (arg6 : Memref sig .tc .vmem S1x8192 .i32) (harg6 : arg6.IsWhole)
    (arg7 : Memref sig .tc .vmem S128x1 .f32) (harg7 : arg7.IsWhole) (arg8 : Memref sig .tc .vmem S128x1 .f32) (harg8 : arg8.IsWhole)
    (x0 : Vec F S128x128 .f32) (x1 : Vec F S8192x128 .f32) (x2 : Vec F S128x1 .i32) (x3 : Vec F S1x8192 .i32)
    (x4 : Vec F S128x1 .i32) (x5 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outLoss x0 x1 x2 x3 x4 x5)
            ∗ owns (c : Thread nD τ) arg8 fullShare (outValid x0 x1 x2 x3 x4 x5)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_col _)
  iexists _; isplitr
  swap; · iexact H7
  ipureintro
  exact View.read_writes_eq_canon _ _ _ (cover_col _)

end Cert.KernelIdeal.Hand

end
-- ==== Proof.IdealRun.lean ====
/-
  The kernel program's run, read at its result. @main reshapes the labels into a column and a row, makes the row
  numbers 0 … 8191 and lays them out the same two ways, launches the kernel over 64 blocks of 128 query rows, and then
  reduces the two per-row outputs to the mean loss. The embedding matrix is handed to the kernel twice — once block by
  block as the query rows, once whole as the keys — so the two windows on it each hold half of the array's share; every
  other array is held whole. Each grid point leaves in the two output buffers the per-row loss and the per-row validity
  flag of its block of rows, and writes both back.
-/
import proofs.«125543_j56839597195693_1_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the five host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the host operations before the region, the region, and the two stretches of host operations after it: it
    reduces to the region continued by the later stretches, at the contents the earlier operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a window fetched
    only at the first point keeps its block: its index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The share each window holds its array at: the two windows on the embedding matrix a half each. -/
def shareOf : Fin cfg0.W → PosShare TreeShare := fun
  | ⟨0, _⟩ => fullShare.left
  | ⟨1, _⟩ => fullShare.right
  | _ => fullShare

/-- The proof data of the one pipeline: the arrays as the region finds them; after the body at point `t` each input's
    buffer at its block and each output's at its stored value of the six input blocks; the invariant the scoped rest
    (the kernel keeps nothing between points); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outLoss (iblk m c 0 t) (iblk m c 1 t) (iblk m c 2 t) (iblk m c 3 t) (iblk m c 4 t) (iblk m c 5 t)
    | ⟨7, _⟩ => outValid (iblk m c 0 t) (iblk m c 1 t) (iblk m c 2 t) (iblk m c 3 t) (iblk m c 4 t) (iblk m c 5 t)
  Φ _ := Pipeline.scopedRest spec0 c
  q w := shareOf w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outLoss (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outValid (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealLaunch.lean ====
/-
  The launch of the kernel program, by hand. The embedding matrix is one array read through two windows, so at the
  region's entry its share is split in two, a half to the window that streams the query rows and a half to the window
  that keeps the whole key set resident; every other array goes whole to its one window. At the region's exit the twelve
  host operations that follow — two sums over the rows, a maximum with one, a quotient, a comparison with zero and a
  selection — touch only the two arrays the kernel wrote and buffers no window stages, so they run with both halves of
  the embedding matrix set aside, and the halves are read back at the end as the unchanged argument.
-/
import proofs.«125543_j56839597195693_1_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The seven distinct arrays behind the eight windows, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v3) ↦{fullShare} W main_v3)
          ∗ (((c : Thread nD τ).loc main_v4) ↦{fullShare} W main_v4) ∗ (((c : Thread nD τ).loc main_v5_0) ↦{fullShare} W main_v5_0)
          ∗ (((c : Thread nD τ).loc main_v5_1) ↦{fullShare} W main_v5_1)) :=
  bigSep_eq_bigSepL_of_eq [main_arg0, main_v0, main_v1, main_v3, main_v4, main_v5_0, main_v5_1] (by decide) (by decide) _

/-- The share each window's array is held at. -/
theorem share_eq (c : Dev nD) (w : Fin cfg0.W) : (dats m 0 c).share w = shareOf w := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The windows' arrays, each whole, at the windows' shares. -/
theorem arrays_whole (c : Dev nD) (G : (w : Fin cfg0.W) → Buf (Elt F) ((cfg0.win w).arr.view.loc (c.tc : Thread nD τ))) :
    (dats m 0 c).arrays G = bigSep Finset.univ fun w : Fin cfg0.W =>
      ((cfg0.win w).arr.view.loc (c.tc : Thread nD τ) ↦[Finset.univ]{shareOf w} G w : sProp 𝕄) := by
  unfold Dat.arrays
  exact bigSep_congr fun w _ => by rw [(arr_whole0 w).set_eq_univ, share_eq]

/-- At the region's entry the embedding matrix, held whole, is split between the two windows that read it — the query
    rows' and the keys' — a half share each; every other array goes whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_whole, bigSep_W0]
  iintro ⟨B0, B1, B2, B3, B4, B5, B6⟩
  ihave B0' := (pointsTo_share (PosShare.mem_left_op_right fullShare)).1 $$ B0
  icases B0' with ⟨B0l, B0r⟩
  isplitl [B0l]
  · iexact B0l
  isplitl [B0r]
  · iexact B0r
  isplitl [B1]
  · iexact B1
  isplitl [B2]
  · iexact B2
  isplitl [B3]
  · iexact B3
  isplitl [B4]
  · iexact B4
  isplitl [B5]
  · iexact B5
  iexact B6

/-! ## The host operations after the region -/

/-- The bypassing buffers: the unscoped buffers that are no window's array. -/
abbrev restSet : Finset (Ref sig .tc) :=
  (Finset.univ.filter fun b : Ref sig .tc => ¬ b.isScoped) \ Finset.univ.image (Pipeline.arrRef spec0)
/-- The two arrays the kernel writes. -/
abbrev outSet : Finset (Ref sig .tc) := {main_v5_0, main_v5_1}
/-- What the operations after the region may touch: the kernel's two outputs and the bypassing buffers. The embedding
    matrix and the label and row-number layouts are not among them. -/
def tailSet : Finset (DevRef τ sig) :=
  (outSet ∪ restSet).map ⟨Proc.devRef (sig := sig) .tc, Proc.devRef_injective _⟩

/-- The buffers' contents at the region's exit: the two outputs as the region's write-backs left them, everything
    else as at its entry. -/
def Wexit (c : Dev nD) : Valuation τ sig (Elt F) :=
  Function.update (Function.update (V0 m c) (Proc.devRef .tc main_v5_0) ((dats m 0 c).arrAt 6 cfg0.N))
    (Proc.devRef .tc main_v5_1) ((dats m 0 c).arrAt 7 cfg0.N)
/-- And after the twelve host operations that follow. -/
def Wfin (c : Dev nD) : Valuation τ sig (Elt F) := StableHlo.after (List.flatten [hostOps1, hostOps1_1]) (Wexit m c)

/-- Each operation after the region touches only the outputs and the bypassing buffers. -/
theorem tail_sub1 : (hostOps1 : List (HloOp τ sig (Elt F))).Forall fun op => op.bufs ⊆ tailSet :=
  ⟨(by decide : ({Proc.devRef .tc main_cst} : Finset (DevRef τ sig)) ⊆ tailSet),
    (by decide : ({Proc.devRef .tc main_v5_1, Proc.devRef .tc main_cst, Proc.devRef .tc main_v6} : Finset (DevRef τ sig)) ⊆ tailSet),
    (by decide : ({Proc.devRef .tc main_cst_0} : Finset (DevRef τ sig)) ⊆ tailSet),
    (by decide : ({Proc.devRef .tc main_v5_0, Proc.devRef .tc main_cst_0, Proc.devRef .tc main_v7} : Finset (DevRef τ sig)) ⊆ tailSet),
    (by decide : ({Proc.devRef .tc main_cst_1} : Finset (DevRef τ sig)) ⊆ tailSet),
    (by decide : ({Proc.devRef .tc main_v6, Proc.devRef .tc main_cst_1, Proc.devRef .tc main_v8} : Finset (DevRef τ sig)) ⊆ tailSet),
    (by decide : ({Proc.devRef .tc main_v7, Proc.devRef .tc main_v8, Proc.devRef .tc main_v9} : Finset (DevRef τ sig)) ⊆ tailSet),
    (by decide : ({Proc.devRef .tc main_cst_2} : Finset (DevRef τ sig)) ⊆ tailSet),
    (by decide : ({Proc.devRef .tc main_v6, Proc.devRef .tc main_cst_2, Proc.devRef .tc main_v10} : Finset (DevRef τ sig)) ⊆ tailSet),
    (by decide : ({Proc.devRef .tc main_cst_3} : Finset (DevRef τ sig)) ⊆ tailSet)⟩
theorem tail_sub2 : (hostOps1_1 : List (HloOp τ sig (Elt F))).Forall fun op => op.bufs ⊆ tailSet :=
  ⟨(by decide : ({Proc.devRef .tc main_cst_3, Proc.devRef .tc main_call0_v0} : Finset (DevRef τ sig)) ⊆ tailSet),
    (by decide : ({Proc.devRef .tc main_v10, Proc.devRef .tc main_v9, Proc.devRef .tc main_call0_v0, Proc.devRef .tc main_v11} : Finset (DevRef τ sig)) ⊆ tailSet)⟩
theorem tail_sub : ∀ ops ∈ ([hostOps1, hostOps1_1] : List (List (HloOp τ sig (Elt F)))), ∀ op ∈ ops, op.bufs ⊆ tailSet := by
  intro ops hops op hop
  simp only [List.mem_cons, List.mem_nil_iff, _root_.or_false] at hops
  rcases hops with rfl | rfl
  · exact (List.forall_iff_forall_mem.mp tail_sub1) op hop
  · exact (List.forall_iff_forall_mem.mp tail_sub2) op hop
theorem tail_fresh : ∀ ops ∈ ([hostOps1, hostOps1_1] : List (List (HloOp τ sig (Elt F)))), ∀ op ∈ ops, op.fresh = ∅ := by
  intro ops hops op hop
  simp only [List.mem_cons, List.mem_nil_iff, _root_.or_false] at hops
  rcases hops with rfl | rfl
  · exact (List.forall_iff_forall_mem.mp hostOps1_fresh) op hop
  · exact (List.forall_iff_forall_mem.mp hostOps1_1_fresh) op hop

/-- None of them writes the loss output, -/
theorem keeps6 : ∀ op ∈ List.flatten ([hostOps1, hostOps1_1] : List (List (HloOp τ sig (Elt F)))), Proc.devRef .tc main_v5_0 ∉ op.writes :=
  List.forall_iff_forall_mem.mp (show (List.flatten ([hostOps1, hostOps1_1] : List (List (HloOp τ sig (Elt F))))).Forall fun op => Proc.devRef .tc main_v5_0 ∉ op.writes from
  ⟨(by decide : Proc.devRef .tc main_v5_0 ∉ ({Proc.devRef .tc main_cst} : Finset (DevRef τ sig))),
    (by decide : Proc.devRef .tc main_v5_0 ∉ ({Proc.devRef .tc main_v6} : Finset (DevRef τ sig))),
    (by decide : Proc.devRef .tc main_v5_0 ∉ ({Proc.devRef .tc main_cst_0} : Finset (DevRef τ sig))),
    (by decide : Proc.devRef .tc main_v5_0 ∉ ({Proc.devRef .tc main_v7} : Finset (DevRef τ sig))),
    (by decide : Proc.devRef .tc main_v5_0 ∉ ({Proc.devRef .tc main_cst_1} : Finset (DevRef τ sig))),
    (by decide : Proc.devRef .tc main_v5_0 ∉ ({Proc.devRef .tc main_v8} : Finset (DevRef τ sig))),
    (by decide : Proc.devRef .tc main_v5_0 ∉ ({Proc.devRef .tc main_v9} : Finset (DevRef τ sig))),
    (by decide : Proc.devRef .tc main_v5_0 ∉ ({Proc.devRef .tc main_cst_2} : Finset (DevRef τ sig))),
    (by decide : Proc.devRef .tc main_v5_0 ∉ ({Proc.devRef .tc main_v10} : Finset (DevRef τ sig))),
    (by decide : Proc.devRef .tc main_v5_0 ∉ ({Proc.devRef .tc main_cst_3} : Finset (DevRef τ sig))),
    (by decide : Proc.devRef .tc main_v5_0 ∉ ({Proc.devRef .tc main_call0_v0} : Finset (DevRef τ sig))),
    (by decide : Proc.devRef .tc main_v5_0 ∉ ({Proc.devRef .tc main_v11} : Finset (DevRef τ sig)))⟩)
/-- nor the validity output. -/
theorem keeps7 : ∀ op ∈ List.flatten ([hostOps1, hostOps1_1] : List (List (HloOp τ sig (Elt F)))), Proc.devRef .tc main_v5_1 ∉ op.writes :=
  List.forall_iff_forall_mem.mp (show (List.flatten ([hostOps1, hostOps1_1] : List (List (HloOp τ sig (Elt F))))).Forall fun op => Proc.devRef .tc main_v5_1 ∉ op.writes from
  ⟨(by decide : Proc.devRef .tc main_v5_1 ∉ ({Proc.devRef .tc main_cst} : Finset (DevRef τ sig))),
    (by decide : Proc.devRef .tc main_v5_1 ∉ ({Proc.devRef .tc main_v6} : Finset (DevRef τ sig))),
    (by decide : Proc.devRef .tc main_v5_1 ∉ ({Proc.devRef .tc main_cst_0} : Finset (DevRef τ sig))),
    (by decide : Proc.devRef .tc main_v5_1 ∉ ({Proc.devRef .tc main_v7} : Finset (DevRef τ sig))),
    (by decide : Proc.devRef .tc main_v5_1 ∉ ({Proc.devRef .tc main_cst_1} : Finset (DevRef τ sig))),
    (by decide : Proc.devRef .tc main_v5_1 ∉ ({Proc.devRef .tc main_v8} : Finset (DevRef τ sig))),
    (by decide : Proc.devRef .tc main_v5_1 ∉ ({Proc.devRef .tc main_v9} : Finset (DevRef τ sig))),
    (by decide : Proc.devRef .tc main_v5_1 ∉ ({Proc.devRef .tc main_cst_2} : Finset (DevRef τ sig))),
    (by decide : Proc.devRef .tc main_v5_1 ∉ ({Proc.devRef .tc main_v10} : Finset (DevRef τ sig))),
    (by decide : Proc.devRef .tc main_v5_1 ∉ ({Proc.devRef .tc main_cst_3} : Finset (DevRef τ sig))),
    (by decide : Proc.devRef .tc main_v5_1 ∉ ({Proc.devRef .tc main_call0_v0} : Finset (DevRef τ sig))),
    (by decide : Proc.devRef .tc main_v5_1 ∉ ({Proc.devRef .tc main_v11} : Finset (DevRef τ sig)))⟩)

/-- The tail's buffers held at a valuation: the two outputs, and the bypassing buffers. -/
theorem held_tail (c : Dev nD) (W : Valuation τ sig (Elt F)) :
    (StableHlo.held (c.tc : Thread nD τ) tailSet W : sProp 𝕄)
      = iprop(((((c : Thread nD τ).loc main_v5_0) ↦{fullShare} W (Proc.devRef .tc main_v5_0)) ∗ (((c : Thread nD τ).loc main_v5_1) ↦{fullShare} W (Proc.devRef .tc main_v5_1)))
          ∗ Pipeline.unscopedRest spec0 c (fun b => W (Proc.devRef .tc b))) := by
  unfold StableHlo.held tailSet Pipeline.unscopedRest
  rw [bigSep_map, bigSep_union (by decide), bigSep_insert (by decide), bigSep_singleton]
  rfl

/-- The exit contents at the two outputs are what the region's write-backs left, -/
theorem Wexit6 (c : Dev nD) : Wexit m c (Proc.devRef .tc main_v5_0) = (dats m 0 c).arrAt 6 cfg0.N := by
  unfold Wexit
  rw [Function.update_of_ne (by decide), Function.update_self]
theorem Wexit7 (c : Dev nD) : Wexit m c (Proc.devRef .tc main_v5_1) = (dats m 0 c).arrAt 7 cfg0.N := by
  unfold Wexit
  rw [Function.update_self]
/-- and at a bypassing buffer the entry contents. -/
theorem Wexit_rest (c : Dev nD) (b : Ref sig .tc) (hb : b ∈ restSet) : Wexit m c (Proc.devRef .tc b) = V m c b := by
  have h6 : b ≠ main_v5_0 := fun e => (Finset.mem_sdiff.mp hb).2 (Finset.mem_image.mpr ⟨6, Finset.mem_univ _, e.symm⟩)
  have h7 : b ≠ main_v5_1 := fun e => (Finset.mem_sdiff.mp hb).2 (Finset.mem_image.mpr ⟨7, Finset.mem_univ _, e.symm⟩)
  unfold Wexit
  rw [Function.update_of_ne (StableHlo.devRef_ne_of_ne h7), Function.update_of_ne (StableHlo.devRef_ne_of_ne h6)]

set_option maxHeartbeats 1000000 in
/-- The twelve host operations after the region run on the two outputs and the bypassing buffers alone: both halves of the
    embedding matrix and the four layouts stay where the region left them, the outputs are read and not written, and the
    bypassing buffers end at the operations' values. -/
theorem htail (c : Dev nD) (Q' : PUnit → sProp 𝕄) :
    iprop((iprop((dats m 0 c).arrays ((dats m 0 c).arrAt · cfg0.N)
              ∗ Pipeline.unscopedRest spec0 c (fun b => Wfin m c (Proc.devRef .tc b))) -∗ Q' ⟨⟩)
        ∗ boundary (c.tc : Thread nD τ) ∗ (dats m 0 c).arrays ((dats m 0 c).arrAt · cfg0.N)
        ∗ Pipeline.unscopedRest spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq hostOps1, StableHlo.seq hostOps1_1]) Q' := by
  have hR : (Pipeline.unscopedRest spec0 c (V m c) : sProp 𝕄) = Pipeline.unscopedRest spec0 c (fun b => Wexit m c (Proc.devRef .tc b)) := by
    unfold Pipeline.unscopedRest
    exact bigSep_congr fun b hb => by beta_reduce; rw [Wexit_rest m c b hb]
  have h6 : StableHlo.after (List.flatten [hostOps1, hostOps1_1]) (Wexit m c) (Proc.devRef .tc main_v5_0) = (dats m 0 c).arrAt 6 cfg0.N :=
    (StableHlo.after_of_forall_not_mem _ _ keeps6).trans (Wexit6 m c)
  have h7 : StableHlo.after (List.flatten [hostOps1, hostOps1_1]) (Wexit m c) (Proc.devRef .tc main_v5_1) = (dats m 0 c).arrAt 7 cfg0.N :=
    (StableHlo.after_of_forall_not_mem _ _ keeps7).trans (Wexit7 m c)
  have hfin : (StableHlo.held (c.tc : Thread nD τ) tailSet (StableHlo.after (List.flatten [hostOps1, hostOps1_1]) (Wexit m c)) : sProp 𝕄)
      ⊢ iprop(((((c : Thread nD τ).loc main_v5_0) ↦{fullShare} (dats m 0 c).arrAt 6 cfg0.N) ∗ (((c : Thread nD τ).loc main_v5_1) ↦{fullShare} (dats m 0 c).arrAt 7 cfg0.N))
          ∗ Pipeline.unscopedRest spec0 c (fun b => StableHlo.after (List.flatten [hostOps1, hostOps1_1]) (Wexit m c) (Proc.devRef .tc b))) := by
    rw [held_tail, h6, h7]
  rw [arrays_whole, bigSep_W0, hR]
  unfold Wfin
  iintro ⟨Hk, Hb, ⟨A0, A1, A2, A3, A4, A5, A6, A7⟩, HR⟩
  ihave HT : (StableHlo.held (c.tc : Thread nD τ) tailSet (Wexit m c) : sProp 𝕄) $$ [A6 A7 HR]
  · rw [held_tail, Wexit6, Wexit7]
    isplitl [A6 A7]
    · isplitl [A6]
      · iexact A6
      iexact A7
    iexact HR
  rw [show ([StableHlo.seq hostOps1, StableHlo.seq hostOps1_1] : List (Prog (TpuEff nD τ sig (Elt F) (Pipeline.Sig Λ₀ (Fin 1) fun p => (pcfgs (F := F) p).Adm) .tc) PUnit))
      = List.map StableHlo.seq [hostOps1, hostOps1_1] ++ [] from rfl]
  iapply (Pipeline.wp_seqs_then (fun q => (cfgs q).toPCfg (Val := Elt F)) defs₀ Variants.none c tailSet [] [hostOps1, hostOps1_1] tail_sub tail_fresh (Wexit m c)) $$ [Hb HT]
  · isplitl [Hb]
    · iexact Hb
    iexact HT
  iintro ⟨Hb, HT⟩
  ihave HT' := hfin $$ HT
  icases HT' with ⟨⟨A6, A7⟩, HR⟩
  rw [Pipeline.chain_nil, wp_pure]
  imodintro
  iapply Hk
  isplitr [HR]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact HR

/-! ## The arguments are never written -/

/-- No host operation before the region writes the embedding matrix or the labels, -/
theorem V_main_arg0 (c : Dev nD) : V m c main_arg0 = m ((c : Thread nD τ).loc main_arg0) :=
  StableHlo.after_of_forall_not_mem (b := Proc.devRef .tc main_arg0) _ _ (List.forall_iff_forall_mem.mp
    (show (List.flatten ([hostOps0] : List (List (HloOp τ sig (Elt F))))).Forall fun op => Proc.devRef .tc main_arg0 ∉ op.writes from
      ⟨(by decide : Proc.devRef .tc main_arg0 ∉ ({Proc.devRef .tc main_v0} : Finset (DevRef τ sig))), (by decide : Proc.devRef .tc main_arg0 ∉ ({Proc.devRef .tc main_v1} : Finset (DevRef τ sig))), (by decide : Proc.devRef .tc main_arg0 ∉ ({Proc.devRef .tc main_v2} : Finset (DevRef τ sig))), (by decide : Proc.devRef .tc main_arg0 ∉ ({Proc.devRef .tc main_v3} : Finset (DevRef τ sig))), (by decide : Proc.devRef .tc main_arg0 ∉ ({Proc.devRef .tc main_v4} : Finset (DevRef τ sig)))⟩))
theorem V_main_arg1 (c : Dev nD) : V m c main_arg1 = m ((c : Thread nD τ).loc main_arg1) :=
  StableHlo.after_of_forall_not_mem (b := Proc.devRef .tc main_arg1) _ _ (List.forall_iff_forall_mem.mp
    (show (List.flatten ([hostOps0] : List (List (HloOp τ sig (Elt F))))).Forall fun op => Proc.devRef .tc main_arg1 ∉ op.writes from
      ⟨(by decide : Proc.devRef .tc main_arg1 ∉ ({Proc.devRef .tc main_v0} : Finset (DevRef τ sig))), (by decide : Proc.devRef .tc main_arg1 ∉ ({Proc.devRef .tc main_v1} : Finset (DevRef τ sig))), (by decide : Proc.devRef .tc main_arg1 ∉ ({Proc.devRef .tc main_v2} : Finset (DevRef τ sig))), (by decide : Proc.devRef .tc main_arg1 ∉ ({Proc.devRef .tc main_v3} : Finset (DevRef τ sig))), (by decide : Proc.devRef .tc main_arg1 ∉ ({Proc.devRef .tc main_v4} : Finset (DevRef τ sig)))⟩))
/-- and none after it writes the labels. -/
theorem Wfin_main_arg1 (c : Dev nD) : Wfin m c (Proc.devRef .tc main_arg1) = m ((c : Thread nD τ).loc main_arg1) := by
  unfold Wfin
  rw [StableHlo.after_of_forall_not_mem (b := Proc.devRef .tc main_arg1) _ _ (List.forall_iff_forall_mem.mp
    (show (List.flatten ([hostOps1, hostOps1_1] : List (List (HloOp τ sig (Elt F))))).Forall fun op => Proc.devRef .tc main_arg1 ∉ op.writes from
      ⟨(by decide : Proc.devRef .tc main_arg1 ∉ ({Proc.devRef .tc main_cst} : Finset (DevRef τ sig))), (by decide : Proc.devRef .tc main_arg1 ∉ ({Proc.devRef .tc main_v6} : Finset (DevRef τ sig))), (by decide : Proc.devRef .tc main_arg1 ∉ ({Proc.devRef .tc main_cst_0} : Finset (DevRef τ sig))), (by decide : Proc.devRef .tc main_arg1 ∉ ({Proc.devRef .tc main_v7} : Finset (DevRef τ sig))), (by decide : Proc.devRef .tc main_arg1 ∉ ({Proc.devRef .tc main_cst_1} : Finset (DevRef τ sig))), (by decide : Proc.devRef .tc main_arg1 ∉ ({Proc.devRef .tc main_v8} : Finset (DevRef τ sig))), (by decide : Proc.devRef .tc main_arg1 ∉ ({Proc.devRef .tc main_v9} : Finset (DevRef τ sig))), (by decide : Proc.devRef .tc main_arg1 ∉ ({Proc.devRef .tc main_cst_2} : Finset (DevRef τ sig))), (by decide : Proc.devRef .tc main_arg1 ∉ ({Proc.devRef .tc main_v10} : Finset (DevRef τ sig))), (by decide : Proc.devRef .tc main_arg1 ∉ ({Proc.devRef .tc main_cst_3} : Finset (DevRef τ sig))), (by decide : Proc.devRef .tc main_arg1 ∉ ({Proc.devRef .tc main_call0_v0} : Finset (DevRef τ sig))), (by decide : Proc.devRef .tc main_arg1 ∉ ({Proc.devRef .tc main_v11} : Finset (DevRef τ sig)))⟩))]
  exact (Wexit_rest m c main_arg1 (by decide)).trans (V_main_arg1 m c)

/-! ## The run -/

-- the launch theorem's implicit arguments are found by unifying its conclusion with this one
set_option backward.isDefEq.respectTransparency.types false in
set_option maxHeartbeats 2000000 in
/-- From any memory with zero counters, every weakly fair execution of @main terminates, nothing faulting, with the result
    buffer at the value the twelve host operations after the region compute from the two arrays the region wrote back,
    and with the embedding matrix and the labels unchanged. -/
theorem run_main : θ_run (defs (F := F)) (onTc (τ := τ) (main (F := F))) ⟨m, fun _ => 0, ρ⟩ (fun r => ∀ c : Dev nD,
      r.2.mem ((c.tc : Thread nD τ).loc main_v11) = Wfin m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1, StableHlo.seq hostOps1_1])
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest spec0 c (V m c))
    (Z' := fun c => Pipeline.unscopedRest spec0 c (fun b => Wfin m c (Proc.devRef .tc b)))
    (hX := fun c => by
      rw [Pipeline.unscopedRestP_none]
      iintro H
      isplitr
      · iempintro
      iexact H)
    (hin := fun c => by
      change iprop(_ ∗ _ ∗ Pipeline.scopedRest spec0 c) ⊢ Pipeline.scopedRest spec0 c
      iintro ⟨-, -, HR⟩
      iexact HR)
    (hout := fun c => by
      change Pipeline.scopedRest spec0 c ⊢ iprop(emp ∗ Pipeline.scopedRest spec0 c)
      iintro HR
      isplitr
      · iempintro
      iexact HR)
    (htail := fun c Q' => htail m c Q')
    (QY := fun c s => ∀ b ∈ restSet, s.mem ((c.tc : Thread nD τ).loc b) = Wfin m c (Proc.devRef .tc b))
    (hY := fun c s' => by
      iintro ⟨-, HU, HSI⟩
      unfold Pipeline.unscopedRest
      imodintro
      iapply (pointsTo_read_all restSet (fun b => (c.tc : Thread nD τ).loc b) (fun b => Wfin m c (Proc.devRef .tc b)) s')
      isplitl [HU] <;> iassumption)
    (hQ := fun s h c => ⟨(h c).2.2 main_v11 (by decide),
      ((h c).1 0).trans (((dats m 0 c).arrAt_in 0 rfl _).trans ((A_eq m c 0).trans (V_main_arg0 m c))),
      ((h c).2.2 main_arg1 (by decide)).trans (Wfin_main_arg1 m c)⟩)

end Cert.KernelIdeal.Hand

end
-- ==== Proof.Spec.lean ====
/-
  The multi-similarity loss of a batch of embeddings, as one function of the embedding matrix X (8192 rows of 128
  features) and the labels Y (one 32-bit word per row), over the extended reals.

  For rows r and j: sim r j is the inner product of rows r and j. Row j is a POSITIVE of r when the labels agree and
  j ≠ r, a NEGATIVE when the labels differ. The mining thresholds of row r are the least similarity to a positive
  (+∞ when there is none) and the greatest similarity to a negative (-∞ when there is none). A negative is KEPT when
  its similarity plus the margin exceeds the positives' threshold; a positive is kept when its similarity less the
  margin is below the negatives' threshold. A row is VALID when it keeps some negative and some positive. Its loss is
  (1/2)·log(1 + Σ over kept positives of exp(-2·(sim - 1))) + (1/50)·log(1 + Σ over kept negatives of exp(50·(sim - 1))),
  counted only when the row is valid. The result is the mean loss over the valid rows, and 0 when no row is valid.

  Every float constant is kept as the binary word both programs print, so the same word is never evaluated.
-/
import Idealize.ShloMosaic.PureOps.Ideal
import Idealize.ShloMosaic.Lib.ValueIdx

noncomputable section

namespace Cert.Spec

open Idealize.ShloMosaic Idealize.ShloMosaic.ValueIdx
open scoped BigOperators
open Classical

/-- The embedding matrix's shape and the label vector's. -/
abbrev SX : Shape := ⟨2, ![8192, 128]⟩
abbrev SY : Shape := ⟨1, ![8192]⟩

/-- The margin 0.1, the centre 1, the two slopes -2 and 50, the two weights 1/2 and 1/50 (as printed: the f32 nearest
    0.02), zero, and the two infinities. -/
def margin : EReal := Ideal.ofBits .f32 0x3DCCCCCD#32
def centre : EReal := Ideal.ofBits .f32 0x3F800000#32
def slopePos : EReal := Ideal.ofBits .f32 0xC0000000#32
def slopeNeg : EReal := Ideal.ofBits .f32 0x42480000#32
def weightPos : EReal := Ideal.ofBits .f32 0x3F000000#32
def weightNeg : EReal := Ideal.ofBits .f32 0x3CA3D70A#32
def zero : EReal := Ideal.ofBits .f32 0x00000000#32
def pInf : EReal := Ideal.ofBits .f32 0x7F800000#32
def nInf : EReal := Ideal.ofBits .f32 0xFF800000#32

variable (X : SX.Idx → EReal) (Y : SY.Idx → BitVec 32)

/-- The similarity of rows r and j: their inner product. -/
def sim (r j : Fin 8192) : EReal := ∑ k : Fin 128, X (ix2 r k) * X (ix2 j k)

/-- Row j is a positive of row r: same label, another row. -/
def Pos (r j : Fin 8192) : Prop := Y (ix1 r) = Y (ix1 j) ∧ r ≠ j
/-- Row j is a negative of row r: another label. -/
def Neg (r j : Fin 8192) : Prop := Y (ix1 r) ≠ Y (ix1 j)

/-- The least similarity of row r to a positive (+∞ when it has none). -/
def minPos (r : Fin 8192) : EReal :=
  (Finset.univ : Finset (Fin 8192)).fold min pInf (fun j => if Pos Y r j then sim X r j else pInf)
/-- The greatest similarity of row r to a negative (-∞ when it has none). -/
def maxNeg (r : Fin 8192) : EReal :=
  (Finset.univ : Finset (Fin 8192)).fold max nInf (fun j => if Neg Y r j then sim X r j else nInf)

/-- A kept negative: its similarity plus the margin exceeds the positives' threshold. -/
def NegKeep (r j : Fin 8192) : Prop := Neg Y r j ∧ minPos X Y r < sim X r j + margin
/-- A kept positive: its similarity less the margin is below the negatives' threshold. -/
def PosKeep (r j : Fin 8192) : Prop := Pos Y r j ∧ sim X r j - margin < maxNeg X Y r

/-- A valid row keeps some negative and some positive. -/
def Valid (r : Fin 8192) : Prop := (∃ j, NegKeep X Y r j) ∧ (∃ j, PosKeep X Y r j)

def posSum (r : Fin 8192) : EReal :=
  ∑ j : Fin 8192, if PosKeep X Y r j then Ideal.exp (slopePos * (sim X r j - centre)) else zero
def negSum (r : Fin 8192) : EReal :=
  ∑ j : Fin 8192, if NegKeep X Y r j then Ideal.exp (slopeNeg * (sim X r j - centre)) else zero

/-- The row's loss before masking by validity. -/
def perRow (r : Fin 8192) : EReal :=
  weightPos * Ideal.log1p (posSum X Y r) + weightNeg * Ideal.log1p (negSum X Y r)

/-- The row's loss, counted only when the row is valid. -/
def loss (r : Fin 8192) : EReal := if Valid X Y r then perRow X Y r else zero
/-- The row's validity as a number: 1 or 0. -/
def validF (r : Fin 8192) : EReal := if Valid X Y r then 1 else 0

/-- How many rows are valid, and their total loss. -/
def nValid : EReal := ∑ r : Fin 8192, validF X Y r
def total : EReal := ∑ r : Fin 8192, loss X Y r

/-- The mean loss over the valid rows; 0 when there is none. -/
def result : EReal := if 0 < nValid X Y then Ideal.div (total X Y) (max (nValid X Y) 1) else 0

end Cert.Spec

end
-- ==== Proof.KerRow.lean ====
/-
  The row of the embedding matrix that a block's p-th query row stands for: block t covers rows 128·t … 128·t + 127.
-/
import Mathlib.Data.Fin.Basic

namespace Cert.KerSide

/-- Row p of block t is row 128·t + p of the whole matrix; with t < 64 and p < 128 this is below 8192. -/
def row (t : Fin 64) (p : Fin 128) : Fin 8192 := ⟨128 * t.val + p.val, by omega⟩

@[simp] theorem row_val (t : Fin 64) (p : Fin 128) : (row t p).val = 128 * t.val + p.val := rfl

end Cert.KerSide
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.IdealArrays.lean ====
/-
  The kernel program's result as a function of its arguments. Before the region @main lays the labels out as a column
  and as a row and does the same with the row numbers 0 … 8191, so at grid point t the kernel's six blocks are: rows
  128·t … 128·t + 127 of the embedding matrix, the whole matrix, those rows' labels, all labels, those rows' numbers,
  all column numbers. Each point writes back, for its 128 rows, the row's loss (zero when the row is not valid) and the
  row's validity as 1 or 0; row r lies in block r / 128, so the 64 blocks cover both outputs, which therefore end as the
  whole-array functions r ↦ loss r and r ↦ validity r. After the region the host sums both over the rows — n valid
  rows, total loss s — and returns s / max n 1 when n > 0 and 0 otherwise: the mean loss over the valid rows.
  The kernel's arithmetic on one block is taken as a hypothesis here (it is proved in the modules on the kernel's rows).
-/
import proofs.«125543_j56839597195693_1_alg».proof.Proof.IdealLaunch
import proofs.«125543_j56839597195693_1_alg».proof.Proof.Spec
import proofs.«125543_j56839597195693_1_alg».proof.Proof.KerRow
import proofs.«125543_j56839597195693_1_alg».proof.Proof.LibRowwise
import Idealize.ShloMosaic.Lib.IdealHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Facts₀ Facts
open scoped BigOperators

variable (m : (ℓ : Loc nD τ sig) → Buf (Elt Ideal) ℓ)

/-! ## What the region finds: the labels and the row numbers, each as a column and as a row -/

/-- The embedding matrix and the labels @main is called with. -/
abbrev argX (c : Dev nD) : Cert.Spec.SX.Idx → EReal := m ((c : Thread nD τ).loc main_arg0)
abbrev argY (c : Dev nD) : Cert.Spec.SY.Idx → BitVec 32 := m ((c : Thread nD τ).loc main_arg1)

theorem V_v0 (c : Dev nD) : V m c main_v0 = shapeCast S8192x1 (m ((c : Thread nD τ).loc main_arg1)) Facts₀.shapeCasts_S8192_S8192x1 := by
  show StableHlo.after hostOps0 (fun b => m (c, b)) (Proc.devRef .tc main_v0) = _
  after_results
  rfl
theorem V_v1 (c : Dev nD) : V m c main_v1 = shapeCast S1x8192 (m ((c : Thread nD τ).loc main_arg1)) Facts₀.shapeCasts_S8192_S1x8192 := by
  show StableHlo.after hostOps0 (fun b => m (c, b)) (Proc.devRef .tc main_v1) = _
  after_results
  rfl
theorem V_v3 (c : Dev nD) : V m c main_v3 = shapeCast S8192x1 (iotaInDim S8192 32 0) Facts₀.shapeCasts_S8192_S8192x1 := by
  show StableHlo.after hostOps0 (fun b => m (c, b)) (Proc.devRef .tc main_v3) = _
  after_results
  rfl
theorem V_v4 (c : Dev nD) : V m c main_v4 = shapeCast S1x8192 (iotaInDim S8192 32 0) Facts₀.shapeCasts_S8192_S1x8192 := by
  show StableHlo.after hostOps0 (fun b => m (c, b)) (Proc.devRef .tc main_v4) = _
  after_results
  rfl

/-- The label column at row `r` is row `r`'s label; the label row at column `j` is row `j`'s. -/
theorem V_v0_apply (c : Dev nD) (r : Fin 8192) : V m c main_v0 (ix2 r (0 : Fin 1)) = argY m c (ix1 r) := by
  rw [V_v0]; exact Cert.LibRowwise.shapeCast_a_a1_apply _ _ r 0
theorem V_v1_apply (c : Dev nD) (j : Fin 8192) : V m c main_v1 (ix2 (0 : Fin 1) j) = argY m c (ix1 j) := by
  rw [V_v1]; exact shapeCast_a_1a_apply _ _ 0 j
/-- The row-number column at row `r` is `r`; the row-number row at column `j` is `j`. -/
theorem V_v3_apply (c : Dev nD) (r : Fin 8192) : V m c main_v3 (ix2 r (0 : Fin 1)) = BitVec.ofNat 32 r.val := by
  rw [V_v3]; exact (Cert.LibRowwise.shapeCast_a_a1_apply _ _ r 0).trans rfl
theorem V_v4_apply (c : Dev nD) (j : Fin 8192) : V m c main_v4 (ix2 (0 : Fin 1) j) = BitVec.ofNat 32 j.val := by
  rw [V_v4]; exact (shapeCast_a_1a_apply _ _ 0 j).trans rfl

/-! ## The windows' blocks -/

/-- The grid point as a block number. -/
def blockNo (t : Fin cfg0.N) : Fin 64 := ⟨t.val, lt_of_lt_of_eq t.isLt N_0⟩

/-- The printed index maps, decided over the grid: the query rows', query labels', query numbers' and both outputs'
    windows are at block (t, 0); the keys', the label row's and the number row's stay at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

open Cert.KerSide (row)

/-- The query block at point `t` is rows 128·t … 128·t + 127 of the embedding matrix. -/
theorem iblk0_apply (c : Dev nD) (t : Fin cfg0.N) (p k : Fin 128) :
    iblk m c 0 t (ix2 p k) = argX m c (ix2 (row (blockNo t) p) k) := by
  show V m c main_arg0 (((cfg0.win 0).blk t).view.emb (ix2 p k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 128 + 1 * p.val = 128 * t.val + p.val; omega
  | ⟨1, _⟩ => show win0_0.index t (1 : Fin 2) * 128 + 1 * k.val = k.val; omega
/-- The key block is the whole embedding matrix, at every point. -/
theorem iblk1_apply (c : Dev nD) (t : Fin cfg0.N) (j : Fin 8192) (k : Fin 128) :
    iblk m c 1 t (ix2 j k) = argX m c (ix2 j k) := by
  show V m c main_arg0 (((cfg0.win 1).blk t).view.emb (ix2 j k)) = _
  rw [V_main_arg0]
  refine congrArg (m ((c : Thread nD τ).loc main_arg0)) (funext fun a => Fin.ext ?_)
  obtain ⟨-, -, e0, e1, -⟩ := idx_facts t
  match a with
  | ⟨0, _⟩ => show win0_1.index t (0 : Fin 2) * 8192 + 1 * j.val = j.val; omega
  | ⟨1, _⟩ => show win0_1.index t (1 : Fin 2) * 128 + 1 * k.val = k.val; omega
/-- The query labels at point `t`. -/
theorem iblk2_apply (c : Dev nD) (t : Fin cfg0.N) (p : Fin 128) :
    iblk m c 2 t (ix2 p (0 : Fin 1)) = argY m c (ix1 (row (blockNo t) p)) := by
  show V m c main_v0 (((cfg0.win 2).blk t).view.emb (ix2 p (0 : Fin 1))) = _
  rw [← V_v0_apply m c (row (blockNo t) p)]
  refine congrArg (V m c main_v0) (funext fun a => Fin.ext ?_)
  obtain ⟨-, -, -, -, e0, e1, -⟩ := idx_facts t
  match a with
  | ⟨0, _⟩ => show win0_2.index t (0 : Fin 2) * 128 + 1 * p.val = 128 * t.val + p.val; omega
  | ⟨1, _⟩ => show win0_2.index t (1 : Fin 2) * 1 + 1 * 0 = 0; omega
/-- The label row, whole at every point. -/
theorem iblk3_apply (c : Dev nD) (t : Fin cfg0.N) (j : Fin 8192) :
    iblk m c 3 t (ix2 (0 : Fin 1) j) = argY m c (ix1 j) := by
  show V m c main_v1 (((cfg0.win 3).blk t).view.emb (ix2 (0 : Fin 1) j)) = _
  rw [← V_v1_apply m c j]
  refine congrArg (V m c main_v1) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 8192 + 1 * j.val = j.val; omega
/-- The query rows' numbers at point `t`. -/
theorem iblk4_apply (c : Dev nD) (t : Fin cfg0.N) (p : Fin 128) :
    iblk m c 4 t (ix2 p (0 : Fin 1)) = BitVec.ofNat 32 (row (blockNo t) p).val := by
  show V m c main_v3 (((cfg0.win 4).blk t).view.emb (ix2 p (0 : Fin 1))) = _
  rw [← V_v3_apply m c (row (blockNo t) p)]
  refine congrArg (V m c main_v3) (funext fun a => Fin.ext ?_)
  obtain ⟨-, -, -, -, -, -, -, -, e0, e1, -⟩ := idx_facts t
  match a with
  | ⟨0, _⟩ => show win0_4.index t (0 : Fin 2) * 128 + 1 * p.val = 128 * t.val + p.val; omega
  | ⟨1, _⟩ => show win0_4.index t (1 : Fin 2) * 1 + 1 * 0 = 0; omega
/-- The column numbers, whole at every point. -/
theorem iblk5_apply (c : Dev nD) (t : Fin cfg0.N) (j : Fin 8192) :
    iblk m c 5 t (ix2 (0 : Fin 1) j) = BitVec.ofNat 32 j.val := by
  show V m c main_v4 (((cfg0.win 5).blk t).view.emb (ix2 (0 : Fin 1) j)) = _
  rw [← V_v4_apply m c j]
  refine congrArg (V m c main_v4) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 8192 + 1 * j.val = j.val; omega

/-! ## From the blocks to the arrays -/

theorem hz : (![0, 0] : Fin 2 → Nat) = fun _ => 0 := funext fun a => by fin_cases a <;> rfl

/-- What the two outputs end holding: at row `r` the row's loss (zero when the row is not valid), and the row's
    validity as 1 or 0. -/
def lossArr (c : Dev nD) : S8192x1.Idx → EReal := fun i => Cert.Spec.loss (argX m c) (argY m c) (i 0)
def validArr (c : Dev nD) : S8192x1.Idx → EReal := fun i => Cert.Spec.validF (argX m c) (argY m c) (i 0)

/-- What point `t` writes back into the loss output is block `t` of the whole-array function. -/
theorem flushed6_eq (hB : ∀ (X : Cert.Spec.SX.Idx → EReal) (Y : Cert.Spec.SY.Idx → BitVec 32) (t : Fin 64)
      (x0 : Vec Ideal S128x128 .f32) (x1 : Vec Ideal S8192x128 .f32) (x2 : Vec Ideal S128x1 .i32) (x3 : Vec Ideal S1x8192 .i32)
      (x4 : Vec Ideal S128x1 .i32) (x5 : Vec Ideal S1x8192 .i32)
      (h0 : ∀ (p : Fin 128) (k : Fin 128), x0 (ix2 p k) = X (ix2 (row t p) k))
      (h1 : ∀ (j : Fin 8192) (k : Fin 128), x1 (ix2 j k) = X (ix2 j k))
      (h2 : ∀ p : Fin 128, x2 (ix2 p 0) = Y (ix1 (row t p)))
      (h3 : ∀ j : Fin 8192, x3 (ix2 0 j) = Y (ix1 j))
      (h4 : ∀ p : Fin 128, x4 (ix2 p 0) = BitVec.ofNat 32 (row t p).val)
      (h5 : ∀ j : Fin 8192, x5 (ix2 0 j) = BitVec.ofNat 32 j.val)
      (p : Fin 128),
      lossPay (F := Ideal) x0 x1 x2 x3 x4 x5 (ix2 p 0) = Cert.Spec.loss X Y (row t p)
      ∧ validPay (F := Ideal) x0 x1 x2 x3 x4 x5 (ix2 p 0) = Cert.Spec.validF X Y (row t p)) (c : Dev nD) (t : Fin cfg0.N) :
    (dats m 0 c).flushed 6 t = ((cfg0.win 6).blk t).view.read (Elt Ideal) (lossArr m c) := by
  show (cfg0.win 6).cut (grid0.coords t) ((dats m 0 c).after 6 t) = _
  rw [after0_6]
  unfold outLoss
  rw [View.canon_unit_zero hz]
  simp only [View.ld_unit_zero (S := S128x128) hz, View.ld_unit_zero (S := S8192x128) hz, View.ld_unit_zero (S := S128x1) hz,
    View.ld_unit_zero (S := S1x8192) hz]
  funext j
  obtain ⟨p, q, rfl⟩ : ∃ (p : Fin 128) (q : Fin 1), j = ix2 p q := ⟨j 0, j 1, eq_ix2 j⟩
  obtain rfl : q = 0 := Subsingleton.elim _ _
  show lossPay (F := Ideal) (iblk m c 0 t) (iblk m c 1 t) (iblk m c 2 t) (iblk m c 3 t) (iblk m c 4 t) (iblk m c 5 t) (ix2 p 0) = lossArr m c (((cfg0.win 6).blk t).view.emb (ix2 p 0))
  rw [(hB (argX m c) (argY m c) (blockNo t) _ _ _ _ _ _ (iblk0_apply m c t) (iblk1_apply m c t) (iblk2_apply m c t) (iblk3_apply m c t)
    (iblk4_apply m c t) (iblk5_apply m c t) p).1]
  unfold lossArr
  refine congrArg _ (Fin.ext (Eq.symm ?_))
  obtain ⟨-, -, -, -, -, -, -, -, -, -, -, -, e60, e61, e70, e71⟩ := idx_facts t
  show win0_6.index t (0 : Fin 2) * 128 + 1 * p.val = 128 * t.val + p.val
  omega

theorem mem_blk6 (t : Fin cfg0.N) (i : S8192x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v5_0).slice (win0_6.rect t)).set ↔ _
  rw [View.set_slice_whole, Rect.mem_set_unit]
  exact Iff.rfl

/-- Row `r` of the output lies in block `r / 128`. -/
theorem cover6 (i : S8192x1.Idx) : ∃ t : Fin cfg0.N, (cfg0.win 6).flush t = true ∧ i ∈ ((cfg0.win 6).blk t).view.set := by
  have h0 : (i 0).val < 8192 := (i 0).isLt
  have h1 : (i 1).val < 1 := (i 1).isLt
  refine ⟨⟨(i 0).val / 128, by rw [show cfg0.N = 64 from N_0]; omega⟩, flush0_6 _, ?_⟩
  rw [mem_blk6]
  obtain ⟨-, -, -, -, -, -, -, -, -, -, -, -, e60, e61, e70, e71⟩ := idx_facts ⟨(i 0).val / 128, by rw [show cfg0.N = 64 from N_0]; omega⟩
  intro a
  match a with
  | ⟨0, _⟩ => show win0_6.index _ (0 : Fin 2) * 128 ≤ (i 0).val ∧ (i 0).val < win0_6.index _ (0 : Fin 2) * 128 + 128; simp only [] at e60; omega
  | ⟨1, _⟩ => show win0_6.index _ (1 : Fin 2) * 1 ≤ (i 1).val ∧ (i 1).val < win0_6.index _ (1 : Fin 2) * 1 + 1; omega

/-- The loss output after the run, whole. -/
theorem final6 (hB : ∀ (X : Cert.Spec.SX.Idx → EReal) (Y : Cert.Spec.SY.Idx → BitVec 32) (t : Fin 64)
      (x0 : Vec Ideal S128x128 .f32) (x1 : Vec Ideal S8192x128 .f32) (x2 : Vec Ideal S128x1 .i32) (x3 : Vec Ideal S1x8192 .i32)
      (x4 : Vec Ideal S128x1 .i32) (x5 : Vec Ideal S1x8192 .i32)
      (h0 : ∀ (p : Fin 128) (k : Fin 128), x0 (ix2 p k) = X (ix2 (row t p) k))
      (h1 : ∀ (j : Fin 8192) (k : Fin 128), x1 (ix2 j k) = X (ix2 j k))
      (h2 : ∀ p : Fin 128, x2 (ix2 p 0) = Y (ix1 (row t p)))
      (h3 : ∀ j : Fin 8192, x3 (ix2 0 j) = Y (ix1 j))
      (h4 : ∀ p : Fin 128, x4 (ix2 p 0) = BitVec.ofNat 32 (row t p).val)
      (h5 : ∀ j : Fin 8192, x5 (ix2 0 j) = BitVec.ofNat 32 j.val)
      (p : Fin 128),
      lossPay (F := Ideal) x0 x1 x2 x3 x4 x5 (ix2 p 0) = Cert.Spec.loss X Y (row t p)
      ∧ validPay (F := Ideal) x0 x1 x2 x3 x4 x5 (ix2 p 0) = Cert.Spec.validF X Y (row t p)) (c : Dev nD) : (dats m 0 c).arrAt 6 cfg0.N = lossArr m c :=
  (dats m 0 c).arrAt_eq_of_cover 6 (lossArr m c) (fun t _ => flushed6_eq m hB c t) cover6

/-- What point `t` writes back into the validity output is block `t` of the whole-array function. -/
theorem flushed7_eq (hB : ∀ (X : Cert.Spec.SX.Idx → EReal) (Y : Cert.Spec.SY.Idx → BitVec 32) (t : Fin 64)
      (x0 : Vec Ideal S128x128 .f32) (x1 : Vec Ideal S8192x128 .f32) (x2 : Vec Ideal S128x1 .i32) (x3 : Vec Ideal S1x8192 .i32)
      (x4 : Vec Ideal S128x1 .i32) (x5 : Vec Ideal S1x8192 .i32)
      (h0 : ∀ (p : Fin 128) (k : Fin 128), x0 (ix2 p k) = X (ix2 (row t p) k))
      (h1 : ∀ (j : Fin 8192) (k : Fin 128), x1 (ix2 j k) = X (ix2 j k))
      (h2 : ∀ p : Fin 128, x2 (ix2 p 0) = Y (ix1 (row t p)))
      (h3 : ∀ j : Fin 8192, x3 (ix2 0 j) = Y (ix1 j))
      (h4 : ∀ p : Fin 128, x4 (ix2 p 0) = BitVec.ofNat 32 (row t p).val)
      (h5 : ∀ j : Fin 8192, x5 (ix2 0 j) = BitVec.ofNat 32 j.val)
      (p : Fin 128),
      lossPay (F := Ideal) x0 x1 x2 x3 x4 x5 (ix2 p 0) = Cert.Spec.loss X Y (row t p)
      ∧ validPay (F := Ideal) x0 x1 x2 x3 x4 x5 (ix2 p 0) = Cert.Spec.validF X Y (row t p)) (c : Dev nD) (t : Fin cfg0.N) :
    (dats m 0 c).flushed 7 t = ((cfg0.win 7).blk t).view.read (Elt Ideal) (validArr m c) := by
  show (cfg0.win 7).cut (grid0.coords t) ((dats m 0 c).after 7 t) = _
  rw [after0_7]
  unfold outValid
  rw [View.canon_unit_zero hz]
  simp only [View.ld_unit_zero (S := S128x128) hz, View.ld_unit_zero (S := S8192x128) hz, View.ld_unit_zero (S := S128x1) hz,
    View.ld_unit_zero (S := S1x8192) hz]
  funext j
  obtain ⟨p, q, rfl⟩ : ∃ (p : Fin 128) (q : Fin 1), j = ix2 p q := ⟨j 0, j 1, eq_ix2 j⟩
  obtain rfl : q = 0 := Subsingleton.elim _ _
  show validPay (F := Ideal) (iblk m c 0 t) (iblk m c 1 t) (iblk m c 2 t) (iblk m c 3 t) (iblk m c 4 t) (iblk m c 5 t) (ix2 p 0) = validArr m c (((cfg0.win 7).blk t).view.emb (ix2 p 0))
  rw [(hB (argX m c) (argY m c) (blockNo t) _ _ _ _ _ _ (iblk0_apply m c t) (iblk1_apply m c t) (iblk2_apply m c t) (iblk3_apply m c t)
    (iblk4_apply m c t) (iblk5_apply m c t) p).2]
  unfold validArr
  refine congrArg _ (Fin.ext (Eq.symm ?_))
  obtain ⟨-, -, -, -, -, -, -, -, -, -, -, -, e60, e61, e70, e71⟩ := idx_facts t
  show win0_7.index t (0 : Fin 2) * 128 + 1 * p.val = 128 * t.val + p.val
  omega

theorem mem_blk7 (t : Fin cfg0.N) (i : S8192x1.Idx) :
    i ∈ ((cfg0.win 7).blk t).view.set ↔ ∀ a : Fin 2, win0_7.index t a * S128x1.size a ≤ (i a).val ∧ (i a).val < win0_7.index t a * S128x1.size a + S128x1.size a := by
  show i ∈ ((View.whole main_v5_1).slice (win0_7.rect t)).set ↔ _
  rw [View.set_slice_whole, Rect.mem_set_unit]
  exact Iff.rfl

/-- Row `r` of the output lies in block `r / 128`. -/
theorem cover7 (i : S8192x1.Idx) : ∃ t : Fin cfg0.N, (cfg0.win 7).flush t = true ∧ i ∈ ((cfg0.win 7).blk t).view.set := by
  have h0 : (i 0).val < 8192 := (i 0).isLt
  have h1 : (i 1).val < 1 := (i 1).isLt
  refine ⟨⟨(i 0).val / 128, by rw [show cfg0.N = 64 from N_0]; omega⟩, flush0_7 _, ?_⟩
  rw [mem_blk7]
  obtain ⟨-, -, -, -, -, -, -, -, -, -, -, -, e60, e61, e70, e71⟩ := idx_facts ⟨(i 0).val / 128, by rw [show cfg0.N = 64 from N_0]; omega⟩
  intro a
  match a with
  | ⟨0, _⟩ => show win0_7.index _ (0 : Fin 2) * 128 ≤ (i 0).val ∧ (i 0).val < win0_7.index _ (0 : Fin 2) * 128 + 128; simp only [] at e70; omega
  | ⟨1, _⟩ => show win0_7.index _ (1 : Fin 2) * 1 ≤ (i 1).val ∧ (i 1).val < win0_7.index _ (1 : Fin 2) * 1 + 1; omega

/-- The validity output after the run, whole. -/
theorem final7 (hB : ∀ (X : Cert.Spec.SX.Idx → EReal) (Y : Cert.Spec.SY.Idx → BitVec 32) (t : Fin 64)
      (x0 : Vec Ideal S128x128 .f32) (x1 : Vec Ideal S8192x128 .f32) (x2 : Vec Ideal S128x1 .i32) (x3 : Vec Ideal S1x8192 .i32)
      (x4 : Vec Ideal S128x1 .i32) (x5 : Vec Ideal S1x8192 .i32)
      (h0 : ∀ (p : Fin 128) (k : Fin 128), x0 (ix2 p k) = X (ix2 (row t p) k))
      (h1 : ∀ (j : Fin 8192) (k : Fin 128), x1 (ix2 j k) = X (ix2 j k))
      (h2 : ∀ p : Fin 128, x2 (ix2 p 0) = Y (ix1 (row t p)))
      (h3 : ∀ j : Fin 8192, x3 (ix2 0 j) = Y (ix1 j))
      (h4 : ∀ p : Fin 128, x4 (ix2 p 0) = BitVec.ofNat 32 (row t p).val)
      (h5 : ∀ j : Fin 8192, x5 (ix2 0 j) = BitVec.ofNat 32 j.val)
      (p : Fin 128),
      lossPay (F := Ideal) x0 x1 x2 x3 x4 x5 (ix2 p 0) = Cert.Spec.loss X Y (row t p)
      ∧ validPay (F := Ideal) x0 x1 x2 x3 x4 x5 (ix2 p 0) = Cert.Spec.validF X Y (row t p)) (c : Dev nD) : (dats m 0 c).arrAt 7 cfg0.N = validArr m c :=
  (dats m 0 c).arrAt_eq_of_cover 7 (validArr m c) (fun t _ => flushed7_eq m hB c t) cover7

/-! ## The twelve host operations after the region, evaluated -/

/-- A sum over the indices of a one-column array is the sum over its rows. -/
theorem sum_col (f : S8192x1.Idx → EReal) : ∑ i : S8192x1.Idx, f i = ∑ r : Fin 8192, f (ix2 r (0 : Fin 1)) := by
  rw [sum_idx2]
  exact Finset.sum_congr rfl fun r _ => Fin.sum_univ_one _

/-- The result buffer: the number of valid rows n = Σ validity and the total loss s = Σ loss are summed from the two
    outputs; the result is s / max n 1 when n > 0 and 0 otherwise. -/
theorem kernel_result (hB : ∀ (X : Cert.Spec.SX.Idx → EReal) (Y : Cert.Spec.SY.Idx → BitVec 32) (t : Fin 64)
      (x0 : Vec Ideal S128x128 .f32) (x1 : Vec Ideal S8192x128 .f32) (x2 : Vec Ideal S128x1 .i32) (x3 : Vec Ideal S1x8192 .i32)
      (x4 : Vec Ideal S128x1 .i32) (x5 : Vec Ideal S1x8192 .i32)
      (h0 : ∀ (p : Fin 128) (k : Fin 128), x0 (ix2 p k) = X (ix2 (row t p) k))
      (h1 : ∀ (j : Fin 8192) (k : Fin 128), x1 (ix2 j k) = X (ix2 j k))
      (h2 : ∀ p : Fin 128, x2 (ix2 p 0) = Y (ix1 (row t p)))
      (h3 : ∀ j : Fin 8192, x3 (ix2 0 j) = Y (ix1 j))
      (h4 : ∀ p : Fin 128, x4 (ix2 p 0) = BitVec.ofNat 32 (row t p).val)
      (h5 : ∀ j : Fin 8192, x5 (ix2 0 j) = BitVec.ofNat 32 j.val)
      (p : Fin 128),
      lossPay (F := Ideal) x0 x1 x2 x3 x4 x5 (ix2 p 0) = Cert.Spec.loss X Y (row t p)
      ∧ validPay (F := Ideal) x0 x1 x2 x3 x4 x5 (ix2 p 0) = Cert.Spec.validF X Y (row t p)) (c : Dev nD) :
    Wfin m c (Proc.devRef .tc main_v11) = fun _ => Cert.Spec.result (argX m c) (argY m c) := by
  unfold Wfin
  simp only [List.flatten_cons, List.flatten_nil, List.append_nil, hostOps1, hostOps1_1, List.cons_append, List.nil_append]
  after_results
  rw [Wexit6, Wexit7, final6 m hB c, final7 m hB c]
  funext i
  show Scalar.select (FloatOps.cmpf .ogt (Host.reduceAdd (validArr m c) (constant (F := Ideal) S_ .f32 0x00000000#32) Facts₀.reducesTo_S8192x1_S_d0_1 Facts₀.h_S_ i) (Ideal.ofBits .f32 0x00000000#32))
      (Ideal.div (Host.reduceAdd (lossArr m c) (constant (F := Ideal) S_ .f32 0x00000000#32) Facts₀.reducesTo_S8192x1_S_d0_1 Facts₀.h_S_ i)
        (max (Host.reduceAdd (validArr m c) (constant (F := Ideal) S_ .f32 0x00000000#32) Facts₀.reducesTo_S8192x1_S_d0_1 Facts₀.h_S_ i) (Ideal.ofBits .f32 0x3F800000#32)))
      (Ideal.ofBits .f32 0x00000000#32) = _
  rw [hostReduceAdd_apply, hostReduceAdd_apply, Ideal.hostReduceAdd_total _ (fun b => b.elim0), Ideal.hostReduceAdd_total _ (fun b => b.elim0),
    sum_col, sum_col]
  simp only [constant_apply, Ideal.ofBits_zero_f32, Ideal.ofBits_one_f32, zero_add]
  show Scalar.select (Ideal.cmp .ogt (Cert.Spec.nValid (argX m c) (argY m c)) 0)
      (Ideal.div (Cert.Spec.total (argX m c) (argY m c)) (max (Cert.Spec.nValid (argX m c) (argY m c)) 1)) 0 = _
  unfold Cert.Spec.result
  by_cases h : (0 : EReal) < Cert.Spec.nValid (argX m c) (argY m c)
  · rw [if_pos h]
    simp [Scalar.select, Ideal.cmp, h]
  · rw [if_neg h]
    simp [Scalar.select, Ideal.cmp, h]

end Cert.KernelIdeal.Hand

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KerSim.lean ====
/-
  The block's similarities at an index: entry (p, j) of the product of the query block with the transposed key
  matrix, into a zero accumulator, is the inner product of query row p with key row j.
-/
import proofs.«125543_j56839597195693_1_alg».proof.Proof.KerPay
import proofs.«125543_j56839597195693_1_alg».proof.Proof.LibMatmul2d
import Idealize.ShloMosaic.Lib.ValueLayout

noncomputable section

namespace Cert.KerSide

open Cert.KernelIdeal Cert.KernelIdeal.Gen Cert.KernelIdeal.Hand
open Idealize.ShloMosaic Idealize.ShloMosaic.ValueIdx
open scoped BigOperators

/-- The similarity of query row p and key row j: Σ over the 128 features of the products of their entries. The key
    matrix enters the product transposed, so its (k, j) entry is the key matrix's (j, k) entry. -/
theorem simPay_apply (x0 : Vec Ideal S128x128 .f32) (x1 : Vec Ideal S8192x128 .f32) (p : Fin 128) (j : Fin 8192) :
    simPay (F := Ideal) x0 x1 (ix2 p j) = ∑ k : Fin 128, x0 (ix2 p k) * x1 (ix2 j k) := by
  refine (Cert.LibMatmul2d.matmul_plain_apply (M := 128) (K := 128) (N := 8192) x0
    (transpose S128x8192 [1, 0] x1 transposes_S8192x128_p1_0_S128x8192) p j).trans ?_
  exact Finset.sum_congr rfl fun k _ => congrArg (x0 (ix2 p k) * ·)
    (transpose_ix2_apply x1 transposes_S8192x128_p1_0_S128x8192 k j)

end Cert.KerSide

end
-- ==== Proof.KerMasks.lean ====
/-
  The block's label masks at an index.

  A mask is a one-bit word per entry; it "holds" where the word is 1. At entry (p, j): the labels agree where the
  query label of row p equals the label of column j; the row numbers agree likewise; a positive is an entry whose
  labels agree and whose row numbers differ (the complement is the exclusive-or with the all-ones mask); a negative
  is an entry whose labels differ. A select on a mask that holds exactly when a proposition does is the `if` on it.
-/
import proofs.«125543_j56839597195693_1_alg».proof.Proof.KerPay
import proofs.«125543_j56839597195693_1_alg».proof.Proof.LibRowwise
import Idealize.ShloMosaic.Lib.ValueLayout
import Idealize.ShloMosaic.Lib.WordArith

noncomputable section

namespace Cert.KerSide

open Cert.KernelIdeal Cert.KernelIdeal.Gen Cert.KernelIdeal.Hand
open Idealize.ShloMosaic Idealize.ShloMosaic.ValueIdx

/-! ## One-bit words -/

/-- The conjunction of two one-bit words holds exactly when both hold. -/
theorem andi_eq_one_iff (a b : BitVec 1) : IntOp.andi a b = 1#1 ↔ a = 1#1 ∧ b = 1#1 := by
  revert a b; decide

/-- The exclusive-or of a one-bit word with one holds exactly when the word does not. -/
theorem xori_one_eq_one_iff (a : BitVec 1) : IntOp.xori a 1#1 = 1#1 ↔ ¬a = 1#1 := by
  revert a; decide

/-- The equality comparison of two words holds exactly when they are equal. -/
theorem cmpi_eq_eq_one_iff {w : ℕ} (x y : BitVec w) : IntOp.cmpi .eq x y = 1#1 ↔ x = y := by
  unfold IntOp.cmpi
  exact (WordArith.ofBool_eq_one_iff _).trans beq_iff_eq

/-- A select on a bit that holds exactly when `P` does is the `if` on `P`. -/
theorem select_of_iff {α : Type} {c : BitVec 1} {P : Prop} [Decidable P] (h : c = 1#1 ↔ P) (a b : α) :
    Scalar.select c a b = if P then a else b :=
  if_congr h rfl rfl

/-! ## The masks at an entry -/

/-- "The labels agree" at (p, j): the column of query labels against the row of all labels. -/
theorem samePay_iff (x2 : Vec Ideal S128x1 .i32) (x3 : Vec Ideal S1x8192 .i32) (p : Fin 128) (j : Fin 8192) :
    k0_pay4 (F := Ideal) x2 x3 (ix2 p j) = 1#1 ↔ x2 (ix2 p 0) = x3 (ix2 0 j) := by
  refine Iff.trans (Eq.to_iff ?_) (cmpi_eq_eq_one_iff (x2 (ix2 p 0)) (x3 (ix2 0 j)))
  refine congrArg (· = 1#1) ?_
  show IntOp.cmpi .eq
      (broadcastTo S128x8192 (shapeCast S128x1 x2 shapeCasts_S128x1_S128x1) broadcasts_S128x1_S128x8192 (ix2 p j))
      (broadcastTo S128x8192 (shapeCast S1x8192 x3 shapeCasts_S1x8192_S1x8192) broadcasts_S1x8192_S128x8192 (ix2 p j))
    = IntOp.cmpi .eq (x2 (ix2 p 0)) (x3 (ix2 0 j))
  rw [shapeCast_self, shapeCast_self]
  exact congrArg₂ (IntOp.cmpi .eq)
    (Cert.LibRowwise.broadcastTo_a1_ab_apply x2 broadcasts_S128x1_S128x8192 p j)
    (broadcastTo_1b_ab_apply x3 broadcasts_S1x8192_S128x8192 p j)

/-- A negative at (p, j): the labels differ. -/
theorem negPay_iff (x2 : Vec Ideal S128x1 .i32) (x3 : Vec Ideal S1x8192 .i32) (p : Fin 128) (j : Fin 8192) :
    k0_pay6 (F := Ideal) x2 x3 (ix2 p j) = 1#1 ↔ x2 (ix2 p 0) ≠ x3 (ix2 0 j) :=
  (xori_one_eq_one_iff _).trans (not_congr (samePay_iff x2 x3 p j))

/-- A positive at (p, j): the labels agree and the row numbers differ. -/
theorem posPay_iff (x2 : Vec Ideal S128x1 .i32) (x3 : Vec Ideal S1x8192 .i32) (x4 : Vec Ideal S128x1 .i32)
    (x5 : Vec Ideal S1x8192 .i32) (p : Fin 128) (j : Fin 8192) :
    posPay (F := Ideal) x2 x3 x4 x5 (ix2 p j) = 1#1
      ↔ x2 (ix2 p 0) = x3 (ix2 0 j) ∧ x4 (ix2 p 0) ≠ x5 (ix2 0 j) :=
  (andi_eq_one_iff _ _).trans
    (and_congr (samePay_iff x2 x3 p j) ((xori_one_eq_one_iff _).trans (not_congr (samePay_iff x4 x5 p j))))

end Cert.KerSide

end
-- ==== Proof.KerEntries.lean ====
/-
  The block's entries against the specification.

  Block t holds query rows 128·t … 128·t + 127 of the embedding matrix, with their labels and their row numbers; the
  keys are the whole matrix, with all labels and all column numbers. Then at entry (p, j) the similarity is the
  specification's similarity of rows (row t p) and j, the positives' mask holds exactly where j is a positive of
  row (row t p), and the negatives' mask exactly where j is a negative of it. Row and column numbers are below 2³²,
  so two of them are equal as 32-bit words exactly when they are equal.
-/
import proofs.«125543_j56839597195693_1_alg».proof.Proof.Spec
import proofs.«125543_j56839597195693_1_alg».proof.Proof.KerRow
import proofs.«125543_j56839597195693_1_alg».proof.Proof.KerSim
import proofs.«125543_j56839597195693_1_alg».proof.Proof.KerMasks

noncomputable section

namespace Cert.KerSide

open Cert.KernelIdeal Cert.KernelIdeal.Gen Cert.KernelIdeal.Hand
open Idealize.ShloMosaic Idealize.ShloMosaic.ValueIdx
open scoped BigOperators

/-- Two row numbers below 8192 are equal as 32-bit words exactly when they are equal. -/
theorem ofNat_row_inj (r j : Fin 8192) : BitVec.ofNat 32 r.val = BitVec.ofNat 32 j.val ↔ r = j := by
  constructor
  · intro h
    have h' := congrArg BitVec.toNat h
    rw [BitVec.toNat_ofNat, BitVec.toNat_ofNat] at h'
    have hr := r.isLt
    have hj := j.isLt
    exact Fin.ext (by omega)
  · rintro rfl; rfl

section Block

variable (X : Cert.Spec.SX.Idx → EReal) (Y : Cert.Spec.SY.Idx → BitVec 32) (t : Fin 64)
  (x0 : Vec Ideal S128x128 .f32) (x1 : Vec Ideal S8192x128 .f32) (x2 : Vec Ideal S128x1 .i32) (x3 : Vec Ideal S1x8192 .i32)
  (x4 : Vec Ideal S128x1 .i32) (x5 : Vec Ideal S1x8192 .i32)

/-- The similarity at (p, j) is the specification's similarity of rows (row t p) and j. -/
theorem simPay_eq_sim (h0 : ∀ (p : Fin 128) (k : Fin 128), x0 (ix2 p k) = X (ix2 (row t p) k))
    (h1 : ∀ (j : Fin 8192) (k : Fin 128), x1 (ix2 j k) = X (ix2 j k)) (p : Fin 128) (j : Fin 8192) :
    simPay (F := Ideal) x0 x1 (ix2 p j) = Cert.Spec.sim X (row t p) j :=
  (simPay_apply x0 x1 p j).trans (Finset.sum_congr rfl fun k _ => by rw [h0 p k, h1 j k])

/-- The negatives' mask holds at (p, j) exactly where j is a negative of row (row t p). -/
theorem negPay_iff_Neg (h2 : ∀ p : Fin 128, x2 (ix2 p 0) = Y (ix1 (row t p))) (h3 : ∀ j : Fin 8192, x3 (ix2 0 j) = Y (ix1 j))
    (p : Fin 128) (j : Fin 8192) :
    k0_pay6 (F := Ideal) x2 x3 (ix2 p j) = 1#1 ↔ Cert.Spec.Neg Y (row t p) j := by
  refine (negPay_iff x2 x3 p j).trans ?_
  rw [h2 p, h3 j]
  exact Iff.rfl

/-- The positives' mask holds at (p, j) exactly where j is a positive of row (row t p). -/
theorem posPay_iff_Pos (h2 : ∀ p : Fin 128, x2 (ix2 p 0) = Y (ix1 (row t p))) (h3 : ∀ j : Fin 8192, x3 (ix2 0 j) = Y (ix1 j))
    (h4 : ∀ p : Fin 128, x4 (ix2 p 0) = BitVec.ofNat 32 (row t p).val) (h5 : ∀ j : Fin 8192, x5 (ix2 0 j) = BitVec.ofNat 32 j.val)
    (p : Fin 128) (j : Fin 8192) :
    posPay (F := Ideal) x2 x3 x4 x5 (ix2 p j) = 1#1 ↔ Cert.Spec.Pos Y (row t p) j := by
  refine (posPay_iff x2 x3 x4 x5 p j).trans ?_
  rw [h2 p, h3 j, h4 p, h5 j]
  exact and_congr Iff.rfl (not_congr (ofNat_row_inj (row t p) j))

end Block

end Cert.KerSide

end
-- ==== Proof.LibMinReduce.lean ====
/-
  Minima of a matrix along an axis, at the exact instance and for any extents.

  On the extended reals a minimum-reduction is the fold of `min` from the starting value over the coordinates of the
  reduced axis. Read at an index written by coordinates: the vector unit's minimum over the FIRST axis at a column
  (what a `min` over rows that keeps one row prints), the vector unit's and the host's minimum over the LAST axis at
  a row. The reduced index with a coordinate put back on the dropped first axis is (coordinate, column).
-/
import Idealize.ShloMosaic.Lib.ValueLayout
import Idealize.ShloMosaic.Lib.IdealHost
import Idealize.ShloMosaic.PureOps.Ideal.Laws

noncomputable section

namespace Cert.LibMinReduce

open Idealize.ShloMosaic Idealize.ShloMosaic.ValueIdx
open scoped BigOperators

/-- A minimum-reduction of the vector unit over one axis, at the exact instance: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Column `c` with the coordinate `k` put back on the dropped first axis is the matrix index `(k, c)`. -/
theorem lift_firstAxis {a b : ℕ} (h : (⟨2, ![a, b]⟩ : Shape).Reduces [0] ⟨1, ![b]⟩) (c : Fin b) (k : Fin a) :
    h.lift (ix1 c) k = ix2 k c := by
  funext d
  apply Fin.ext
  show h.liftVal (ix1 c) k.val d = _
  unfold Shape.Reduces.liftVal
  match d with
  | ⟨0, _⟩ => exact dif_pos (show (0 : ℕ) = 0 from rfl)
  | ⟨1, _⟩ => exact (dif_neg (show ¬((1 : ℕ) = 0) by omega)).trans (dif_neg (show ¬((1 : ℕ) < 0) by omega))

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's minimum of a matrix over its FIRST axis, at column `c`: the fold of `min` over the column's
    entries, from the accumulator's value. -/
theorem colMin_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (c : Fin b) :
    multiReduction .minimumf [0] ⟨1, ![b]⟩ src acc h hφ hacc (ix1 c)
      = (Finset.univ : Finset (Fin a)).fold min (Ideal.ofBits φ acc) (fun k => src (ix2 k c)) :=
  (multiReduction_minimumf_single src acc h hφ hacc (ix1 c)).trans
    (congrArg (fun f => (Finset.univ : Finset (Fin a)).fold min (Ideal.ofBits φ acc) f)
      (funext fun k => congrArg src (lift_firstAxis h c k)))

/-- The vector unit's minimum of a matrix over its LAST axis, at row `p`. -/
theorem rowMin_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun k => src (ix2 p k)) :=
  (multiReduction_minimumf_single src acc h hφ hacc (ix1 p)).trans
    (congrArg (fun f => (Finset.univ : Finset (Fin b)).fold min (Ideal.ofBits φ acc) f)
      (funext fun k => congrArg src (lift_lastAxis h p k)))

/-- The host's minimum of a matrix over its LAST axis, at row `p`: the fold of `min` over the row's entries, from the
    initial value. -/
theorem hostRowMin_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.minimumf (F := Ideal) (φ := φ)) x init h' hu (ix1 p)
      = (Finset.univ : Finset (Fin b)).fold min (init (Shape.Idx.first hu)) (fun k => x (ix2 p k)) :=
  (Host.reduce_eq_fold_single (FloatOps.minimumf (F := Ideal) (φ := φ)) x init h' h hu (ix1 p)).trans
    (congrArg (fun f => (Finset.univ : Finset (Fin b)).fold min (init (Shape.Idx.first hu)) f)
      (funext fun k => congrArg x (lift_lastAxis h p k)))

/-- The host's minimum of a matrix over its FIRST axis, at column `c`. -/
theorem hostColMin_apply {φ : FTy} {a b : ℕ} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.minimumf (F := Ideal) (φ := φ)) x init h' hu (ix1 c)
      = (Finset.univ : Finset (Fin a)).fold min (init (Shape.Idx.first hu)) (fun k => x (ix2 k c)) :=
  (Host.reduce_eq_fold_single (FloatOps.minimumf (F := Ideal) (φ := φ)) x init h' h hu (ix1 c)).trans
    (congrArg (fun f => (Finset.univ : Finset (Fin a)).fold min (init (Shape.Idx.first hu)) f)
      (funext fun k => congrArg x (lift_firstAxis h c k)))

end Cert.LibMinReduce

end
-- ==== Proof.KerThresholds.lean ====
/-
  The mining thresholds and the two comparison masks at an entry.

  The positives' threshold of row p is the minimum over the row of the similarities with +∞ put where the entry is
  not a positive; the negatives' threshold the maximum with -∞ put where it is not a negative. Each is kept as a
  column and repeated along the row, so it reads the same at every entry of row p. A negative is kept where its
  similarity plus the margin is above the positives' threshold; "below" holds where the similarity less the margin
  is under the negatives' threshold. An ordered comparison of extended reals holds exactly when the order does.

  Each fact is first proved for an arbitrary matrix S of similarities and arbitrary masks, and then read at the
  block's own similarities and masks; so no step ever looks inside the similarities.
-/
import proofs.«125543_j56839597195693_1_alg».proof.Proof.KerMasks
import proofs.«125543_j56839597195693_1_alg».proof.Proof.LibRowwise
import proofs.«125543_j56839597195693_1_alg».proof.Proof.LibMinReduce

noncomputable section

namespace Cert.KerSide

open Cert.KernelIdeal Cert.KernelIdeal.Gen Cert.KernelIdeal.Hand
open Idealize.ShloMosaic Idealize.ShloMosaic.ValueIdx

/-! ## Ordered comparisons of extended reals -/

/-- "a is above b" holds exactly when b < a. -/
theorem cmpf_ogt_eq_one_iff (a b : EReal) : FloatOps.cmpf (F := Ideal) (φ := .f32) .ogt a b = 1#1 ↔ b < a :=
  (WordArith.ofBool_eq_one_iff _).trans decide_eq_true_iff

/-- "a is below b" holds exactly when a < b. -/
theorem cmpf_olt_eq_one_iff (a b : EReal) : FloatOps.cmpf (F := Ideal) (φ := .f32) .olt a b = 1#1 ↔ a < b :=
  (WordArith.ofBool_eq_one_iff _).trans decide_eq_true_iff

/-- A scalar constant of the exact instance is the extended real its word encodes. -/
theorem scalar_ofBits_f32 (b : BitVec 32) : Scalar.ofBits (F := Ideal) .f32 b = Ideal.ofBits .f32 b := rfl

/-! ## A row's masked minimum and maximum, repeated along the row

The reduction's two side conditions (the format has the reduction, the starting word is its neutral element) are
taken as given, so each lemma applies whatever proofs of them the reduction carries. -/

/-- The minimum over row p of S with +∞ where the mask does not hold, kept as a column and repeated along the row. -/
theorem rowMinMasked_apply (m : IVec S128x8192 1) (S : FVec Ideal S128x8192 .f32) (hφ : FKind.Formats .f32)
    (hacc : (0x7F800000#32 : BitVec 32) = FKind.minimumf.neutral .f32 hφ) (p : Fin 128) (j : Fin 8192) :
    broadcastTo S128x8192
        (shapeCast S128x1
          (multiReduction (F := Ideal) .minimumf [1] S128
            (select m S (broadcast S128x8192 (Scalar.ofBits (F := Ideal) .f32 0x7F800000#32)))
            0x7F800000#32 reduces_S128x8192_S128 hφ hacc)
          shapeCasts_S128_S128x1)
        broadcasts_S128x1_S128x8192 (ix2 p j)
      = (Finset.univ : Finset (Fin 8192)).fold min (Ideal.ofBits .f32 0x7F800000#32)
          (fun k => Scalar.select (m (ix2 p k)) (S (ix2 p k)) (Ideal.ofBits .f32 0x7F800000#32)) :=
  (Cert.LibRowwise.perRow_apply
      (multiReduction (F := Ideal) .minimumf [1] S128
        (select m S (broadcast S128x8192 (Scalar.ofBits (F := Ideal) .f32 0x7F800000#32)))
        0x7F800000#32 reduces_S128x8192_S128 hφ hacc)
      shapeCasts_S128_S128x1 broadcasts_S128x1_S128x8192 p j).trans
    (Cert.LibMinReduce.rowMin_apply
      (select m S (broadcast S128x8192 (Scalar.ofBits (F := Ideal) .f32 0x7F800000#32)))
      0x7F800000#32 reduces_S128x8192_S128 hφ hacc p)

/-- The maximum over row p of S with -∞ where the mask does not hold, kept as a column and repeated along the row. -/
theorem rowMaxMasked_apply (m : IVec S128x8192 1) (S : FVec Ideal S128x8192 .f32) (hφ : FKind.Formats .f32)
    (hacc : (0xFF800000#32 : BitVec 32) = FKind.maximumf.neutral .f32 hφ) (p : Fin 128) (j : Fin 8192) :
    broadcastTo S128x8192
        (shapeCast S128x1
          (multiReduction (F := Ideal) .maximumf [1] S128
            (select m S (broadcast S128x8192 (Scalar.ofBits (F := Ideal) .f32 0xFF800000#32)))
            0xFF800000#32 reduces_S128x8192_S128 hφ hacc)
          shapeCasts_S128_S128x1)
        broadcasts_S128x1_S128x8192 (ix2 p j)
      = (Finset.univ : Finset (Fin 8192)).fold max (Ideal.ofBits .f32 0xFF800000#32)
          (fun k => Scalar.select (m (ix2 p k)) (S (ix2 p k)) (Ideal.ofBits .f32 0xFF800000#32)) :=
  (Cert.LibRowwise.perRow_apply
      (multiReduction (F := Ideal) .maximumf [1] S128
        (select m S (broadcast S128x8192 (Scalar.ofBits (F := Ideal) .f32 0xFF800000#32)))
        0xFF800000#32 reduces_S128x8192_S128 hφ hacc)
      shapeCasts_S128_S128x1 broadcasts_S128x1_S128x8192 p j).trans
    (Cert.LibRowwise.rowMax_apply
      (select m S (broadcast S128x8192 (Scalar.ofBits (F := Ideal) .f32 0xFF800000#32)))
      0xFF800000#32 reduces_S128x8192_S128 hφ hacc p)

/-! ## The two comparison masks, for any similarities and masks -/

/-- The least of row p's entries of S where the mask holds, +∞ when it holds nowhere in the row. -/
def minOver (m : IVec S128x8192 1) (S : FVec Ideal S128x8192 .f32) (p : Fin 128) : EReal :=
  (Finset.univ : Finset (Fin 8192)).fold min (Ideal.ofBits .f32 0x7F800000#32)
    (fun k => Scalar.select (m (ix2 p k)) (S (ix2 p k)) (Ideal.ofBits .f32 0x7F800000#32))

/-- The greatest of row p's entries of S where the mask holds, -∞ when it holds nowhere in the row. -/
def maxOver (m : IVec S128x8192 1) (S : FVec Ideal S128x8192 .f32) (p : Fin 128) : EReal :=
  (Finset.univ : Finset (Fin 8192)).fold max (Ideal.ofBits .f32 0xFF800000#32)
    (fun k => Scalar.select (m (ix2 p k)) (S (ix2 p k)) (Ideal.ofBits .f32 0xFF800000#32))

/-- "mneg holds and S plus the margin is above the minimum of S over mpos" at (p, j). -/
theorem negKeepBody_iff (S : FVec Ideal S128x8192 .f32) (mpos mneg : IVec S128x8192 1) (hφ : FKind.Formats .f32)
    (hacc : (0x7F800000#32 : BitVec 32) = FKind.minimumf.neutral .f32 hφ) (p : Fin 128) (j : Fin 8192) :
    andi mneg
        (cmpf .ogt (addf S (broadcast S128x8192 (Scalar.ofBits (F := Ideal) .f32 0x3DCCCCCD#32)))
          (broadcastTo S128x8192
            (shapeCast S128x1
              (multiReduction (F := Ideal) .minimumf [1] S128
                (select mpos S (broadcast S128x8192 (Scalar.ofBits (F := Ideal) .f32 0x7F800000#32)))
                0x7F800000#32 reduces_S128x8192_S128 hφ hacc)
              shapeCasts_S128_S128x1)
            broadcasts_S128x1_S128x8192))
        (ix2 p j) = 1#1
      ↔ mneg (ix2 p j) = 1#1 ∧ minOver mpos S p < S (ix2 p j) + Ideal.ofBits .f32 0x3DCCCCCD#32 := by
  refine (andi_eq_one_iff (mneg (ix2 p j)) _).trans (and_congr Iff.rfl ?_)
  refine (cmpf_ogt_eq_one_iff (S (ix2 p j) + Ideal.ofBits .f32 0x3DCCCCCD#32) _).trans ?_
  exact Eq.to_iff (congrArg (· < S (ix2 p j) + Ideal.ofBits .f32 0x3DCCCCCD#32)
    (rowMinMasked_apply mpos S hφ hacc p j))

/-- "S less the margin is under the maximum of S over mneg" at (p, j). -/
theorem belowBody_iff (S : FVec Ideal S128x8192 .f32) (mneg : IVec S128x8192 1) (hφ : FKind.Formats .f32)
    (hacc : (0xFF800000#32 : BitVec 32) = FKind.maximumf.neutral .f32 hφ) (p : Fin 128) (j : Fin 8192) :
    cmpf .olt (subf S (broadcast S128x8192 (Scalar.ofBits (F := Ideal) .f32 0x3DCCCCCD#32)))
        (broadcastTo S128x8192
          (shapeCast S128x1
            (multiReduction (F := Ideal) .maximumf [1] S128
              (select mneg S (broadcast S128x8192 (Scalar.ofBits (F := Ideal) .f32 0xFF800000#32)))
              0xFF800000#32 reduces_S128x8192_S128 hφ hacc)
            shapeCasts_S128_S128x1)
          broadcasts_S128x1_S128x8192)
        (ix2 p j) = 1#1
      ↔ S (ix2 p j) - Ideal.ofBits .f32 0x3DCCCCCD#32 < maxOver mneg S p := by
  unfold maxOver
  rw [cmpf_apply, subf_apply, broadcast_apply, scalar_ofBits_f32, rowMaxMasked_apply mneg S hφ hacc p j]
  exact cmpf_olt_eq_one_iff _ _

/-! ## The block's own two masks -/

section Block

variable (x0 : Vec Ideal S128x128 .f32) (x1 : Vec Ideal S8192x128 .f32) (x2 : Vec Ideal S128x1 .i32) (x3 : Vec Ideal S1x8192 .i32)
  (x4 : Vec Ideal S128x1 .i32) (x5 : Vec Ideal S1x8192 .i32)

/-- A kept negative at (p, j): a negative whose similarity plus the margin is above the positives' threshold. -/
theorem negKeepPay_iff (p : Fin 128) (j : Fin 8192) :
    negKeepPay (F := Ideal) x0 x1 x2 x3 x4 x5 (ix2 p j) = 1#1
      ↔ k0_pay6 (F := Ideal) x2 x3 (ix2 p j) = 1#1
        ∧ minOver (posPay (F := Ideal) x2 x3 x4 x5) (simPay (F := Ideal) x0 x1) p
          < simPay (F := Ideal) x0 x1 (ix2 p j) + Ideal.ofBits .f32 0x3DCCCCCD#32 :=
  negKeepBody_iff (simPay (F := Ideal) x0 x1) (posPay (F := Ideal) x2 x3 x4 x5) (k0_pay6 (F := Ideal) x2 x3) _ _ p j

/-- "Below" at (p, j): the similarity less the margin is under the negatives' threshold. -/
theorem belowPay_iff (p : Fin 128) (j : Fin 8192) :
    belowPay (F := Ideal) x0 x1 x2 x3 (ix2 p j) = 1#1
      ↔ simPay (F := Ideal) x0 x1 (ix2 p j) - Ideal.ofBits .f32 0x3DCCCCCD#32
          < maxOver (k0_pay6 (F := Ideal) x2 x3) (simPay (F := Ideal) x0 x1) p :=
  belowBody_iff (simPay (F := Ideal) x0 x1) (k0_pay6 (F := Ideal) x2 x3) _ _ p j

end Block

end Cert.KerSide

end
-- ==== Proof.KerKeep.lean ====
/-
  The kept negatives and the kept positives against the specification.

  Under the block hypotheses the positives' threshold of row p is the specification's least similarity of row
  (row t p) to a positive, the negatives' threshold its greatest similarity to a negative; so the kept negatives'
  mask holds at (p, j) exactly where j is a kept negative of row (row t p), and the conjunction of the positives'
  mask with "below" exactly where j is a kept positive.
-/
import proofs.«125543_j56839597195693_1_alg».proof.Proof.KerEntries
import proofs.«125543_j56839597195693_1_alg».proof.Proof.KerThresholds

noncomputable section

namespace Cert.KerSide

open Cert.KernelIdeal Cert.KernelIdeal.Gen Cert.KernelIdeal.Hand
open Idealize.ShloMosaic Idealize.ShloMosaic.ValueIdx
open scoped BigOperators
open Classical

section Block

variable (X : Cert.Spec.SX.Idx → EReal) (Y : Cert.Spec.SY.Idx → BitVec 32) (t : Fin 64)
  (x0 : Vec Ideal S128x128 .f32) (x1 : Vec Ideal S8192x128 .f32) (x2 : Vec Ideal S128x1 .i32) (x3 : Vec Ideal S1x8192 .i32)
  (x4 : Vec Ideal S128x1 .i32) (x5 : Vec Ideal S1x8192 .i32)
  (h0 : ∀ (p : Fin 128) (k : Fin 128), x0 (ix2 p k) = X (ix2 (row t p) k))
  (h1 : ∀ (j : Fin 8192) (k : Fin 128), x1 (ix2 j k) = X (ix2 j k))
  (h2 : ∀ p : Fin 128, x2 (ix2 p 0) = Y (ix1 (row t p)))
  (h3 : ∀ j : Fin 8192, x3 (ix2 0 j) = Y (ix1 j))
  (h4 : ∀ p : Fin 128, x4 (ix2 p 0) = BitVec.ofNat 32 (row t p).val)
  (h5 : ∀ j : Fin 8192, x5 (ix2 0 j) = BitVec.ofNat 32 j.val)

include h0 h1 h2 h3 h4 h5 in
/-- The positives' threshold of row p is the specification's. -/
theorem minOver_eq_minPos (p : Fin 128) :
    minOver (posPay (F := Ideal) x2 x3 x4 x5) (simPay (F := Ideal) x0 x1) p = Cert.Spec.minPos X Y (row t p) := by
  unfold minOver Cert.Spec.minPos Cert.Spec.pInf
  refine congrArg (fun f => (Finset.univ : Finset (Fin 8192)).fold min (Ideal.ofBits .f32 0x7F800000#32) f) (funext fun k => ?_)
  rw [select_of_iff (posPay_iff_Pos Y t x2 x3 x4 x5 h2 h3 h4 h5 p k), simPay_eq_sim X t x0 x1 h0 h1 p k]

include h0 h1 h2 h3 in
/-- The negatives' threshold of row p is the specification's. -/
theorem maxOver_eq_maxNeg (p : Fin 128) :
    maxOver (k0_pay6 (F := Ideal) x2 x3) (simPay (F := Ideal) x0 x1) p = Cert.Spec.maxNeg X Y (row t p) := by
  unfold maxOver Cert.Spec.maxNeg Cert.Spec.nInf
  refine congrArg (fun f => (Finset.univ : Finset (Fin 8192)).fold max (Ideal.ofBits .f32 0xFF800000#32) f) (funext fun k => ?_)
  rw [select_of_iff (negPay_iff_Neg Y t x2 x3 h2 h3 p k), simPay_eq_sim X t x0 x1 h0 h1 p k]

include h0 h1 h2 h3 h4 h5 in
/-- The kept negatives' mask holds at (p, j) exactly where j is a kept negative of row (row t p). -/
theorem negKeepPay_iff_NegKeep (p : Fin 128) (j : Fin 8192) :
    negKeepPay (F := Ideal) x0 x1 x2 x3 x4 x5 (ix2 p j) = 1#1 ↔ Cert.Spec.NegKeep X Y (row t p) j := by
  unfold Cert.Spec.NegKeep Cert.Spec.margin
  rw [negKeepPay_iff x0 x1 x2 x3 x4 x5 p j, negPay_iff_Neg Y t x2 x3 h2 h3 p j,
    minOver_eq_minPos X Y t x0 x1 x2 x3 x4 x5 h0 h1 h2 h3 h4 h5 p, simPay_eq_sim X t x0 x1 h0 h1 p j]

include h0 h1 h2 h3 h4 h5 in
/-- The positives' mask and "below" both hold at (p, j) exactly where j is a kept positive of row (row t p). -/
theorem posKeepPay_iff_PosKeep (p : Fin 128) (j : Fin 8192) :
    k0_pay9 (posPay (F := Ideal) x2 x3 x4 x5) (belowPay (F := Ideal) x0 x1 x2 x3) (ix2 p j) = 1#1
      ↔ Cert.Spec.PosKeep X Y (row t p) j := by
  unfold Cert.Spec.PosKeep Cert.Spec.margin
  refine (andi_eq_one_iff (posPay (F := Ideal) x2 x3 x4 x5 (ix2 p j)) (belowPay (F := Ideal) x0 x1 x2 x3 (ix2 p j))).trans ?_
  rw [posPay_iff_Pos Y t x2 x3 x4 x5 h2 h3 h4 h5 p j, belowPay_iff x0 x1 x2 x3 p j,
    maxOver_eq_maxNeg X Y t x0 x1 x2 x3 h0 h1 h2 h3 p, simPay_eq_sim X t x0 x1 h0 h1 p j]

end Block

end Cert.KerSide

end
-- ==== Proof.KerAny.lean ====
/-
  "Some entry of the row holds", as the vector unit computes it.

  The mask is turned into the numbers 1 (holds) and 0 (does not), the row's maximum is taken starting from -∞, and
  the result is compared with 0. The maximum of such a row is above 0 exactly when some entry is 1, that is, when
  the mask holds somewhere in the row. This is the one place where constants are read as numbers: the words
  0x3F800000, 0x00000000 and 0xFF800000 are 1, 0 and -∞.
-/
import proofs.«125543_j56839597195693_1_alg».proof.Proof.KerThresholds
import Mathlib.Order.Fin.Basic
import Mathlib.Data.Finset.Lattice.Fold

noncomputable section

namespace Cert.KerSide

open Cert.KernelIdeal Cert.KernelIdeal.Gen Cert.KernelIdeal.Hand
open Idealize.ShloMosaic Idealize.ShloMosaic.ValueIdx

/-! ## The three words as numbers -/

/-- The word 0x3F800000 is the number 1: sign +, exponent 127 (the bias), fraction 0. -/
theorem ofBits_one_f32 : Ideal.ofBits .f32 0x3F800000#32 = 1 := by
  simp [Ideal.ofBits, Ideal.ieee]
  rw [← EReal.coe_mul]
  norm_num

/-- The word 0xFF800000 is -∞: sign -, exponent all ones, fraction 0. -/
theorem ofBits_ninf_f32 : Ideal.ofBits .f32 0xFF800000#32 = ⊥ := by
  simp [Ideal.ofBits, Ideal.ieee]

/-! ## The maximum of a row of indicators -/

/-- The maximum, from -∞, of a finite family of numbers each 1 or 0 is above 0 exactly when some member is 1. -/
theorem zero_lt_fold_max_indicator {n : ℕ} (b : Fin n → Prop) [DecidablePred b] :
    (0 : EReal) < (Finset.univ : Finset (Fin n)).fold max ⊥ (fun j => if b j then (1 : EReal) else 0) ↔ ∃ j, b j := by
  change (0 : EReal) < (Finset.univ : Finset (Fin n)).sup (fun j => if b j then (1 : EReal) else 0) ↔ _
  rw [Finset.lt_sup_iff]
  refine exists_congr fun j => ?_
  by_cases hb : b j
  · simp [hb]
  · simp [hb]

/-! ## "Some entry of row p holds", and the validity mask -/

/-- The row maximum of the mask's indicators, compared with 0 and kept as a column, holds at row p exactly when the
    mask holds somewhere in row p. -/
theorem anyBody_iff (m : IVec S128x8192 1) (hφ : FKind.Formats .f32)
    (hacc : (0xFF800000#32 : BitVec 32) = FKind.maximumf.neutral .f32 hφ) (p : Fin 128) :
    shapeCast S128x1
        (cmpf .ogt
          (multiReduction (F := Ideal) .maximumf [1] S128
            (select m (broadcast S128x8192 (Scalar.ofBits (F := Ideal) .f32 0x3F800000#32))
              (broadcast S128x8192 (Scalar.ofBits (F := Ideal) .f32 0x00000000#32)))
            0xFF800000#32 reduces_S128x8192_S128 hφ hacc)
          (broadcast S128 (Scalar.ofBits (F := Ideal) .f32 0x00000000#32)))
        shapeCasts_S128_S128x1 (ix2 p 0) = 1#1
      ↔ ∃ j : Fin 8192, m (ix2 p j) = 1#1 := by
  rw [Cert.LibRowwise.shapeCast_a_a1_apply, cmpf_apply, broadcast_apply, Cert.LibRowwise.rowMax_apply,
    cmpf_ogt_eq_one_iff]
  simp only [select_apply, broadcast_apply, scalar_ofBits_f32, ofBits_one_f32, Ideal.ofBits_zero_f32, ofBits_ninf_f32]
  exact zero_lt_fold_max_indicator (fun j => m (ix2 p j) = 1#1)

/-- The validity mask at row p: some entry of the row is a kept negative, and some entry is both a positive and
    "below" (a kept positive). -/
theorem validBody_iff (v19 v33 v37 : IVec S128x8192 1) (p : Fin 128) :
    k0_pay10 (F := Ideal) v19 v33 v37 (ix2 p 0) = 1#1
      ↔ (∃ j : Fin 8192, v33 (ix2 p j) = 1#1) ∧ (∃ j : Fin 8192, k0_pay9 v19 v37 (ix2 p j) = 1#1) :=
  (andi_eq_one_iff _ _).trans (and_congr (anyBody_iff v33 _ _ p) (anyBody_iff (k0_pay9 v19 v37) _ _ p))

end Cert.KerSide

end
-- ==== Proof.KerValid.lean ====
/-
  The validity mask against the specification: at row p it holds exactly when row (row t p) is valid, that is, keeps
  some negative and some positive.
-/
import proofs.«125543_j56839597195693_1_alg».proof.Proof.KerKeep
import proofs.«125543_j56839597195693_1_alg».proof.Proof.KerAny

noncomputable section

namespace Cert.KerSide

open Cert.KernelIdeal Cert.KernelIdeal.Gen Cert.KernelIdeal.Hand
open Idealize.ShloMosaic Idealize.ShloMosaic.ValueIdx

/-- The validity mask holds at row p exactly when row (row t p) is valid. -/
theorem maskPay_iff_Valid (X : Cert.Spec.SX.Idx → EReal) (Y : Cert.Spec.SY.Idx → BitVec 32) (t : Fin 64)
    (x0 : Vec Ideal S128x128 .f32) (x1 : Vec Ideal S8192x128 .f32) (x2 : Vec Ideal S128x1 .i32) (x3 : Vec Ideal S1x8192 .i32)
    (x4 : Vec Ideal S128x1 .i32) (x5 : Vec Ideal S1x8192 .i32)
    (h0 : ∀ (p : Fin 128) (k : Fin 128), x0 (ix2 p k) = X (ix2 (row t p) k))
    (h1 : ∀ (j : Fin 8192) (k : Fin 128), x1 (ix2 j k) = X (ix2 j k))
    (h2 : ∀ p : Fin 128, x2 (ix2 p 0) = Y (ix1 (row t p)))
    (h3 : ∀ j : Fin 8192, x3 (ix2 0 j) = Y (ix1 j))
    (h4 : ∀ p : Fin 128, x4 (ix2 p 0) = BitVec.ofNat 32 (row t p).val)
    (h5 : ∀ j : Fin 8192, x5 (ix2 0 j) = BitVec.ofNat 32 j.val) (p : Fin 128) :
    maskPay (F := Ideal) x0 x1 x2 x3 x4 x5 (ix2 p 0) = 1#1 ↔ Cert.Spec.Valid X Y (row t p) := by
  unfold Cert.Spec.Valid
  refine (validBody_iff (posPay (F := Ideal) x2 x3 x4 x5) (negKeepPay (F := Ideal) x0 x1 x2 x3 x4 x5)
    (belowPay (F := Ideal) x0 x1 x2 x3) p).trans (and_congr ?_ ?_)
  · exact exists_congr fun j => negKeepPay_iff_NegKeep X Y t x0 x1 x2 x3 x4 x5 h0 h1 h2 h3 h4 h5 p j
  · exact exists_congr fun j => posKeepPay_iff_PosKeep X Y t x0 x1 x2 x3 x4 x5 h0 h1 h2 h3 h4 h5 p j

end Cert.KerSide

end
-- ==== Proof.KerSums.lean ====
/-
  The row's loss before masking by validity.

  For each of the two kept masks the kernel exponentiates slope·(similarity − centre) at every entry, puts 0 where
  the mask does not hold, and sums the row; the row's loss is weight₊·log(1 + positives' sum) + weight₋·log(1 +
  negatives' sum). Each piece is first read at an index for an arbitrary matrix of similarities and arbitrary masks,
  and then at the block's own.
-/
import proofs.«125543_j56839597195693_1_alg».proof.Proof.KerThresholds

noncomputable section

namespace Cert.KerSide

open Cert.KernelIdeal Cert.KernelIdeal.Gen Cert.KernelIdeal.Hand
open Idealize.ShloMosaic Idealize.ShloMosaic.ValueIdx
open scoped BigOperators

/-- An exponential at an index is the exponential of the element. -/
theorem exp_apply' {s : Shape} {φ : FTy} (x : FVec Ideal s φ) (i : s.Idx) : exp x i = Ideal.exp (x i) := rfl

/-- A log(1 + ·) at an index is that of the element. -/
theorem log1p_apply' {s : Shape} {φ : FTy} (x : FVec Ideal s φ) (i : s.Idx) : log1p x i = Ideal.log1p (x i) := rfl

/-- The sum over row p of exp(slope·(S − 1)) where the mask holds and 0 elsewhere, kept as a column. The sum's two
    side conditions are taken as given. -/
theorem maskedExpSum_apply (m : IVec S128x8192 1) (S : FVec Ideal S128x8192 .f32) (slope : BitVec 32)
    (hφ : FKind.Formats .f32) (hacc : (0x00000000#32 : BitVec 32) = FKind.add.neutral .f32 hφ) (p : Fin 128) :
    shapeCast S128x1
        (multiReduction (F := Ideal) .add [1] S128
          (select m
            (exp (mulf (broadcast S128x8192 (Scalar.ofBits (F := Ideal) .f32 slope))
              (subf S (broadcast S128x8192 (Scalar.ofBits (F := Ideal) .f32 0x3F800000#32)))))
            (broadcast S128x8192 (Scalar.ofBits (F := Ideal) .f32 0x00000000#32)))
          0x00000000#32 reduces_S128x8192_S128 hφ hacc)
        shapeCasts_S128_S128x1 (ix2 p 0)
      = ∑ j : Fin 8192, Scalar.select (m (ix2 p j))
          (Ideal.exp (Ideal.ofBits .f32 slope * (S (ix2 p j) - Ideal.ofBits .f32 0x3F800000#32)))
          (Ideal.ofBits .f32 0x00000000#32) := by
  rw [Cert.LibRowwise.shapeCast_a_a1_apply, Cert.LibRowwise.rowSum_apply]
  simp only [select_apply, exp_apply', mulf_apply, subf_apply, broadcast_apply, scalar_ofBits_f32]

/-- The row's loss for any similarities S and masks: the two weighted logarithms of one plus the masked sums. -/
theorem rowBody_apply (S : FVec Ideal S128x8192 .f32) (v19 v33 v37 : IVec S128x8192 1)
    (hφ : FKind.Formats .f32) (hacc : (0x00000000#32 : BitVec 32) = FKind.add.neutral .f32 hφ)
    (hφ' : FKind.Formats .f32) (hacc' : (0x00000000#32 : BitVec 32) = FKind.add.neutral .f32 hφ') (p : Fin 128) :
    addf
        (mulf (broadcast S128x1 (Scalar.ofBits (F := Ideal) .f32 0x3F000000#32))
          (log1p (shapeCast S128x1
            (multiReduction (F := Ideal) .add [1] S128
              (select (k0_pay9 v19 v37)
                (exp (mulf (broadcast S128x8192 (Scalar.ofBits (F := Ideal) .f32 0xC0000000#32))
                  (subf S (broadcast S128x8192 (Scalar.ofBits (F := Ideal) .f32 0x3F800000#32)))))
                (broadcast S128x8192 (Scalar.ofBits (F := Ideal) .f32 0x00000000#32)))
              0x00000000#32 reduces_S128x8192_S128 hφ hacc)
            shapeCasts_S128_S128x1)))
        (mulf (broadcast S128x1 (Scalar.ofBits (F := Ideal) .f32 0x3CA3D70A#32))
          (log1p (shapeCast S128x1
            (multiReduction (F := Ideal) .add [1] S128
              (select v33
                (exp (mulf (broadcast S128x8192 (Scalar.ofBits (F := Ideal) .f32 0x42480000#32))
                  (subf S (broadcast S128x8192 (Scalar.ofBits (F := Ideal) .f32 0x3F800000#32)))))
                (broadcast S128x8192 (Scalar.ofBits (F := Ideal) .f32 0x00000000#32)))
              0x00000000#32 reduces_S128x8192_S128 hφ' hacc')
            shapeCasts_S128_S128x1)))
        (ix2 p 0)
      = Ideal.ofBits .f32 0x3F000000#32
          * Ideal.log1p (∑ j : Fin 8192, Scalar.select (k0_pay9 v19 v37 (ix2 p j))
              (Ideal.exp (Ideal.ofBits .f32 0xC0000000#32 * (S (ix2 p j) - Ideal.ofBits .f32 0x3F800000#32)))
              (Ideal.ofBits .f32 0x00000000#32))
        + Ideal.ofBits .f32 0x3CA3D70A#32
          * Ideal.log1p (∑ j : Fin 8192, Scalar.select (v33 (ix2 p j))
              (Ideal.exp (Ideal.ofBits .f32 0x42480000#32 * (S (ix2 p j) - Ideal.ofBits .f32 0x3F800000#32)))
              (Ideal.ofBits .f32 0x00000000#32)) := by
  rw [addf_apply, mulf_apply, mulf_apply, log1p_apply', log1p_apply',
    maskedExpSum_apply (k0_pay9 v19 v37) S 0xC0000000#32 hφ hacc p,
    maskedExpSum_apply v33 S 0x42480000#32 hφ' hacc' p,
    broadcast_apply, broadcast_apply, scalar_ofBits_f32, scalar_ofBits_f32]

/-- The block's own row loss at row p. -/
theorem rowPay_apply (x0 : Vec Ideal S128x128 .f32) (x1 : Vec Ideal S8192x128 .f32) (x2 : Vec Ideal S128x1 .i32)
    (x3 : Vec Ideal S1x8192 .i32) (x4 : Vec Ideal S128x1 .i32) (x5 : Vec Ideal S1x8192 .i32) (p : Fin 128) :
    rowPay (F := Ideal) x0 x1 x2 x3 x4 x5 (ix2 p 0)
      = Ideal.ofBits .f32 0x3F000000#32
          * Ideal.log1p (∑ j : Fin 8192,
              Scalar.select (k0_pay9 (posPay (F := Ideal) x2 x3 x4 x5) (belowPay (F := Ideal) x0 x1 x2 x3) (ix2 p j))
                (Ideal.exp (Ideal.ofBits .f32 0xC0000000#32
                  * (simPay (F := Ideal) x0 x1 (ix2 p j) - Ideal.ofBits .f32 0x3F800000#32)))
                (Ideal.ofBits .f32 0x00000000#32))
        + Ideal.ofBits .f32 0x3CA3D70A#32
          * Ideal.log1p (∑ j : Fin 8192,
              Scalar.select (negKeepPay (F := Ideal) x0 x1 x2 x3 x4 x5 (ix2 p j))
                (Ideal.exp (Ideal.ofBits .f32 0x42480000#32
                  * (simPay (F := Ideal) x0 x1 (ix2 p j) - Ideal.ofBits .f32 0x3F800000#32)))
                (Ideal.ofBits .f32 0x00000000#32)) :=
  rowBody_apply (simPay (F := Ideal) x0 x1) (posPay (F := Ideal) x2 x3 x4 x5) (negKeepPay (F := Ideal) x0 x1 x2 x3 x4 x5)
    (belowPay (F := Ideal) x0 x1 x2 x3) _ _ _ _ p

end Cert.KerSide

end
-- ==== Proof.KerLoss.lean ====
/-
  The row's loss before masking, against the specification: the two masked sums are the specification's sums over the
  kept positives and the kept negatives, entry by entry, so the weighted logarithms agree.
-/
import proofs.«125543_j56839597195693_1_alg».proof.Proof.KerKeep
import proofs.«125543_j56839597195693_1_alg».proof.Proof.KerSums

noncomputable section

namespace Cert.KerSide

open Cert.KernelIdeal Cert.KernelIdeal.Gen Cert.KernelIdeal.Hand
open Idealize.ShloMosaic Idealize.ShloMosaic.ValueIdx
open scoped BigOperators
open Classical

/-- The block's row loss at row p is the specification's loss of row (row t p) before masking by validity. -/
theorem rowPay_eq_perRow (X : Cert.Spec.SX.Idx → EReal) (Y : Cert.Spec.SY.Idx → BitVec 32) (t : Fin 64)
    (x0 : Vec Ideal S128x128 .f32) (x1 : Vec Ideal S8192x128 .f32) (x2 : Vec Ideal S128x1 .i32) (x3 : Vec Ideal S1x8192 .i32)
    (x4 : Vec Ideal S128x1 .i32) (x5 : Vec Ideal S1x8192 .i32)
    (h0 : ∀ (p : Fin 128) (k : Fin 128), x0 (ix2 p k) = X (ix2 (row t p) k))
    (h1 : ∀ (j : Fin 8192) (k : Fin 128), x1 (ix2 j k) = X (ix2 j k))
    (h2 : ∀ p : Fin 128, x2 (ix2 p 0) = Y (ix1 (row t p)))
    (h3 : ∀ j : Fin 8192, x3 (ix2 0 j) = Y (ix1 j))
    (h4 : ∀ p : Fin 128, x4 (ix2 p 0) = BitVec.ofNat 32 (row t p).val)
    (h5 : ∀ j : Fin 8192, x5 (ix2 0 j) = BitVec.ofNat 32 j.val) (p : Fin 128) :
    rowPay (F := Ideal) x0 x1 x2 x3 x4 x5 (ix2 p 0) = Cert.Spec.perRow X Y (row t p) := by
  unfold Cert.Spec.perRow Cert.Spec.posSum Cert.Spec.negSum Cert.Spec.weightPos Cert.Spec.weightNeg Cert.Spec.slopePos
    Cert.Spec.slopeNeg Cert.Spec.centre Cert.Spec.zero
  rw [rowPay_apply x0 x1 x2 x3 x4 x5 p]
  refine congrArg₂ (· + ·)
    (congrArg (fun s => Ideal.ofBits .f32 0x3F000000#32 * Ideal.log1p s) (Finset.sum_congr rfl fun j _ => ?_))
    (congrArg (fun s => Ideal.ofBits .f32 0x3CA3D70A#32 * Ideal.log1p s) (Finset.sum_congr rfl fun j _ => ?_))
  · rw [select_of_iff (posKeepPay_iff_PosKeep X Y t x0 x1 x2 x3 x4 x5 h0 h1 h2 h3 h4 h5 p j),
      simPay_eq_sim X t x0 x1 h0 h1 p j]
  · rw [select_of_iff (negKeepPay_iff_NegKeep X Y t x0 x1 x2 x3 x4 x5 h0 h1 h2 h3 h4 h5 p j),
      simPay_eq_sim X t x0 x1 h0 h1 p j]

end Cert.KerSide

end
-- ==== Proof.KerRows.lean ====
/-
  What the block stores, row by row, against the specification.

  The loss output holds the row's loss where the validity mask holds and zero elsewhere; the validity output holds
  the mask as a number: the one-bit word widened to 32 bits and read as a signed integer is 1 where the mask holds
  and 0 where it does not. With the validity mask, the row's loss and the specification's row in agreement, block t
  stores at row p the specification's loss and validity of row (row t p).
-/
import proofs.«125543_j56839597195693_1_alg».proof.Proof.KerValid
import proofs.«125543_j56839597195693_1_alg».proof.Proof.KerLoss

noncomputable section

namespace Cert.KerSide

open Cert.KernelIdeal Cert.KernelIdeal.Gen Cert.KernelIdeal.Hand
open Idealize.ShloMosaic Idealize.ShloMosaic.ValueIdx
open Classical

/-- The stored loss at row p: the row's loss where the mask holds, zero elsewhere. -/
theorem lossBody_apply (m : IVec S128x1 1) (r : FVec Ideal S128x1 .f32) (p : Fin 128) :
    k0_pay1 (F := Ideal) m r (Scalar.ofBits (F := Ideal) .f32 0x00000000#32) (ix2 p 0)
      = Scalar.select (m (ix2 p 0)) (r (ix2 p 0)) (Ideal.ofBits .f32 0x00000000#32) := rfl

/-- The stored validity at row p: the mask's bit widened to 32 bits, read as a signed integer. -/
theorem validBody_apply (m : IVec S128x1 1) (p : Fin 128) :
    k0_pay2 (F := Ideal) m (ix2 p 0) = ((((m (ix2 p 0)).setWidth 32).toInt : ℝ) : EReal) := rfl

/-- A one-bit word widened to 32 bits and read as a signed integer is 1 when the bit is set and 0 when it is not. -/
theorem bit_to_float (c : BitVec 1) : ((((c.setWidth 32).toInt : ℝ) : EReal)) = if c = 1#1 then 1 else 0 := by
  rcases BitVec.eq_zero_or_eq_one c with rfl | rfl
  · have h : ((0#1 : BitVec 1).setWidth 32).toInt = 0 := by decide
    rw [h, if_neg (by decide)]
    simp
  · have h : ((1#1 : BitVec 1).setWidth 32).toInt = 1 := by decide
    rw [h, if_pos rfl]
    simp

/-- Block t stores at row p the specification's loss and validity of row (row t p). -/
theorem block_rows (X : Cert.Spec.SX.Idx → EReal) (Y : Cert.Spec.SY.Idx → BitVec 32) (t : Fin 64)
    (x0 : Vec Ideal S128x128 .f32) (x1 : Vec Ideal S8192x128 .f32) (x2 : Vec Ideal S128x1 .i32) (x3 : Vec Ideal S1x8192 .i32)
    (x4 : Vec Ideal S128x1 .i32) (x5 : Vec Ideal S1x8192 .i32)
    (h0 : ∀ (p : Fin 128) (k : Fin 128), x0 (ix2 p k) = X (ix2 (row t p) k))
    (h1 : ∀ (j : Fin 8192) (k : Fin 128), x1 (ix2 j k) = X (ix2 j k))
    (h2 : ∀ p : Fin 128, x2 (ix2 p 0) = Y (ix1 (row t p)))
    (h3 : ∀ j : Fin 8192, x3 (ix2 0 j) = Y (ix1 j))
    (h4 : ∀ p : Fin 128, x4 (ix2 p 0) = BitVec.ofNat 32 (row t p).val)
    (h5 : ∀ j : Fin 8192, x5 (ix2 0 j) = BitVec.ofNat 32 j.val) (p : Fin 128) :
    lossPay (F := Ideal) x0 x1 x2 x3 x4 x5 (ix2 p 0) = Cert.Spec.loss X Y (row t p)
      ∧ validPay (F := Ideal) x0 x1 x2 x3 x4 x5 (ix2 p 0) = Cert.Spec.validF X Y (row t p) := by
  have hm := maskPay_iff_Valid X Y t x0 x1 x2 x3 x4 x5 h0 h1 h2 h3 h4 h5 p
  constructor
  · unfold Cert.Spec.loss Cert.Spec.zero
    rw [show lossPay (F := Ideal) x0 x1 x2 x3 x4 x5 (ix2 p 0)
          = Scalar.select (maskPay (F := Ideal) x0 x1 x2 x3 x4 x5 (ix2 p 0)) (rowPay (F := Ideal) x0 x1 x2 x3 x4 x5 (ix2 p 0))
              (Ideal.ofBits .f32 0x00000000#32)
        from lossBody_apply (maskPay (F := Ideal) x0 x1 x2 x3 x4 x5) (rowPay (F := Ideal) x0 x1 x2 x3 x4 x5) p,
      select_of_iff hm, rowPay_eq_perRow X Y t x0 x1 x2 x3 x4 x5 h0 h1 h2 h3 h4 h5 p]
  · unfold Cert.Spec.validF
    rw [show validPay (F := Ideal) x0 x1 x2 x3 x4 x5 (ix2 p 0)
          = ((((maskPay (F := Ideal) x0 x1 x2 x3 x4 x5 (ix2 p 0)).setWidth 32).toInt : ℝ) : EReal)
        from validBody_apply (maskPay (F := Ideal) x0 x1 x2 x3 x4 x5) p,
      bit_to_float]
    exact if_congr hm rfl rfl

end Cert.KerSide

end
-- ==== Proof.RefBits.lean ====
/-
  One-bit words and folds of words, for reading a program's masks and counts.

  A one-bit word is 0 or 1, and is read as the proposition "the word is 1". Conjunction, disjunction and negation
  of words are those of the propositions; a selection on a word is an if-then-else on its proposition. The
  disjunction of a family of words, folded from 0, is 1 exactly when some member is 1. The sum of a family of 32-bit
  words each 0 or 1, folded from 0, is the number of members that are 1, as a word.

  And two reductions of the host read at an index: a disjunction of a matrix over its last axis at a row, and a sum of
  a vector over its only axis.
-/
import Idealize.ShloMosaic.Lib.ValueLayout
import Idealize.ShloMosaic.Lib.IdealHost
import Idealize.ShloMosaic.PureOps.Ideal.Laws
import proofs.«125543_j56839597195693_1_alg».proof.Proof.LibRowwise

noncomputable section

namespace Cert.RefSide

open Idealize.ShloMosaic Idealize.ShloMosaic.ValueIdx
open scoped BigOperators

/-! ## One-bit words as propositions -/

theorem ofBool_eq_one_iff (b : Bool) : BitVec.ofBool b = 1#1 ↔ b = true := by cases b <;> decide

/-- A one-bit word is 0 or 1. -/
theorem bit_cases (a : BitVec 1) : a = 0#1 ∨ a = 1#1 := by
  rcases BitVec.eq_zero_or_eq_one a with h | h
  · exact Or.inl h
  · exact Or.inr h

theorem andi_eq_one_iff (a b : BitVec 1) : IntOp.andi a b = 1#1 ↔ a = 1#1 ∧ b = 1#1 := by
  rcases bit_cases a with h | h <;> rcases bit_cases b with h' | h' <;> subst h <;> subst h' <;> decide

theorem ori_eq_one_iff (a b : BitVec 1) : IntOp.ori a b = 1#1 ↔ a = 1#1 ∨ b = 1#1 := by
  rcases bit_cases a with h | h <;> rcases bit_cases b with h' | h' <;> subst h <;> subst h' <;> decide

theorem not_eq_one_iff (a : BitVec 1) : ~~~a = 1#1 ↔ ¬ a = 1#1 := by
  rcases bit_cases a with h | h <;> subst h <;> decide

/-- A selection on a word that is 1 exactly when `P` holds is the if-then-else on `P`. -/
theorem select_of_iff {α : Type} {c : BitVec 1} {P : Prop} [Decidable P] (h : c = 1#1 ↔ P) (a b : α) :
    Scalar.select c a b = if P then a else b := by
  unfold Scalar.select
  exact if_congr h rfl rfl

/-- A one-bit word widened to 32 bits is 1 or 0. -/
theorem setWidth_bit (c : BitVec 1) : c.setWidth 32 = if c = 1#1 then 1#32 else 0#32 := by
  rcases bit_cases c with h | h <;> subst h <;> decide

/-! ## Folds -/

/-- The disjunction of a family of one-bit words, from 0, is 1 exactly when some member is. -/
theorem fold_ori_eq_one_iff {ι : Type} (s : Finset ι) (f : ι → BitVec 1) :
    s.fold IntOp.ori 0#1 f = 1#1 ↔ ∃ k ∈ s, f k = 1#1 := by
  classical
  induction s using Finset.induction_on with
  | empty =>
    rw [Finset.fold_empty]
    exact ⟨fun h => absurd h (by decide), fun ⟨_, hk, _⟩ => absurd hk (Finset.notMem_empty _)⟩
  | insert a s ha ih =>
    rw [Finset.fold_insert ha, ori_eq_one_iff, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.1 hk with rfl | hk
      · exact Or.inl h
      · exact Or.inr ⟨k, hk, h⟩

/-- The sum of a family of 32-bit words each 1 or 0, from 0, is the number of ones, as a word. -/
theorem fold_addi_indicator {ι : Type} (s : Finset ι) (P : ι → Prop) [DecidablePred P] :
    s.fold IntOp.addi 0#32 (fun k => if P k then 1#32 else 0#32) = BitVec.ofNat 32 (s.filter P).card := by
  classical
  induction s using Finset.induction_on with
  | empty => rfl
  | insert a s ha ih =>
    rw [Finset.fold_insert ha, ih, Finset.filter_insert]
    by_cases hp : P a
    · rw [if_pos hp, if_pos hp, Finset.card_insert_of_notMem (fun h => ha (Finset.mem_filter.1 h).1)]
      show 1#32 + BitVec.ofNat 32 _ = BitVec.ofNat 32 (_ + 1)
      rw [Nat.add_comm, BitVec.ofNat_add]
    · rw [if_neg hp, if_neg hp]
      show 0#32 + BitVec.ofNat 32 _ = _
      exact BitVec.zero_add _

/-! ## Two host reductions at an index -/

/-- The host's disjunction of a matrix of one-bit words over its last axis, at row `p`: the fold over the row's
    entries, from the initial value. -/
theorem hostRowOr_apply {a b : ℕ} {u : Shape} (x : (⟨2, ![a, b]⟩ : Shape).Idx → BitVec 1) (init : u.Idx → BitVec 1)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (IntOp.ori (w := 1)) x init h' hu (ix1 p)
      = (Finset.univ : Finset (Fin b)).fold IntOp.ori (init (Shape.Idx.first hu)) (fun k => x (ix2 p k)) :=
  (Host.reduce_eq_fold_single (IntOp.ori (w := 1)) x init h' h hu (ix1 p)).trans
    (congrArg (fun f => (Finset.univ : Finset (Fin b)).fold IntOp.ori (init (Shape.Idx.first hu)) f)
      (funext fun k => congrArg x (Cert.LibRowwise.lift_lastAxis h p k)))

/-- A vector's index set is its one coordinate's range … -/
def idxEquiv1 {n : ℕ} : (⟨1, ![n]⟩ : Shape).Idx ≃ Fin n where
  toFun i := i 0
  invFun := ix1
  left_inv i := (eq_ix1 i).symm
  right_inv _ := rfl

/-- … so a sum over it is the sum over the coordinate … -/
theorem sum_idx1 {M : Type} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- … and so is a fold of a commutative and associative operation. -/
theorem fold_idx1 {α : Type} (op : α → α → α) [Std.Commutative op] [Std.Associative op] {n : ℕ} (b : α)
    (f : (⟨1, ![n]⟩ : Shape).Idx → α) :
    (Finset.univ : Finset (⟨1, ![n]⟩ : Shape).Idx).fold op b f = (Finset.univ : Finset (Fin n)).fold op b (fun a => f (ix1 a)) := by
  rw [← Finset.map_univ_equiv (idxEquiv1 (n := n)).symm, Finset.fold_map]
  rfl

/-- The host's sum of a vector of 32-bit words over its only axis: the fold over its entries, from the initial
    value. -/
theorem hostVecAddi_apply {n : ℕ} {u : Shape} (x : (⟨1, ![n]⟩ : Shape).Idx → BitVec 32) (init : u.Idx → BitVec 32)
    (h' : (⟨1, ![n]⟩ : Shape).ReducesTo [0] ⟨0, ![]⟩) (hu : 0 < u.numel) (j : (⟨0, ![]⟩ : Shape).Idx) :
    Host.reduce (IntOp.addi (w := 32)) x init h' hu j
      = (Finset.univ : Finset (Fin n)).fold IntOp.addi (init (Shape.Idx.first hu)) (fun k => x (ix1 k)) := by
  rw [Host.reduce_eq_fold, Finset.filter_true_of_mem (fun i _ => funext fun b => b.elim0), fold_idx1]

end Cert.RefSide

end
-- ==== Proof.RefSim.lean ====
/-
  The reference's similarities and label masks at an entry.

  At entry (r, j) of the 8192 × 8192 stages: the product of the embedding matrix with its transpose is the inner
  product of rows r and j; the comparison of the labels spread along the rows with the labels spread along the
  columns is 1 exactly when rows r and j carry the same label; the comparison of the row counter with the column
  counter is 1 exactly when r = j (both counters are below 2^32, so the words are equal only when the numbers are).
  Hence the positives' mask is 1 exactly at a positive and the negatives' mask exactly at a negative, and the
  similarities with +∞ put off the positives, or -∞ off the negatives, are the if-then-else on those propositions.
-/
import proofs.«125543_j56839597195693_1_alg».proof.Proof.RefReadP
import proofs.«125543_j56839597195693_1_alg».proof.Proof.Spec
import proofs.«125543_j56839597195693_1_alg».proof.Proof.RefBits

noncomputable section

namespace Cert.RefSide

open Cert.ReferenceIdeal Cert.ReferenceIdeal.Gen Cert.ReferenceIdeal.ReadP Cert.Spec
open Idealize.ShloMosaic Idealize.ShloMosaic.ValueIdx
open scoped BigOperators
open Classical

variable (x0 : SX.Idx → EReal) (x1 : SY.Idx → BitVec 32)

/-- Entry (r, j) of the product is the inner product of rows r and j. -/
theorem sim_apply (r j : Fin 8192) : val_main_v1 (F := Ideal) x0 (ix2 r j) = sim x0 r j := by
  refine (val_main_v1_apply x0 (ix2 r j)).trans ?_
  unfold sim
  refine Finset.sum_congr rfl fun k _ => ?_
  have e1 : lidx_main_v1 (ix2 r j) k = ix2 r k :=
    funext fun a => Fin.ext (by match a with | ⟨0, _⟩ => rfl | ⟨1, _⟩ => rfl)
  have e2 : idx_main_v0 (ridx_main_v1 (ix2 r j) k) = ix2 j k :=
    funext fun a => Fin.ext (by match a with | ⟨0, _⟩ => rfl | ⟨1, _⟩ => rfl)
  rw [val_main_v0_apply, e1, e2]

/-- The labels' comparison at (r, j) is 1 exactly when the two rows carry the same label. -/
theorem same_apply (r j : Fin 8192) : val_main_v6 (F := Ideal) x1 (ix2 r j) = 1#1 ↔ x1 (ix1 r) = x1 (ix1 j) := by
  have e1 : idx_main_v2 (idx_main_v4 (ix2 r j)) = ix1 r :=
    funext fun a => Fin.ext (by match a with | ⟨0, _⟩ => rfl)
  have e2 : idx_main_v3 (idx_main_v5 (ix2 r j)) = ix1 j :=
    funext fun a => Fin.ext (by match a with | ⟨0, _⟩ => rfl)
  rw [val_main_v6_apply, val_main_v4_apply, val_main_v5_apply, val_main_v2_apply, val_main_v3_apply, e1, e2]
  show BitVec.ofBool (x1 (ix1 r) == x1 (ix1 j)) = 1#1 ↔ _
  exact (ofBool_eq_one_iff _).trans beq_iff_eq

/-- The counters' comparison at (r, j) is 1 exactly on the diagonal. -/
theorem eye_apply (r j : Fin 8192) : val_main_v11 (F := Ideal) (ix2 r j) = 1#1 ↔ r = j := by
  rw [val_main_v11_apply, val_main_v10_apply, val_main_v7_apply, val_main_v8_apply, val_main_v9_apply,
    val_main_c_apply]
  show BitVec.ofBool (BitVec.ofNat 32 r.val + 0#32 == BitVec.ofNat 32 j.val) = 1#1 ↔ r = j
  rw [ofBool_eq_one_iff, beq_iff_eq, BitVec.add_zero]
  constructor
  · intro h
    have h' := congrArg BitVec.toNat h
    rw [BitVec.toNat_ofNat, BitVec.toNat_ofNat] at h'
    have hr := r.isLt
    have hj := j.isLt
    exact Fin.ext (by omega)
  · rintro rfl
    rfl

/-- The positives' mask is 1 exactly at a positive. -/
theorem pos_apply (r j : Fin 8192) : val_main_v13 (F := Ideal) x1 (ix2 r j) = 1#1 ↔ Pos x1 r j := by
  rw [val_main_v13_apply, andi_eq_one_iff, val_main_v12_apply, not_eq_one_iff, same_apply x1 r j, eye_apply r j]
  exact Iff.rfl

/-- The negatives' mask is 1 exactly at a negative. -/
theorem neg_apply (r j : Fin 8192) : val_main_v14 (F := Ideal) x1 (ix2 r j) = 1#1 ↔ Neg x1 r j := by
  rw [val_main_v14_apply, not_eq_one_iff, same_apply x1 r j]
  exact Iff.rfl

/-- The similarities with +∞ put off the positives. -/
theorem posMasked_apply (r j : Fin 8192) :
    val_main_v15 (F := Ideal) x0 x1 (ix2 r j) = if Pos x1 r j then sim x0 r j else pInf := by
  rw [val_main_v15_apply, select_of_iff (pos_apply x1 r j), sim_apply x0 r j, val_main_call0_v1_apply,
    val_main_call0_v0_apply, val_main_cst_apply]
  rfl

/-- The similarities with -∞ put off the negatives. -/
theorem negMasked_apply (r j : Fin 8192) :
    val_main_v17 (F := Ideal) x0 x1 (ix2 r j) = if Neg x1 r j then sim x0 r j else nInf := by
  rw [val_main_v17_apply, select_of_iff (neg_apply x1 r j), sim_apply x0 r j, val_main_call1_v1_apply,
    val_main_call1_v0_apply, val_main_cst_1_apply]
  rfl

end Cert.RefSide

end
-- ==== Proof.RefKeep.lean ====
/-
  The reference's mining thresholds, its two "kept" masks and the rows' validity.

  The minimum over row r of the similarities with +∞ put off the positives is the positives' threshold of r, and the
  maximum with -∞ put off the negatives the negatives' threshold. An ordered comparison of extended reals is 1 exactly
  when the order holds, so the kept-negatives' mask is 1 exactly at a kept negative and the kept-positives' mask at a
  kept positive. The disjunction of a mask over row r is 1 exactly when the row has an entry where the mask is 1, so
  the validity word of row r is 1 exactly when r is valid.
-/
import proofs.«125543_j56839597195693_1_alg».proof.Proof.RefSim
import proofs.«125543_j56839597195693_1_alg».proof.Proof.LibRowwise
import proofs.«125543_j56839597195693_1_alg».proof.Proof.LibMinReduce

noncomputable section

namespace Cert.RefSide

open Cert.ReferenceIdeal Cert.ReferenceIdeal.Gen Cert.ReferenceIdeal.ReadP Cert.Spec
open Idealize.ShloMosaic Idealize.ShloMosaic.ValueIdx
open scoped BigOperators
open Classical

variable (x0 : SX.Idx → EReal) (x1 : SY.Idx → BitVec 32)

/-- "a is above b" is 1 exactly when b < a. -/
theorem cmpf_ogt_eq_one_iff (a b : EReal) : FloatOps.cmpf (F := Ideal) (φ := .f32) .ogt a b = 1#1 ↔ b < a :=
  (ofBool_eq_one_iff _).trans decide_eq_true_iff

/-- "a is below b" is 1 exactly when a < b. -/
theorem cmpf_olt_eq_one_iff (a b : EReal) : FloatOps.cmpf (F := Ideal) (φ := .f32) .olt a b = 1#1 ↔ a < b :=
  (ofBool_eq_one_iff _).trans decide_eq_true_iff

/-- The positives' threshold of row r. -/
theorem minPos_apply (r : Fin 8192) : val_main_v16 (F := Ideal) x0 x1 (ix1 r) = minPos x0 x1 r := by
  have key := Cert.LibMinReduce.hostRowMin_apply (φ := .f32) (u := S_) (val_main_v15 (F := Ideal) x0 x1) (val_main_cst_0 (F := Ideal))
    reducesTo_S8192x8192_S8192_d1 (by decide) h_S_ r
  refine key.trans ?_
  show _ = (Finset.univ : Finset (Fin 8192)).fold min pInf (fun j => if Pos x1 r j then sim x0 r j else pInf)
  rw [funext (posMasked_apply x0 x1 r)]
  rfl

/-- The negatives' threshold of row r. -/
theorem maxNeg_apply (r : Fin 8192) : val_main_v18 (F := Ideal) x0 x1 (ix1 r) = maxNeg x0 x1 r := by
  have key := Cert.LibRowwise.hostRowMax_apply (φ := .f32) (u := S_) (val_main_v17 (F := Ideal) x0 x1) (val_main_cst_2 (F := Ideal))
    reducesTo_S8192x8192_S8192_d1 (by decide) h_S_ r
  refine key.trans ?_
  show _ = (Finset.univ : Finset (Fin 8192)).fold max nInf (fun j => if Neg x1 r j then sim x0 r j else nInf)
  rw [funext (negMasked_apply x0 x1 r)]
  rfl

/-- The kept-negatives' mask is 1 exactly at a kept negative. -/
theorem negKeep_apply (r j : Fin 8192) : val_main_v24 (F := Ideal) x0 x1 (ix2 r j) = 1#1 ↔ NegKeep x0 x1 r j := by
  have e : idx_main_v21 (idx_main_v22 (ix2 r j)) = ix1 r :=
    funext fun a => Fin.ext (by match a with | ⟨0, _⟩ => rfl)
  rw [val_main_v24_apply, andi_eq_one_iff, neg_apply x1 r j, val_main_v23_apply]
  refine and_congr_right' ((cmpf_ogt_eq_one_iff _ _).trans ?_)
  rw [val_main_v20_apply, sim_apply x0 r j, val_main_v19_apply, val_main_cst_3_apply, val_main_v22_apply,
    val_main_v21_apply, e, minPos_apply x0 x1 r]
  exact Iff.rfl

/-- The kept-positives' mask is 1 exactly at a kept positive. -/
theorem posKeep_apply (r j : Fin 8192) : val_main_v30 (F := Ideal) x0 x1 (ix2 r j) = 1#1 ↔ PosKeep x0 x1 r j := by
  have e : idx_main_v27 (idx_main_v28 (ix2 r j)) = ix1 r :=
    funext fun a => Fin.ext (by match a with | ⟨0, _⟩ => rfl)
  rw [val_main_v30_apply, andi_eq_one_iff, pos_apply x1 r j, val_main_v29_apply]
  refine and_congr_right' ((cmpf_olt_eq_one_iff _ _).trans ?_)
  rw [val_main_v26_apply, sim_apply x0 r j, val_main_v25_apply, val_main_cst_4_apply, val_main_v28_apply,
    val_main_v27_apply, e, maxNeg_apply x0 x1 r]
  exact Iff.rfl

/-- Row r keeps some negative. -/
theorem anyNeg_apply (r : Fin 8192) : val_main_v31 (F := Ideal) x0 x1 (ix1 r) = 1#1 ↔ ∃ j, NegKeep x0 x1 r j := by
  have key := hostRowOr_apply (val_main_v24 (F := Ideal) x0 x1) (val_main_c_5 (F := Ideal))
    reducesTo_S8192x8192_S8192_d1 (by decide) h_S_ r
  unfold val_main_v31
  rw [key, val_main_c_5_apply]
  refine (fold_ori_eq_one_iff _ _).trans ?_
  exact ⟨fun ⟨k, _, h⟩ => ⟨k, (negKeep_apply x0 x1 r k).1 h⟩,
    fun ⟨k, h⟩ => ⟨k, Finset.mem_univ _, (negKeep_apply x0 x1 r k).2 h⟩⟩

/-- Row r keeps some positive. -/
theorem anyPos_apply (r : Fin 8192) : val_main_v32 (F := Ideal) x0 x1 (ix1 r) = 1#1 ↔ ∃ j, PosKeep x0 x1 r j := by
  have key := hostRowOr_apply (val_main_v30 (F := Ideal) x0 x1) (val_main_c_6 (F := Ideal))
    reducesTo_S8192x8192_S8192_d1 (by decide) h_S_ r
  unfold val_main_v32
  rw [key, val_main_c_6_apply]
  refine (fold_ori_eq_one_iff _ _).trans ?_
  exact ⟨fun ⟨k, _, h⟩ => ⟨k, (posKeep_apply x0 x1 r k).1 h⟩,
    fun ⟨k, h⟩ => ⟨k, Finset.mem_univ _, (posKeep_apply x0 x1 r k).2 h⟩⟩

/-- The validity word of row r is 1 exactly when r is valid. -/
theorem valid_apply (r : Fin 8192) : val_main_v33 (F := Ideal) x0 x1 (ix1 r) = 1#1 ↔ Valid x0 x1 r := by
  rw [val_main_v33_apply, andi_eq_one_iff, anyNeg_apply x0 x1 r, anyPos_apply x0 x1 r]
  exact Iff.rfl

end Cert.RefSide

end
-- ==== Proof.RefSums.lean ====
/-
  The reference's row sums, the rows' losses and their total.

  At entry (r, j) the exponential of the slope times the similarity less the centre, kept where the mask is 1 and
  replaced by zero elsewhere, is the if-then-else on "kept"; the row sum from the zero word is the sum of those terms
  (0 + s = s). The row's loss before masking is the weighted sum of the two log(1 + ·), the row's loss is that value
  where the row is valid and zero elsewhere, and the total is the sum of the rows' losses.
-/
import proofs.«125543_j56839597195693_1_alg».proof.Proof.RefKeep

noncomputable section

namespace Cert.RefSide

open Cert.ReferenceIdeal Cert.ReferenceIdeal.Gen Cert.ReferenceIdeal.ReadP Cert.Spec
open Idealize.ShloMosaic Idealize.ShloMosaic.ValueIdx
open scoped BigOperators
open Classical

variable (x0 : SX.Idx → EReal) (x1 : SY.Idx → BitVec 32)

/-- The kept positives' term at (r, j). -/
theorem posTerm_apply (r j : Fin 8192) :
    val_main_v39 (F := Ideal) x0 x1 (ix2 r j)
      = if PosKeep x0 x1 r j then Ideal.exp (slopePos * (sim x0 r j - centre)) else zero := by
  rw [val_main_v39_apply, select_of_iff (posKeep_apply x0 x1 r j), val_main_v38_apply, val_main_v37_apply,
    val_main_v36_apply, val_main_cst_8_apply, val_main_v35_apply, sim_apply x0 r j, val_main_v34_apply,
    val_main_cst_7_apply, val_main_call2_v1_apply, val_main_call2_v0_apply, val_main_cst_9_apply]
  rfl

/-- The kept negatives' term at (r, j). -/
theorem negTerm_apply (r j : Fin 8192) :
    val_main_v46 (F := Ideal) x0 x1 (ix2 r j)
      = if NegKeep x0 x1 r j then Ideal.exp (slopeNeg * (sim x0 r j - centre)) else zero := by
  rw [val_main_v46_apply, select_of_iff (negKeep_apply x0 x1 r j), val_main_v45_apply, val_main_v44_apply,
    val_main_v43_apply, val_main_cst_12_apply, val_main_v42_apply, sim_apply x0 r j, val_main_v41_apply,
    val_main_cst_11_apply, val_main_call3_v1_apply, val_main_call3_v0_apply, val_main_cst_13_apply]
  rfl

/-- The kept positives' sum of row r. -/
theorem posSum_apply (r : Fin 8192) : val_main_v40 (F := Ideal) x0 x1 (ix1 r) = posSum x0 x1 r := by
  have e : ∀ k : Fin 8192, idx_main_v40 (ix1 r) k = ix2 r k := fun k =>
    funext fun a => Fin.ext (by match a with | ⟨0, _⟩ => rfl | ⟨1, _⟩ => rfl)
  refine (val_main_v40_apply x0 x1 (ix1 r)).trans ?_
  rw [val_main_cst_10_apply]
  show Ideal.ofBits .f32 0x00000000#32 + _ = _
  rw [Ideal.ofBits_zero_f32, zero_add]
  unfold posSum
  exact Finset.sum_congr rfl fun k _ => by rw [e k, posTerm_apply x0 x1 r k]

/-- The kept negatives' sum of row r. -/
theorem negSum_apply (r : Fin 8192) : val_main_v47 (F := Ideal) x0 x1 (ix1 r) = negSum x0 x1 r := by
  have e : ∀ k : Fin 8192, idx_main_v47 (ix1 r) k = ix2 r k := fun k =>
    funext fun a => Fin.ext (by match a with | ⟨0, _⟩ => rfl | ⟨1, _⟩ => rfl)
  refine (val_main_v47_apply x0 x1 (ix1 r)).trans ?_
  rw [val_main_cst_14_apply]
  show Ideal.ofBits .f32 0x00000000#32 + _ = _
  rw [Ideal.ofBits_zero_f32, zero_add]
  unfold negSum
  exact Finset.sum_congr rfl fun k _ => by rw [e k, negTerm_apply x0 x1 r k]

/-- The row's loss before masking. -/
theorem perRow_apply (r : Fin 8192) : val_main_v54 (F := Ideal) x0 x1 (ix1 r) = perRow x0 x1 r := by
  rw [val_main_v54_apply, val_main_v50_apply, val_main_v53_apply, val_main_v49_apply, val_main_cst_15_apply,
    val_main_v52_apply, val_main_cst_16_apply, val_main_v48_apply, val_main_v51_apply, posSum_apply x0 x1 r,
    negSum_apply x0 x1 r]
  rfl

/-- The row's loss, counted only when the row is valid. -/
theorem loss_apply (r : Fin 8192) : val_main_v57 (F := Ideal) x0 x1 (ix1 r) = loss x0 x1 r := by
  rw [val_main_v57_apply, select_of_iff (valid_apply x0 x1 r), perRow_apply x0 x1 r, val_main_call4_v1_apply,
    val_main_call4_v0_apply, val_main_cst_18_apply]
  rfl

/-- The total of the rows' losses. -/
theorem total_apply (i : S_.Idx) : val_main_v58 (F := Ideal) x0 x1 i = total x0 x1 := by
  refine (val_main_v58_apply x0 x1 i).trans ?_
  rw [val_main_cst_19_apply]
  show Ideal.ofBits .f32 0x00000000#32 + _ = _
  rw [Ideal.ofBits_zero_f32, zero_add]
  refine (sum_idx1 _).trans ?_
  exact Finset.sum_congr rfl fun r _ => loss_apply x0 x1 r

end Cert.RefSide

end
-- ==== Proof.RefCount.lean ====
/-
  The reference's count of valid rows.

  The count is the sum, in 32-bit words from 0, of the rows' validity bits widened to 32 bits: the word of the number
  n of valid rows. That number is at most 8192, far below 2^31, so nothing wraps: read signed the word is n itself.
  Hence the word is positive (signed) exactly when n is, the signed maximum of the word and 1 read as a real is
  max n 1, and n as an extended real is the sum over the rows of 1 where the row is valid and 0 elsewhere.
-/
import proofs.«125543_j56839597195693_1_alg».proof.Proof.RefKeep

noncomputable section

namespace Cert.RefSide

open Cert.ReferenceIdeal Cert.ReferenceIdeal.Gen Cert.ReferenceIdeal.ReadP Cert.Spec
open Idealize.ShloMosaic Idealize.ShloMosaic.ValueIdx
open scoped BigOperators
open Classical

/-! ## A small number as a 32-bit word -/

/-- Read signed, the word of a number up to 8192 is the number. -/
theorem toInt_ofNat_small (n : ℕ) (h : n ≤ 8192) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- The word is above 0, signed, exactly when the number is positive. -/
theorem sgt_zero_iff (n : ℕ) (h : n ≤ 8192) : IntOp.cmpi .sgt (BitVec.ofNat 32 n) 0#32 = 1#1 ↔ 0 < n := by
  show BitVec.ofBool ((0#32).slt (BitVec.ofNat 32 n)) = 1#1 ↔ 0 < n
  rw [ofBool_eq_one_iff, BitVec.slt_eq_decide, decide_eq_true_iff, toInt_ofNat_small n h]
  show (0 : ℤ) < (n : ℤ) ↔ 0 < n
  exact Int.natCast_pos

/-- The signed maximum of the word and 1, read signed, is the maximum of the number and 1. -/
theorem toInt_maxsi (n : ℕ) (h : n ≤ 8192) : (IntOp.maxsi (BitVec.ofNat 32 n) 1#32).toInt = max (n : ℤ) 1 := by
  unfold IntOp.maxsi
  rw [BitVec.slt_eq_decide, toInt_ofNat_small n h]
  have h1 : (1#32 : BitVec 32).toInt = 1 := by decide
  rw [h1]
  by_cases hn : (1 : ℤ) < n
  · rw [if_pos (decide_eq_true hn), toInt_ofNat_small n h, max_eq_left (le_of_lt hn)]
  · rw [if_neg (by simpa using hn), h1, max_eq_right (not_lt.1 hn)]

/-- … and as an extended real it is the maximum of the number and 1 there. -/
theorem sitofp_maxsi (n : ℕ) (h : n ≤ 8192) :
    FloatOps.sitofp (F := Ideal) .f32 (IntOp.maxsi (BitVec.ofNat 32 n) 1#32) = max ((n : ℕ) : EReal) 1 := by
  show (((IntOp.maxsi (BitVec.ofNat 32 n) 1#32).toInt : ℝ) : EReal) = _
  rw [toInt_maxsi n h, Int.cast_max, EReal.coe_strictMono.monotone.map_max, Int.cast_natCast, Int.cast_one,
    EReal.coe_natCast, EReal.coe_one]

/-- A number is positive as an extended real exactly when it is positive. -/
theorem natCast_pos_ereal (n : ℕ) : (0 : EReal) < (n : EReal) ↔ 0 < n := by
  rw [← EReal.coe_natCast, EReal.coe_pos, Nat.cast_pos]

/-! ## The count -/

variable (x0 : SX.Idx → EReal) (x1 : SY.Idx → BitVec 32)

/-- The number of valid rows. -/
def validCount : ℕ := (Finset.univ.filter fun r : Fin 8192 => Valid x0 x1 r).card

theorem validCount_le : validCount x0 x1 ≤ 8192 :=
  (Finset.card_filter_le _ _).trans (le_of_eq (by rw [Finset.card_univ, Fintype.card_fin]))

/-- As an extended real it is the sum of the rows' validities. -/
theorem nValid_eq : nValid x0 x1 = ((validCount x0 x1 : ℕ) : EReal) := by
  unfold nValid validF validCount
  exact (Finset.natCast_card_filter _ _).symm

/-- Row r's validity bit, widened. -/
theorem validBit_apply (r : Fin 8192) :
    val_main_v55 (F := Ideal) x0 x1 (ix1 r) = if Valid x0 x1 r then 1#32 else 0#32 := by
  rw [val_main_v55_apply, setWidth_bit]
  exact if_congr (valid_apply x0 x1 r) rfl rfl

/-- The count is the word of the number of valid rows. -/
theorem count_apply (i : S_.Idx) : val_main_v56 (F := Ideal) x0 x1 i = BitVec.ofNat 32 (validCount x0 x1) := by
  unfold val_main_v56
  rw [hostVecAddi_apply (val_main_v55 (F := Ideal) x0 x1) (val_main_c_17 (F := Ideal)) reducesTo_S8192_S_d0 h_S_ i,
    val_main_c_17_apply, funext (validBit_apply x0 x1)]
  exact fold_addi_indicator _ _

/-- The count is positive, signed, exactly when some row is valid. -/
theorem countPos_apply (i : S_.Idx) : val_main_v62 (F := Ideal) x0 x1 i = 1#1 ↔ 0 < nValid x0 x1 := by
  rw [val_main_v62_apply, val_main_c_21_apply, count_apply x0 x1 i, nValid_eq x0 x1]
  exact (sgt_zero_iff _ (validCount_le x0 x1)).trans (natCast_pos_ereal _).symm

/-- The divisor: the count, at least 1, as an extended real. -/
theorem divisor_apply (i : S_.Idx) : val_main_v60 (F := Ideal) x0 x1 i = max (nValid x0 x1) 1 := by
  rw [val_main_v60_apply, val_main_v59_apply, val_main_c_20_apply, count_apply x0 x1 i,
    sitofp_maxsi _ (validCount_le x0 x1), nValid_eq x0 x1]

end Cert.RefSide

end
-- ==== Proof.RefResult.lean ====
/-
  The reference's result is the specification's.

  The last selection takes the mean loss, the total over the count kept at least 1, when the count is positive, and
  otherwise zero times the mean similarity; on the extended reals zero times anything is zero. So the result is the
  mean loss over the valid rows when there is one and 0 when there is none.
-/
import proofs.«125543_j56839597195693_1_alg».proof.Proof.RefSums
import proofs.«125543_j56839597195693_1_alg».proof.Proof.RefCount

noncomputable section

namespace Cert.RefSide

open Cert.ReferenceIdeal Cert.ReferenceIdeal.Gen Cert.ReferenceIdeal.ReadP Cert.Spec
open Idealize.ShloMosaic Idealize.ShloMosaic.ValueIdx
open scoped BigOperators
open Classical

/-- The fallback branch, zero times the mean similarity, is 0. -/
theorem fallback_apply (x0 : SX.Idx → EReal) (i : S_.Idx) : val_main_v65 (F := Ideal) x0 i = 0 := by
  rw [val_main_v65_apply, val_main_cst_24_apply]
  show Ideal.ofBits .f32 0x00000000#32 * _ = 0
  rw [Ideal.ofBits_zero_f32, zero_mul]

/-- The reference's last stage is the specification's result, at its one index. -/
theorem ref_result (x0 : SX.Idx → EReal) (x1 : SY.Idx → BitVec 32) :
    val_main_v66 (F := Ideal) x0 x1 = fun _ => result x0 x1 := by
  funext i
  rw [val_main_v66_apply, select_of_iff (countPos_apply x0 x1 i), val_main_v61_apply, total_apply x0 x1 i,
    divisor_apply x0 x1 i, fallback_apply x0 i]
  rfl

end Cert.RefSide

end
-- ==== Proof.RefLink.lean ====
/-
  The reference's run read as its stages. The reference is 104 host operations, each writing a buffer of its own from
  buffers written before it. Stage by stage from the end: once the buffers an operation and its successors still read
  hold their stages, applying the operation puts the next stage into its buffer and leaves the others alone; so from
  the launch contents, where only the two arguments are needed, the result buffer ends at the last stage of the
  embedding matrix and the labels. Only the buffers still to be read are carried, six at most.
-/
import proofs.«125543_j56839597195693_1_alg».proof.Proof.RefRunP
import proofs.«125543_j56839597195693_1_alg».proof.Proof.RefReadP

noncomputable section

namespace Cert.RefLink

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! The operation list, suffix by suffix: `tl_k` is operations `k`, `k+1`, …, 103. -/

def tl_104 : List (HloOp τ sig (Elt F)) := []
def tl_103 : List (HloOp τ sig (Elt F)) :=
  (TRef.ternary (TRef.of (T := ⟨S_, .i1⟩) main_v62) (TRef.of (T := ⟨S_, .f32⟩) main_v61) (TRef.of (T := ⟨S_, .f32⟩) main_v65) (TRef.of (T := ⟨S_, .f32⟩) main_v66) select) :: tl_104
def tl_102 : List (HloOp τ sig (Elt F)) :=
  (binary main_cst_24 main_v64 main_v65 (mulf : (⟨S_, .f32⟩ : BufTy).Contents (Elt F) → (⟨S_, .f32⟩ : BufTy).Contents (Elt F) → (⟨S_, .f32⟩ : BufTy).Contents (Elt F))) :: tl_103
def tl_101 : List (HloOp τ sig (Elt F)) :=
  (nullary main_cst_24 (constant S_ .f32 0x00000000#32)) :: tl_102
def tl_100 : List (HloOp τ sig (Elt F)) :=
  (binary main_v63 main_cst_23 main_v64 (Host.divf : (⟨S_, .f32⟩ : BufTy).Contents (Elt F) → (⟨S_, .f32⟩ : BufTy).Contents (Elt F) → (⟨S_, .f32⟩ : BufTy).Contents (Elt F))) :: tl_101
def tl_99 : List (HloOp τ sig (Elt F)) :=
  (nullary main_cst_23 (constant S_ .f32 0x4C800000#32)) :: tl_100
def tl_98 : List (HloOp τ sig (Elt F)) :=
  (binary main_v1 main_cst_22 main_v63 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F))) :: tl_99
def tl_97 : List (HloOp τ sig (Elt F)) :=
  (nullary main_cst_22 (constant S_ .f32 0x00000000#32)) :: tl_98
def tl_96 : List (HloOp τ sig (Elt F)) :=
  (binary main_v56 main_c_21 main_v62 (cmpi .sgt : (⟨S_, .i32⟩ : BufTy).Contents (Elt F) → (⟨S_, .i32⟩ : BufTy).Contents (Elt F) → (⟨S_, .i1⟩ : BufTy).Contents (Elt F))) :: tl_97
def tl_95 : List (HloOp τ sig (Elt F)) :=
  (nullary main_c_21 (constantI S_ 32 0#32)) :: tl_96
def tl_94 : List (HloOp τ sig (Elt F)) :=
  (binary main_v58 main_v60 main_v61 (Host.divf : (⟨S_, .f32⟩ : BufTy).Contents (Elt F) → (⟨S_, .f32⟩ : BufTy).Contents (Elt F) → (⟨S_, .f32⟩ : BufTy).Contents (Elt F))) :: tl_95
def tl_93 : List (HloOp τ sig (Elt F)) :=
  (unary main_v59 main_v60 (sitofp .f32 : (⟨S_, .i32⟩ : BufTy).Contents (Elt F) → (⟨S_, .f32⟩ : BufTy).Contents (Elt F))) :: tl_94
def tl_92 : List (HloOp τ sig (Elt F)) :=
  (binary main_v56 main_c_20 main_v59 (maxsi : (⟨S_, .i32⟩ : BufTy).Contents (Elt F) → (⟨S_, .i32⟩ : BufTy).Contents (Elt F) → (⟨S_, .i32⟩ : BufTy).Contents (Elt F))) :: tl_93
def tl_91 : List (HloOp τ sig (Elt F)) :=
  (nullary main_c_20 (constantI S_ 32 1#32)) :: tl_92
def tl_90 : List (HloOp τ sig (Elt F)) :=
  (binary main_v57 main_cst_19 main_v58 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))) :: tl_91
def tl_89 : List (HloOp τ sig (Elt F)) :=
  (nullary main_cst_19 (constant S_ .f32 0x00000000#32)) :: tl_90
def tl_88 : List (HloOp τ sig (Elt F)) :=
  (TRef.ternary (TRef.of (T := ⟨S8192, .i1⟩) main_v33) (TRef.of (T := ⟨S8192, .f32⟩) main_v54) (TRef.of (T := ⟨S8192, .f32⟩) main_call4_v1) (TRef.of (T := ⟨S8192, .f32⟩) main_v57) select) :: tl_89
def tl_87 : List (HloOp τ sig (Elt F)) :=
  (TRef.unary (TRef.of (T := ⟨S_, .f32⟩) main_call4_v0) (TRef.of (T := ⟨S8192, .f32⟩) main_call4_v1) (broadcastInDim S8192 ![] bcast_S_S8192)) :: tl_88
def tl_86 : List (HloOp τ sig (Elt F)) :=
  (TRef.unary (TRef.of (T := ⟨S_, .f32⟩) main_cst_18) (TRef.of (T := ⟨S_, .f32⟩) main_call4_v0) id) :: tl_87
def tl_85 : List (HloOp τ sig (Elt F)) :=
  (nullary main_cst_18 (constant S_ .f32 0x00000000#32)) :: tl_86
def tl_84 : List (HloOp τ sig (Elt F)) :=
  (binary main_v55 main_c_17 main_v56 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F))) :: tl_85
def tl_83 : List (HloOp τ sig (Elt F)) :=
  (nullary main_c_17 (constantI S_ 32 0#32)) :: tl_84
def tl_82 : List (HloOp τ sig (Elt F)) :=
  (unary main_v33 main_v55 ((extui 32 · natLt_1_32) : (⟨S8192, .i1⟩ : BufTy).Contents (Elt F) → (⟨S8192, .i32⟩ : BufTy).Contents (Elt F))) :: tl_83
def tl_81 : List (HloOp τ sig (Elt F)) :=
  (binary main_v50 main_v53 main_v54 (addf : (⟨S8192, .f32⟩ : BufTy).Contents (Elt F) → (⟨S8192, .f32⟩ : BufTy).Contents (Elt F) → (⟨S8192, .f32⟩ : BufTy).Contents (Elt F))) :: tl_82
def tl_80 : List (HloOp τ sig (Elt F)) :=
  (binary main_v52 main_v51 main_v53 (mulf : (⟨S8192, .f32⟩ : BufTy).Contents (Elt F) → (⟨S8192, .f32⟩ : BufTy).Contents (Elt F) → (⟨S8192, .f32⟩ : BufTy).Contents (Elt F))) :: tl_81
def tl_79 : List (HloOp τ sig (Elt F)) :=
  (unary main_cst_16 main_v52 (broadcastInDim S8192 ![] bcast_S_S8192 : (⟨S_, .f32⟩ : BufTy).Contents (Elt F) → (⟨S8192, .f32⟩ : BufTy).Contents (Elt F))) :: tl_80
def tl_78 : List (HloOp τ sig (Elt F)) :=
  (nullary main_cst_16 (constant S_ .f32 0x3CA3D70A#32)) :: tl_79
def tl_77 : List (HloOp τ sig (Elt F)) :=
  (unary main_v47 main_v51 (Host.log1p : (⟨S8192, .f32⟩ : BufTy).Contents (Elt F) → (⟨S8192, .f32⟩ : BufTy).Contents (Elt F))) :: tl_78
def tl_76 : List (HloOp τ sig (Elt F)) :=
  (binary main_v49 main_v48 main_v50 (mulf : (⟨S8192, .f32⟩ : BufTy).Contents (Elt F) → (⟨S8192, .f32⟩ : BufTy).Contents (Elt F) → (⟨S8192, .f32⟩ : BufTy).Contents (Elt F))) :: tl_77
def tl_75 : List (HloOp τ sig (Elt F)) :=
  (unary main_cst_15 main_v49 (broadcastInDim S8192 ![] bcast_S_S8192 : (⟨S_, .f32⟩ : BufTy).Contents (Elt F) → (⟨S8192, .f32⟩ : BufTy).Contents (Elt F))) :: tl_76
def tl_74 : List (HloOp τ sig (Elt F)) :=
  (nullary main_cst_15 (constant S_ .f32 0x3F000000#32)) :: tl_75
def tl_73 : List (HloOp τ sig (Elt F)) :=
  (unary main_v40 main_v48 (Host.log1p : (⟨S8192, .f32⟩ : BufTy).Contents (Elt F) → (⟨S8192, .f32⟩ : BufTy).Contents (Elt F))) :: tl_74
def tl_72 : List (HloOp τ sig (Elt F)) :=
  (binary main_v46 main_cst_14 main_v47 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F))) :: tl_73
def tl_71 : List (HloOp τ sig (Elt F)) :=
  (nullary main_cst_14 (constant S_ .f32 0x00000000#32)) :: tl_72
def tl_70 : List (HloOp τ sig (Elt F)) :=
  (TRef.ternary (TRef.of (T := ⟨S8192x8192, .i1⟩) main_v24) (TRef.of (T := ⟨S8192x8192, .f32⟩) main_v45) (TRef.of (T := ⟨S8192x8192, .f32⟩) main_call3_v1) (TRef.of (T := ⟨S8192x8192, .f32⟩) main_v46) select) :: tl_71
def tl_69 : List (HloOp τ sig (Elt F)) :=
  (TRef.unary (TRef.of (T := ⟨S_, .f32⟩) main_call3_v0) (TRef.of (T := ⟨S8192x8192, .f32⟩) main_call3_v1) (broadcastInDim S8192x8192 ![] bcast_S_S8192x8192)) :: tl_70
def tl_68 : List (HloOp τ sig (Elt F)) :=
  (TRef.unary (TRef.of (T := ⟨S_, .f32⟩) main_cst_13) (TRef.of (T := ⟨S_, .f32⟩) main_call3_v0) id) :: tl_69
def tl_67 : List (HloOp τ sig (Elt F)) :=
  (nullary main_cst_13 (constant S_ .f32 0x00000000#32)) :: tl_68
def tl_66 : List (HloOp τ sig (Elt F)) :=
  (unary main_v44 main_v45 (Host.exp : (⟨S8192x8192, .f32⟩ : BufTy).Contents (Elt F) → (⟨S8192x8192, .f32⟩ : BufTy).Contents (Elt F))) :: tl_67
def tl_65 : List (HloOp τ sig (Elt F)) :=
  (binary main_v43 main_v42 main_v44 (mulf : (⟨S8192x8192, .f32⟩ : BufTy).Contents (Elt F) → (⟨S8192x8192, .f32⟩ : BufTy).Contents (Elt F) → (⟨S8192x8192, .f32⟩ : BufTy).Contents (Elt F))) :: tl_66
def tl_64 : List (HloOp τ sig (Elt F)) :=
  (unary main_cst_12 main_v43 (broadcastInDim S8192x8192 ![] bcast_S_S8192x8192 : (⟨S_, .f32⟩ : BufTy).Contents (Elt F) → (⟨S8192x8192, .f32⟩ : BufTy).Contents (Elt F))) :: tl_65
def tl_63 : List (HloOp τ sig (Elt F)) :=
  (nullary main_cst_12 (constant S_ .f32 0x42480000#32)) :: tl_64
def tl_62 : List (HloOp τ sig (Elt F)) :=
  (binary main_v1 main_v41 main_v42 (subf : (⟨S8192x8192, .f32⟩ : BufTy).Contents (Elt F) → (⟨S8192x8192, .f32⟩ : BufTy).Contents (Elt F) → (⟨S8192x8192, .f32⟩ : BufTy).Contents (Elt F))) :: tl_63
def tl_61 : List (HloOp τ sig (Elt F)) :=
  (unary main_cst_11 main_v41 (broadcastInDim S8192x8192 ![] bcast_S_S8192x8192 : (⟨S_, .f32⟩ : BufTy).Contents (Elt F) → (⟨S8192x8192, .f32⟩ : BufTy).Contents (Elt F))) :: tl_62
def tl_60 : List (HloOp τ sig (Elt F)) :=
  (nullary main_cst_11 (constant S_ .f32 0x3F800000#32)) :: tl_61
def tl_59 : List (HloOp τ sig (Elt F)) :=
  (binary main_v39 main_cst_10 main_v40 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F))) :: tl_60
def tl_58 : List (HloOp τ sig (Elt F)) :=
  (nullary main_cst_10 (constant S_ .f32 0x00000000#32)) :: tl_59
def tl_57 : List (HloOp τ sig (Elt F)) :=
  (TRef.ternary (TRef.of (T := ⟨S8192x8192, .i1⟩) main_v30) (TRef.of (T := ⟨S8192x8192, .f32⟩) main_v38) (TRef.of (T := ⟨S8192x8192, .f32⟩) main_call2_v1) (TRef.of (T := ⟨S8192x8192, .f32⟩) main_v39) select) :: tl_58
def tl_56 : List (HloOp τ sig (Elt F)) :=
  (TRef.unary (TRef.of (T := ⟨S_, .f32⟩) main_call2_v0) (TRef.of (T := ⟨S8192x8192, .f32⟩) main_call2_v1) (broadcastInDim S8192x8192 ![] bcast_S_S8192x8192)) :: tl_57
def tl_55 : List (HloOp τ sig (Elt F)) :=
  (TRef.unary (TRef.of (T := ⟨S_, .f32⟩) main_cst_9) (TRef.of (T := ⟨S_, .f32⟩) main_call2_v0) id) :: tl_56
def tl_54 : List (HloOp τ sig (Elt F)) :=
  (nullary main_cst_9 (constant S_ .f32 0x00000000#32)) :: tl_55
def tl_53 : List (HloOp τ sig (Elt F)) :=
  (unary main_v37 main_v38 (Host.exp : (⟨S8192x8192, .f32⟩ : BufTy).Contents (Elt F) → (⟨S8192x8192, .f32⟩ : BufTy).Contents (Elt F))) :: tl_54
def tl_52 : List (HloOp τ sig (Elt F)) :=
  (binary main_v36 main_v35 main_v37 (mulf : (⟨S8192x8192, .f32⟩ : BufTy).Contents (Elt F) → (⟨S8192x8192, .f32⟩ : BufTy).Contents (Elt F) → (⟨S8192x8192, .f32⟩ : BufTy).Contents (Elt F))) :: tl_53
def tl_51 : List (HloOp τ sig (Elt F)) :=
  (unary main_cst_8 main_v36 (broadcastInDim S8192x8192 ![] bcast_S_S8192x8192 : (⟨S_, .f32⟩ : BufTy).Contents (Elt F) → (⟨S8192x8192, .f32⟩ : BufTy).Contents (Elt F))) :: tl_52
def tl_50 : List (HloOp τ sig (Elt F)) :=
  (nullary main_cst_8 (constant S_ .f32 0xC0000000#32)) :: tl_51
def tl_49 : List (HloOp τ sig (Elt F)) :=
  (binary main_v1 main_v34 main_v35 (subf : (⟨S8192x8192, .f32⟩ : BufTy).Contents (Elt F) → (⟨S8192x8192, .f32⟩ : BufTy).Contents (Elt F) → (⟨S8192x8192, .f32⟩ : BufTy).Contents (Elt F))) :: tl_50
def tl_48 : List (HloOp τ sig (Elt F)) :=
  (unary main_cst_7 main_v34 (broadcastInDim S8192x8192 ![] bcast_S_S8192x8192 : (⟨S_, .f32⟩ : BufTy).Contents (Elt F) → (⟨S8192x8192, .f32⟩ : BufTy).Contents (Elt F))) :: tl_49
def tl_47 : List (HloOp τ sig (Elt F)) :=
  (nullary main_cst_7 (constant S_ .f32 0x3F800000#32)) :: tl_48
def tl_46 : List (HloOp τ sig (Elt F)) :=
  (binary main_v31 main_v32 main_v33 (andi : (⟨S8192, .i1⟩ : BufTy).Contents (Elt F) → (⟨S8192, .i1⟩ : BufTy).Contents (Elt F) → (⟨S8192, .i1⟩ : BufTy).Contents (Elt F))) :: tl_47
def tl_45 : List (HloOp τ sig (Elt F)) :=
  (binary main_v30 main_c_6 main_v32 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F))) :: tl_46
def tl_44 : List (HloOp τ sig (Elt F)) :=
  (nullary main_c_6 (constantI S_ 1 0#1)) :: tl_45
def tl_43 : List (HloOp τ sig (Elt F)) :=
  (binary main_v24 main_c_5 main_v31 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F))) :: tl_44
def tl_42 : List (HloOp τ sig (Elt F)) :=
  (nullary main_c_5 (constantI S_ 1 0#1)) :: tl_43
def tl_41 : List (HloOp τ sig (Elt F)) :=
  (binary main_v13 main_v29 main_v30 (andi : (⟨S8192x8192, .i1⟩ : BufTy).Contents (Elt F) → (⟨S8192x8192, .i1⟩ : BufTy).Contents (Elt F) → (⟨S8192x8192, .i1⟩ : BufTy).Contents (Elt F))) :: tl_42
def tl_40 : List (HloOp τ sig (Elt F)) :=
  (binary main_v26 main_v28 main_v29 (cmpf .olt : (⟨S8192x8192, .f32⟩ : BufTy).Contents (Elt F) → (⟨S8192x8192, .f32⟩ : BufTy).Contents (Elt F) → (⟨S8192x8192, .i1⟩ : BufTy).Contents (Elt F))) :: tl_41
def tl_39 : List (HloOp τ sig (Elt F)) :=
  (unary main_v27 main_v28 (broadcastInDim S8192x8192 ![0, 1] bcast_S8192x1_S8192x8192_0_1 : (⟨S8192x1, .f32⟩ : BufTy).Contents (Elt F) → (⟨S8192x8192, .f32⟩ : BufTy).Contents (Elt F))) :: tl_40
def tl_38 : List (HloOp τ sig (Elt F)) :=
  (unary main_v18 main_v27 (broadcastInDim S8192x1 ![0] bcast_S8192_S8192x1_0 : (⟨S8192, .f32⟩ : BufTy).Contents (Elt F) → (⟨S8192x1, .f32⟩ : BufTy).Contents (Elt F))) :: tl_39
def tl_37 : List (HloOp τ sig (Elt F)) :=
  (binary main_v1 main_v25 main_v26 (subf : (⟨S8192x8192, .f32⟩ : BufTy).Contents (Elt F) → (⟨S8192x8192, .f32⟩ : BufTy).Contents (Elt F) → (⟨S8192x8192, .f32⟩ : BufTy).Contents (Elt F))) :: tl_38
def tl_36 : List (HloOp τ sig (Elt F)) :=
  (unary main_cst_4 main_v25 (broadcastInDim S8192x8192 ![] bcast_S_S8192x8192 : (⟨S_, .f32⟩ : BufTy).Contents (Elt F) → (⟨S8192x8192, .f32⟩ : BufTy).Contents (Elt F))) :: tl_37
def tl_35 : List (HloOp τ sig (Elt F)) :=
  (nullary main_cst_4 (constant S_ .f32 0x3DCCCCCD#32)) :: tl_36
def tl_34 : List (HloOp τ sig (Elt F)) :=
  (binary main_v14 main_v23 main_v24 (andi : (⟨S8192x8192, .i1⟩ : BufTy).Contents (Elt F) → (⟨S8192x8192, .i1⟩ : BufTy).Contents (Elt F) → (⟨S8192x8192, .i1⟩ : BufTy).Contents (Elt F))) :: tl_35
def tl_33 : List (HloOp τ sig (Elt F)) :=
  (binary main_v20 main_v22 main_v23 (cmpf .ogt : (⟨S8192x8192, .f32⟩ : BufTy).Contents (Elt F) → (⟨S8192x8192, .f32⟩ : BufTy).Contents (Elt F) → (⟨S8192x8192, .i1⟩ : BufTy).Contents (Elt F))) :: tl_34
def tl_32 : List (HloOp τ sig (Elt F)) :=
  (unary main_v21 main_v22 (broadcastInDim S8192x8192 ![0, 1] bcast_S8192x1_S8192x8192_0_1 : (⟨S8192x1, .f32⟩ : BufTy).Contents (Elt F) → (⟨S8192x8192, .f32⟩ : BufTy).Contents (Elt F))) :: tl_33
def tl_31 : List (HloOp τ sig (Elt F)) :=
  (unary main_v16 main_v21 (broadcastInDim S8192x1 ![0] bcast_S8192_S8192x1_0 : (⟨S8192, .f32⟩ : BufTy).Contents (Elt F) → (⟨S8192x1, .f32⟩ : BufTy).Contents (Elt F))) :: tl_32
def tl_30 : List (HloOp τ sig (Elt F)) :=
  (binary main_v1 main_v19 main_v20 (addf : (⟨S8192x8192, .f32⟩ : BufTy).Contents (Elt F) → (⟨S8192x8192, .f32⟩ : BufTy).Contents (Elt F) → (⟨S8192x8192, .f32⟩ : BufTy).Contents (Elt F))) :: tl_31
def tl_29 : List (HloOp τ sig (Elt F)) :=
  (unary main_cst_3 main_v19 (broadcastInDim S8192x8192 ![] bcast_S_S8192x8192 : (⟨S_, .f32⟩ : BufTy).Contents (Elt F) → (⟨S8192x8192, .f32⟩ : BufTy).Contents (Elt F))) :: tl_30
def tl_28 : List (HloOp τ sig (Elt F)) :=
  (nullary main_cst_3 (constant S_ .f32 0x3DCCCCCD#32)) :: tl_29
def tl_27 : List (HloOp τ sig (Elt F)) :=
  (binary main_v17 main_cst_2 main_v18 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F))) :: tl_28
def tl_26 : List (HloOp τ sig (Elt F)) :=
  (nullary main_cst_2 (constant S_ .f32 0xFF800000#32)) :: tl_27
def tl_25 : List (HloOp τ sig (Elt F)) :=
  (TRef.ternary (TRef.of (T := ⟨S8192x8192, .i1⟩) main_v14) (TRef.of (T := ⟨S8192x8192, .f32⟩) main_v1) (TRef.of (T := ⟨S8192x8192, .f32⟩) main_call1_v1) (TRef.of (T := ⟨S8192x8192, .f32⟩) main_v17) select) :: tl_26
def tl_24 : List (HloOp τ sig (Elt F)) :=
  (TRef.unary (TRef.of (T := ⟨S_, .f32⟩) main_call1_v0) (TRef.of (T := ⟨S8192x8192, .f32⟩) main_call1_v1) (broadcastInDim S8192x8192 ![] bcast_S_S8192x8192)) :: tl_25
def tl_23 : List (HloOp τ sig (Elt F)) :=
  (TRef.unary (TRef.of (T := ⟨S_, .f32⟩) main_cst_1) (TRef.of (T := ⟨S_, .f32⟩) main_call1_v0) id) :: tl_24
def tl_22 : List (HloOp τ sig (Elt F)) :=
  (nullary main_cst_1 (constant S_ .f32 0xFF800000#32)) :: tl_23
def tl_21 : List (HloOp τ sig (Elt F)) :=
  (binary main_v15 main_cst_0 main_v16 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F))) :: tl_22
def tl_20 : List (HloOp τ sig (Elt F)) :=
  (nullary main_cst_0 (constant S_ .f32 0x7F800000#32)) :: tl_21
def tl_19 : List (HloOp τ sig (Elt F)) :=
  (TRef.ternary (TRef.of (T := ⟨S8192x8192, .i1⟩) main_v13) (TRef.of (T := ⟨S8192x8192, .f32⟩) main_v1) (TRef.of (T := ⟨S8192x8192, .f32⟩) main_call0_v1) (TRef.of (T := ⟨S8192x8192, .f32⟩) main_v15) select) :: tl_20
def tl_18 : List (HloOp τ sig (Elt F)) :=
  (TRef.unary (TRef.of (T := ⟨S_, .f32⟩) main_call0_v0) (TRef.of (T := ⟨S8192x8192, .f32⟩) main_call0_v1) (broadcastInDim S8192x8192 ![] bcast_S_S8192x8192)) :: tl_19
def tl_17 : List (HloOp τ sig (Elt F)) :=
  (TRef.unary (TRef.of (T := ⟨S_, .f32⟩) main_cst) (TRef.of (T := ⟨S_, .f32⟩) main_call0_v0) id) :: tl_18
def tl_16 : List (HloOp τ sig (Elt F)) :=
  (nullary main_cst (constant S_ .f32 0x7F800000#32)) :: tl_17
def tl_15 : List (HloOp τ sig (Elt F)) :=
  (unary main_v6 main_v14 (noti : (⟨S8192x8192, .i1⟩ : BufTy).Contents (Elt F) → (⟨S8192x8192, .i1⟩ : BufTy).Contents (Elt F))) :: tl_16
def tl_14 : List (HloOp τ sig (Elt F)) :=
  (binary main_v6 main_v12 main_v13 (andi : (⟨S8192x8192, .i1⟩ : BufTy).Contents (Elt F) → (⟨S8192x8192, .i1⟩ : BufTy).Contents (Elt F) → (⟨S8192x8192, .i1⟩ : BufTy).Contents (Elt F))) :: tl_15
def tl_13 : List (HloOp τ sig (Elt F)) :=
  (unary main_v11 main_v12 (noti : (⟨S8192x8192, .i1⟩ : BufTy).Contents (Elt F) → (⟨S8192x8192, .i1⟩ : BufTy).Contents (Elt F))) :: tl_14
def tl_12 : List (HloOp τ sig (Elt F)) :=
  (binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F))) :: tl_13
def tl_11 : List (HloOp τ sig (Elt F)) :=
  (binary main_v7 main_v9 main_v10 (addi : (⟨S8192x8192, .i32⟩ : BufTy).Contents (Elt F) → (⟨S8192x8192, .i32⟩ : BufTy).Contents (Elt F) → (⟨S8192x8192, .i32⟩ : BufTy).Contents (Elt F))) :: tl_12
def tl_10 : List (HloOp τ sig (Elt F)) :=
  (unary main_c main_v9 (broadcastInDim S8192x8192 ![] bcast_S_S8192x8192 : (⟨S_, .i32⟩ : BufTy).Contents (Elt F) → (⟨S8192x8192, .i32⟩ : BufTy).Contents (Elt F))) :: tl_11
def tl_9 : List (HloOp τ sig (Elt F)) :=
  (nullary main_c (constantI S_ 32 0#32)) :: tl_10
def tl_8 : List (HloOp τ sig (Elt F)) :=
  (nullary main_v8 (iotaInDim S8192x8192 32 1)) :: tl_9
def tl_7 : List (HloOp τ sig (Elt F)) :=
  (nullary main_v7 (iotaInDim S8192x8192 32 0)) :: tl_8
def tl_6 : List (HloOp τ sig (Elt F)) :=
  (binary main_v4 main_v5 main_v6 (cmpi .eq : (⟨S8192x8192, .i32⟩ : BufTy).Contents (Elt F) → (⟨S8192x8192, .i32⟩ : BufTy).Contents (Elt F) → (⟨S8192x8192, .i1⟩ : BufTy).Contents (Elt F))) :: tl_7
def tl_5 : List (HloOp τ sig (Elt F)) :=
  (unary main_v3 main_v5 (broadcastInDim S8192x8192 ![0, 1] bcast_S1x8192_S8192x8192_0_1 : (⟨S1x8192, .i32⟩ : BufTy).Contents (Elt F) → (⟨S8192x8192, .i32⟩ : BufTy).Contents (Elt F))) :: tl_6
def tl_4 : List (HloOp τ sig (Elt F)) :=
  (unary main_v2 main_v4 (broadcastInDim S8192x8192 ![0, 1] bcast_S8192x1_S8192x8192_0_1 : (⟨S8192x1, .i32⟩ : BufTy).Contents (Elt F) → (⟨S8192x8192, .i32⟩ : BufTy).Contents (Elt F))) :: tl_5
def tl_3 : List (HloOp τ sig (Elt F)) :=
  (unary main_arg1 main_v3 (broadcastInDim S1x8192 ![1] bcast_S8192_S1x8192_1 : (⟨S8192, .i32⟩ : BufTy).Contents (Elt F) → (⟨S1x8192, .i32⟩ : BufTy).Contents (Elt F))) :: tl_4
def tl_2 : List (HloOp τ sig (Elt F)) :=
  (unary main_arg1 main_v2 (broadcastInDim S8192x1 ![0] bcast_S8192_S8192x1_0 : (⟨S8192, .i32⟩ : BufTy).Contents (Elt F) → (⟨S8192x1, .i32⟩ : BufTy).Contents (Elt F))) :: tl_3
def tl_1 : List (HloOp τ sig (Elt F)) :=
  (binary main_arg0 main_v0 main_v1 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F))) :: tl_2
def tl_0 : List (HloOp τ sig (Elt F)) :=
  (unary main_arg0 main_v0 ((transpose S128x8192 [1, 0] · transposes_S8192x128_S128x8192_1_0) : (⟨S8192x128, .f32⟩ : BufTy).Contents (Elt F) → (⟨S128x8192, .f32⟩ : BufTy).Contents (Elt F))) :: tl_1

set_option maxRecDepth 65536 in
set_option maxHeartbeats 8000000 in
/-- The reference's operation list is the first of the suffixes. -/
theorem ops_eq : ops (F := F) = tl_0 := rfl

variable (X : (⟨S8192x128, .f32⟩ : BufTy).Contents (Elt Ideal)) (Y : (⟨S8192, .i32⟩ : BufTy).Contents (Elt Ideal))

/-! Stage `k`: a valuation that already holds the stages still to be read from operation `k` on ends, after operations
    `k`, `k+1`, …, with the result buffer at the last stage. Each step applies one operation: its own buffer takes the
    operation's function of its operands' stages, which is the next stage by definition; every other buffer is unchanged. -/

theorem stage_104 (V : Valuation τ sig (Elt Ideal)) (h_main_v66 : V (Proc.devRef .tc main_v66) = val_main_v66 (F := Ideal) X Y) :
    StableHlo.after (tl_104 (F := Ideal)) V (Proc.devRef .tc main_v66) = val_main_v66 (F := Ideal) X Y := by
  rw [tl_104, after_nil]
  exact h_main_v66

theorem stage_103 (V : Valuation τ sig (Elt Ideal)) (h_main_v61 : V (Proc.devRef .tc main_v61) = val_main_v61 (F := Ideal) X Y) (h_main_v62 : V (Proc.devRef .tc main_v62) = val_main_v62 (F := Ideal) X Y) (h_main_v65 : V (Proc.devRef .tc main_v65) = val_main_v65 (F := Ideal) X) :
    StableHlo.after (tl_103 (F := Ideal)) V (Proc.devRef .tc main_v66) = val_main_v66 (F := Ideal) X Y := by
  rw [tl_103, after_cons]
  refine stage_104 X Y _ ?_
  · rw [ternary_result, h_main_v62, h_main_v61, h_main_v65]
    have e62 : (TRef.of (T := ⟨S_, .i1⟩) main_v62 : TRef sig ⟨S_, .i1⟩).ofBuf (val_main_v62 (F := Ideal) X Y) = val_main_v62 (F := Ideal) X Y := cast_eq _ _
    have e61 : (TRef.of (T := ⟨S_, .f32⟩) main_v61 : TRef sig ⟨S_, .f32⟩).ofBuf (val_main_v61 (F := Ideal) X Y) = val_main_v61 (F := Ideal) X Y := cast_eq _ _
    have e65 : (TRef.of (T := ⟨S_, .f32⟩) main_v65 : TRef sig ⟨S_, .f32⟩).ofBuf (val_main_v65 (F := Ideal) X) = val_main_v65 (F := Ideal) X := cast_eq _ _
    rw [e62, e61, e65]
    exact cast_eq _ _

theorem stage_102 (V : Valuation τ sig (Elt Ideal)) (h_main_v61 : V (Proc.devRef .tc main_v61) = val_main_v61 (F := Ideal) X Y) (h_main_v62 : V (Proc.devRef .tc main_v62) = val_main_v62 (F := Ideal) X Y) (h_main_v64 : V (Proc.devRef .tc main_v64) = val_main_v64 (F := Ideal) X) (h_main_cst_24 : V (Proc.devRef .tc main_cst_24) = val_main_cst_24 (F := Ideal)) :
    StableHlo.after (tl_102 (F := Ideal)) V (Proc.devRef .tc main_v66) = val_main_v66 (F := Ideal) X Y := by
  rw [tl_102, after_cons]
  refine stage_103 X Y _ ?_ ?_ ?_
  · rw [binary_result_ne]
    · exact h_main_v61
    · decide
  · rw [binary_result_ne]
    · exact h_main_v62
    · decide
  · rw [binary_result, h_main_cst_24, h_main_v64]
    try rfl

theorem stage_101 (V : Valuation τ sig (Elt Ideal)) (h_main_v61 : V (Proc.devRef .tc main_v61) = val_main_v61 (F := Ideal) X Y) (h_main_v62 : V (Proc.devRef .tc main_v62) = val_main_v62 (F := Ideal) X Y) (h_main_v64 : V (Proc.devRef .tc main_v64) = val_main_v64 (F := Ideal) X) :
    StableHlo.after (tl_101 (F := Ideal)) V (Proc.devRef .tc main_v66) = val_main_v66 (F := Ideal) X Y := by
  rw [tl_101, after_cons]
  refine stage_102 X Y _ ?_ ?_ ?_ ?_
  · rw [nullary_result_ne]
    · exact h_main_v61
    · decide
  · rw [nullary_result_ne]
    · exact h_main_v62
    · decide
  · rw [nullary_result_ne]
    · exact h_main_v64
    · decide
  · rw [nullary_result]
    try rfl

theorem stage_100 (V : Valuation τ sig (Elt Ideal)) (h_main_v61 : V (Proc.devRef .tc main_v61) = val_main_v61 (F := Ideal) X Y) (h_main_v62 : V (Proc.devRef .tc main_v62) = val_main_v62 (F := Ideal) X Y) (h_main_v63 : V (Proc.devRef .tc main_v63) = val_main_v63 (F := Ideal) X) (h_main_cst_23 : V (Proc.devRef .tc main_cst_23) = val_main_cst_23 (F := Ideal)) :
    StableHlo.after (tl_100 (F := Ideal)) V (Proc.devRef .tc main_v66) = val_main_v66 (F := Ideal) X Y := by
  rw [tl_100, after_cons]
  refine stage_101 X Y _ ?_ ?_ ?_
  · rw [binary_result_ne]
    · exact h_main_v61
    · decide
  · rw [binary_result_ne]
    · exact h_main_v62
    · decide
  · rw [binary_result, h_main_v63, h_main_cst_23]
    try rfl

theorem stage_99 (V : Valuation τ sig (Elt Ideal)) (h_main_v61 : V (Proc.devRef .tc main_v61) = val_main_v61 (F := Ideal) X Y) (h_main_v62 : V (Proc.devRef .tc main_v62) = val_main_v62 (F := Ideal) X Y) (h_main_v63 : V (Proc.devRef .tc main_v63) = val_main_v63 (F := Ideal) X) :
    StableHlo.after (tl_99 (F := Ideal)) V (Proc.devRef .tc main_v66) = val_main_v66 (F := Ideal) X Y := by
  rw [tl_99, after_cons]
  refine stage_100 X Y _ ?_ ?_ ?_ ?_
  · rw [nullary_result_ne]
    · exact h_main_v61
    · decide
  · rw [nullary_result_ne]
    · exact h_main_v62
    · decide
  · rw [nullary_result_ne]
    · exact h_main_v63
    · decide
  · rw [nullary_result]
    try rfl

theorem stage_98 (V : Valuation τ sig (Elt Ideal)) (h_main_v1 : V (Proc.devRef .tc main_v1) = val_main_v1 (F := Ideal) X) (h_main_v61 : V (Proc.devRef .tc main_v61) = val_main_v61 (F := Ideal) X Y) (h_main_v62 : V (Proc.devRef .tc main_v62) = val_main_v62 (F := Ideal) X Y) (h_main_cst_22 : V (Proc.devRef .tc main_cst_22) = val_main_cst_22 (F := Ideal)) :
    StableHlo.after (tl_98 (F := Ideal)) V (Proc.devRef .tc main_v66) = val_main_v66 (F := Ideal) X Y := by
  rw [tl_98, after_cons]
  refine stage_99 X Y _ ?_ ?_ ?_
  · rw [binary_result_ne]
    · exact h_main_v61
    · decide
  · rw [binary_result_ne]
    · exact h_main_v62
    · decide
  · rw [binary_result, h_main_v1, h_main_cst_22]
    try rfl

theorem stage_97 (V : Valuation τ sig (Elt Ideal)) (h_main_v1 : V (Proc.devRef .tc main_v1) = val_main_v1 (F := Ideal) X) (h_main_v61 : V (Proc.devRef .tc main_v61) = val_main_v61 (F := Ideal) X Y) (h_main_v62 : V (Proc.devRef .tc main_v62) = val_main_v62 (F := Ideal) X Y) :
    StableHlo.after (tl_97 (F := Ideal)) V (Proc.devRef .tc main_v66) = val_main_v66 (F := Ideal) X Y := by
  rw [tl_97, after_cons]
  refine stage_98 X Y _ ?_ ?_ ?_ ?_
  · rw [nullary_result_ne]
    · exact h_main_v1
    · decide
  · rw [nullary_result_ne]
    · exact h_main_v61
    · decide
  · rw [nullary_result_ne]
    · exact h_main_v62
    · decide
  · rw [nullary_result]
    try rfl

theorem stage_96 (V : Valuation τ sig (Elt Ideal)) (h_main_v1 : V (Proc.devRef .tc main_v1) = val_main_v1 (F := Ideal) X) (h_main_v56 : V (Proc.devRef .tc main_v56) = val_main_v56 (F := Ideal) X Y) (h_main_v61 : V (Proc.devRef .tc main_v61) = val_main_v61 (F := Ideal) X Y) (h_main_c_21 : V (Proc.devRef .tc main_c_21) = val_main_c_21 (F := Ideal)) :
    StableHlo.after (tl_96 (F := Ideal)) V (Proc.devRef .tc main_v66) = val_main_v66 (F := Ideal) X Y := by
  rw [tl_96, after_cons]
  refine stage_97 X Y _ ?_ ?_ ?_
  · rw [binary_result_ne]
    · exact h_main_v1
    · decide
  · rw [binary_result_ne]
    · exact h_main_v61
    · decide
  · rw [binary_result, h_main_v56, h_main_c_21]
    try rfl

theorem stage_95 (V : Valuation τ sig (Elt Ideal)) (h_main_v1 : V (Proc.devRef .tc main_v1) = val_main_v1 (F := Ideal) X) (h_main_v56 : V (Proc.devRef .tc main_v56) = val_main_v56 (F := Ideal) X Y) (h_main_v61 : V (Proc.devRef .tc main_v61) = val_main_v61 (F := Ideal) X Y) :
    StableHlo.after (tl_95 (F := Ideal)) V (Proc.devRef .tc main_v66) = val_main_v66 (F := Ideal) X Y := by
  rw [tl_95, after_cons]
  refine stage_96 X Y _ ?_ ?_ ?_ ?_
  · rw [nullary_result_ne]
    · exact h_main_v1
    · decide
  · rw [nullary_result_ne]
    · exact h_main_v56
    · decide
  · rw [nullary_result_ne]
    · exact h_main_v61
    · decide
  · rw [nullary_result]
    try rfl

theorem stage_94 (V : Valuation τ sig (Elt Ideal)) (h_main_v1 : V (Proc.devRef .tc main_v1) = val_main_v1 (F := Ideal) X) (h_main_v56 : V (Proc.devRef .tc main_v56) = val_main_v56 (F := Ideal) X Y) (h_main_v58 : V (Proc.devRef .tc main_v58) = val_main_v58 (F := Ideal) X Y) (h_main_v60 : V (Proc.devRef .tc main_v60) = val_main_v60 (F := Ideal) X Y) :
    StableHlo.after (tl_94 (F := Ideal)) V (Proc.devRef .tc main_v66) = val_main_v66 (F := Ideal) X Y := by
  rw [tl_94, after_cons]
  refine stage_95 X Y _ ?_ ?_ ?_
  · rw [binary_result_ne]
    · exact h_main_v1
    · decide
  · rw [binary_result_ne]
    · exact h_main_v56
    · decide
  · rw [binary_result, h_main_v58, h_main_v60]
    try rfl

theorem stage_93 (V : Valuation τ sig (Elt Ideal)) (h_main_v1 : V (Proc.devRef .tc main_v1) = val_main_v1 (F := Ideal) X) (h_main_v56 : V (Proc.devRef .tc main_v56) = val_main_v56 (F := Ideal) X Y) (h_main_v58 : V (Proc.devRef .tc main_v58) = val_main_v58 (F := Ideal) X Y) (h_main_v59 : V (Proc.devRef .tc main_v59) = val_main_v59 (F := Ideal) X Y) :
    StableHlo.after (tl_93 (F := Ideal)) V (Proc.devRef .tc main_v66) = val_main_v66 (F := Ideal) X Y := by
  rw [tl_93, after_cons]
  refine stage_94 X Y _ ?_ ?_ ?_ ?_
  · rw [unary_result_ne]
    · exact h_main_v1
    · decide
  · rw [unary_result_ne]
    · exact h_main_v56
    · decide
  · rw [unary_result_ne]
    · exact h_main_v58
    · decide
  · rw [unary_result, h_main_v59]
    try rfl

theorem stage_92 (V : Valuation τ sig (Elt Ideal)) (h_main_v1 : V (Proc.devRef .tc main_v1) = val_main_v1 (F := Ideal) X) (h_main_v56 : V (Proc.devRef .tc main_v56) = val_main_v56 (F := Ideal) X Y) (h_main_v58 : V (Proc.devRef .tc main_v58) = val_main_v58 (F := Ideal) X Y) (h_main_c_20 : V (Proc.devRef .tc main_c_20) = val_main_c_20 (F := Ideal)) :
    StableHlo.after (tl_92 (F := Ideal)) V (Proc.devRef .tc main_v66) = val_main_v66 (F := Ideal) X Y := by
  rw [tl_92, after_cons]
  refine stage_93 X Y _ ?_ ?_ ?_ ?_
  · rw [binary_result_ne]
    · exact h_main_v1
    · decide
  · rw [binary_result_ne]
    · exact h_main_v56
    · decide
  · rw [binary_result_ne]
    · exact h_main_v58
    · decide
  · rw [binary_result, h_main_v56, h_main_c_20]
    try rfl

theorem stage_91 (V : Valuation τ sig (Elt Ideal)) (h_main_v1 : V (Proc.devRef .tc main_v1) = val_main_v1 (F := Ideal) X) (h_main_v56 : V (Proc.devRef .tc main_v56) = val_main_v56 (F := Ideal) X Y) (h_main_v58 : V (Proc.devRef .tc main_v58) = val_main_v58 (F := Ideal) X Y) :
    StableHlo.after (tl_91 (F := Ideal)) V (Proc.devRef .tc main_v66) = val_main_v66 (F := Ideal) X Y := by
  rw [tl_91, after_cons]
  refine stage_92 X Y _ ?_ ?_ ?_ ?_
  · rw [nullary_result_ne]
    · exact h_main_v1
    · decide
  · rw [nullary_result_ne]
    · exact h_main_v56
    · decide
  · rw [nullary_result_ne]
    · exact h_main_v58
    · decide
  · rw [nullary_result]
    try rfl

theorem stage_90 (V : Valuation τ sig (Elt Ideal)) (h_main_v1 : V (Proc.devRef .tc main_v1) = val_main_v1 (F := Ideal) X) (h_main_v56 : V (Proc.devRef .tc main_v56) = val_main_v56 (F := Ideal) X Y) (h_main_v57 : V (Proc.devRef .tc main_v57) = val_main_v57 (F := Ideal) X Y) (h_main_cst_19 : V (Proc.devRef .tc main_cst_19) = val_main_cst_19 (F := Ideal)) :
    StableHlo.after (tl_90 (F := Ideal)) V (Proc.devRef .tc main_v66) = val_main_v66 (F := Ideal) X Y := by
  rw [tl_90, after_cons]
  refine stage_91 X Y _ ?_ ?_ ?_
  · rw [binary_result_ne]
    · exact h_main_v1
    · decide
  · rw [binary_result_ne]
    · exact h_main_v56
    · decide
  · rw [binary_result, h_main_v57, h_main_cst_19]
    try rfl

theorem stage_89 (V : Valuation τ sig (Elt Ideal)) (h_main_v1 : V (Proc.devRef .tc main_v1) = val_main_v1 (F := Ideal) X) (h_main_v56 : V (Proc.devRef .tc main_v56) = val_main_v56 (F := Ideal) X Y) (h_main_v57 : V (Proc.devRef .tc main_v57) = val_main_v57 (F := Ideal) X Y) :
    StableHlo.after (tl_89 (F := Ideal)) V (Proc.devRef .tc main_v66) = val_main_v66 (F := Ideal) X Y := by
  rw [tl_89, after_cons]
  refine stage_90 X Y _ ?_ ?_ ?_ ?_
  · rw [nullary_result_ne]
    · exact h_main_v1
    · decide
  · rw [nullary_result_ne]
    · exact h_main_v56
    · decide
  · rw [nullary_result_ne]
    · exact h_main_v57
    · decide
  · rw [nullary_result]
    try rfl

theorem stage_88 (V : Valuation τ sig (Elt Ideal)) (h_main_v1 : V (Proc.devRef .tc main_v1) = val_main_v1 (F := Ideal) X) (h_main_v33 : V (Proc.devRef .tc main_v33) = val_main_v33 (F := Ideal) X Y) (h_main_v54 : V (Proc.devRef .tc main_v54) = val_main_v54 (F := Ideal) X Y) (h_main_v56 : V (Proc.devRef .tc main_v56) = val_main_v56 (F := Ideal) X Y) (h_main_call4_v1 : V (Proc.devRef .tc main_call4_v1) = val_main_call4_v1 (F := Ideal)) :
    StableHlo.after (tl_88 (F := Ideal)) V (Proc.devRef .tc main_v66) = val_main_v66 (F := Ideal) X Y := by
  rw [tl_88, after_cons]
  refine stage_89 X Y _ ?_ ?_ ?_
  · rw [ternary_result_ne]
    · exact h_main_v1
    · decide
  · rw [ternary_result_ne]
    · exact h_main_v56
    · decide
  · rw [ternary_result, h_main_v33, h_main_v54, h_main_call4_v1]
    try rfl

theorem stage_87 (V : Valuation τ sig (Elt Ideal)) (h_main_v1 : V (Proc.devRef .tc main_v1) = val_main_v1 (F := Ideal) X) (h_main_v33 : V (Proc.devRef .tc main_v33) = val_main_v33 (F := Ideal) X Y) (h_main_v54 : V (Proc.devRef .tc main_v54) = val_main_v54 (F := Ideal) X Y) (h_main_v56 : V (Proc.devRef .tc main_v56) = val_main_v56 (F := Ideal) X Y) (h_main_call4_v0 : V (Proc.devRef .tc main_call4_v0) = val_main_call4_v0 (F := Ideal)) :
    StableHlo.after (tl_87 (F := Ideal)) V (Proc.devRef .tc main_v66) = val_main_v66 (F := Ideal) X Y := by
  rw [tl_87, after_cons]
  refine stage_88 X Y _ ?_ ?_ ?_ ?_ ?_
  · rw [unary_result_ne]
    · exact h_main_v1
    · decide
  · rw [unary_result_ne]
    · exact h_main_v33
    · decide
  · rw [unary_result_ne]
    · exact h_main_v54
    · decide
  · rw [unary_result_ne]
    · exact h_main_v56
    · decide
  · rw [unary_result, h_main_call4_v0]
    try rfl

theorem stage_86 (V : Valuation τ sig (Elt Ideal)) (h_main_v1 : V (Proc.devRef .tc main_v1) = val_main_v1 (F := Ideal) X) (h_main_v33 : V (Proc.devRef .tc main_v33) = val_main_v33 (F := Ideal) X Y) (h_main_v54 : V (Proc.devRef .tc main_v54) = val_main_v54 (F := Ideal) X Y) (h_main_v56 : V (Proc.devRef .tc main_v56) = val_main_v56 (F := Ideal) X Y) (h_main_cst_18 : V (Proc.devRef .tc main_cst_18) = val_main_cst_18 (F := Ideal)) :
    StableHlo.after (tl_86 (F := Ideal)) V (Proc.devRef .tc main_v66) = val_main_v66 (F := Ideal) X Y := by
  rw [tl_86, after_cons]
  refine stage_87 X Y _ ?_ ?_ ?_ ?_ ?_
  · rw [unary_result_ne]
    · exact h_main_v1
    · decide
  · rw [unary_result_ne]
    · exact h_main_v33
    · decide
  · rw [unary_result_ne]
    · exact h_main_v54
    · decide
  · rw [unary_result_ne]
    · exact h_main_v56
    · decide
  · rw [unary_result, h_main_cst_18]
    try rfl

theorem stage_85 (V : Valuation τ sig (Elt Ideal)) (h_main_v1 : V (Proc.devRef .tc main_v1) = val_main_v1 (F := Ideal) X) (h_main_v33 : V (Proc.devRef .tc main_v33) = val_main_v33 (F := Ideal) X Y) (h_main_v54 : V (Proc.devRef .tc main_v54) = val_main_v54 (F := Ideal) X Y) (h_main_v56 : V (Proc.devRef .tc main_v56) = val_main_v56 (F := Ideal) X Y) :
    StableHlo.after (tl_85 (F := Ideal)) V (Proc.devRef .tc main_v66) = val_main_v66 (F := Ideal) X Y := by
  rw [tl_85, after_cons]
  refine stage_86 X Y _ ?_ ?_ ?_ ?_ ?_
  · rw [nullary_result_ne]
    · exact h_main_v1
    · decide
  · rw [nullary_result_ne]
    · exact h_main_v33
    · decide
  · rw [nullary_result_ne]
    · exact h_main_v54
    · decide
  · rw [nullary_result_ne]
    · exact h_main_v56
    · decide
  · rw [nullary_result]
    try rfl

theorem stage_84 (V : Valuation τ sig (Elt Ideal)) (h_main_v1 : V (Proc.devRef .tc main_v1) = val_main_v1 (F := Ideal) X) (h_main_v33 : V (Proc.devRef .tc main_v33) = val_main_v33 (F := Ideal) X Y) (h_main_v54 : V (Proc.devRef .tc main_v54) = val_main_v54 (F := Ideal) X Y) (h_main_v55 : V (Proc.devRef .tc main_v55) = val_main_v55 (F := Ideal) X Y) (h_main_c_17 : V (Proc.devRef .tc main_c_17) = val_main_c_17 (F := Ideal)) :
    StableHlo.after (tl_84 (F := Ideal)) V (Proc.devRef .tc main_v66) = val_main_v66 (F := Ideal) X Y := by
  rw [tl_84, after_cons]
  refine stage_85 X Y _ ?_ ?_ ?_ ?_
  · rw [binary_result_ne]
    · exact h_main_v1
    · decide
  · rw [binary_result_ne]
    · exact h_main_v33
    · decide
  · rw [binary_result_ne]
    · exact h_main_v54
    · decide
  · rw [binary_result, h_main_v55, h_main_c_17]
    try rfl

theorem stage_83 (V : Valuation τ sig (Elt Ideal)) (h_main_v1 : V (Proc.devRef .tc main_v1) = val_main_v1 (F := Ideal) X) (h_main_v33 : V (Proc.devRef .tc main_v33) = val_main_v33 (F := Ideal) X Y) (h_main_v54 : V (Proc.devRef .tc main_v54) = val_main_v54 (F := Ideal) X Y) (h_main_v55 : V (Proc.devRef .tc main_v55) = val_main_v55 (F := Ideal) X Y) :
    StableHlo.after (tl_83 (F := Ideal)) V (Proc.devRef .tc main_v66) = val_main_v66 (F := Ideal) X Y := by
  rw [tl_83, after_cons]
  refine stage_84 X Y _ ?_ ?_ ?_ ?_ ?_
  · rw [nullary_result_ne]
    · exact h_main_v1
    · decide
  · rw [nullary_result_ne]
    · exact h_main_v33
    · decide
  · rw [nullary_result_ne]
    · exact h_main_v54
    · decide
  · rw [nullary_result_ne]
    · exact h_main_v55
    · decide
  · rw [nullary_result]
    try rfl

theorem stage_82 (V : Valuation τ sig (Elt Ideal)) (h_main_v1 : V (Proc.devRef .tc main_v1) = val_main_v1 (F := Ideal) X) (h_main_v33 : V (Proc.devRef .tc main_v33) = val_main_v33 (F := Ideal) X Y) (h_main_v54 : V (Proc.devRef .tc main_v54) = val_main_v54 (F := Ideal) X Y) :
    StableHlo.after (tl_82 (F := Ideal)) V (Proc.devRef .tc main_v66) = val_main_v66 (F := Ideal) X Y := by
  rw [tl_82, after_cons]
  refine stage_83 X Y _ ?_ ?_ ?_ ?_
  · rw [unary_result_ne]
    · exact h_main_v1
    · decide
  · rw [unary_result_ne]
    · exact h_main_v33
    · decide
  · rw [unary_result_ne]
    · exact h_main_v54
    · decide
  · rw [unary_result, h_main_v33]
    try rfl

theorem stage_81 (V : Valuation τ sig (Elt Ideal)) (h_main_v1 : V (Proc.devRef .tc main_v1) = val_main_v1 (F := Ideal) X) (h_main_v33 : V (Proc.devRef .tc main_v33) = val_main_v33 (F := Ideal) X Y) (h_main_v50 : V (Proc.devRef .tc main_v50) = val_main_v50 (F := Ideal) X Y) (h_main_v53 : V (Proc.devRef .tc main_v53) = val_main_v53 (F := Ideal) X Y) :
    StableHlo.after (tl_81 (F := Ideal)) V (Proc.devRef .tc main_v66) = val_main_v66 (F := Ideal) X Y := by
  rw [tl_81, after_cons]
  refine stage_82 X Y _ ?_ ?_ ?_
  · rw [binary_result_ne]
    · exact h_main_v1
    · decide
  · rw [binary_result_ne]
    · exact h_main_v33
    · decide
  · rw [binary_result, h_main_v50, h_main_v53]
    try rfl

theorem stage_80 (V : Valuation τ sig (Elt Ideal)) (h_main_v1 : V (Proc.devRef .tc main_v1) = val_main_v1 (F := Ideal) X) (h_main_v33 : V (Proc.devRef .tc main_v33) = val_main_v33 (F := Ideal) X Y) (h_main_v50 : V (Proc.devRef .tc main_v50) = val_main_v50 (F := Ideal) X Y) (h_main_v51 : V (Proc.devRef .tc main_v51) = val_main_v51 (F := Ideal) X Y) (h_main_v52 : V (Proc.devRef .tc main_v52) = val_main_v52 (F := Ideal)) :
    StableHlo.after (tl_80 (F := Ideal)) V (Proc.devRef .tc main_v66) = val_main_v66 (F := Ideal) X Y := by
  rw [tl_80, after_cons]
  refine stage_81 X Y _ ?_ ?_ ?_ ?_
  · rw [binary_result_ne]
    · exact h_main_v1
    · decide
  · rw [binary_result_ne]
    · exact h_main_v33
    · decide
  · rw [binary_result_ne]
    · exact h_main_v50
    · decide
  · rw [binary_result, h_main_v52, h_main_v51]
    try rfl

theorem stage_79 (V : Valuation τ sig (Elt Ideal)) (h_main_v1 : V (Proc.devRef .tc main_v1) = val_main_v1 (F := Ideal) X) (h_main_v33 : V (Proc.devRef .tc main_v33) = val_main_v33 (F := Ideal) X Y) (h_main_v50 : V (Proc.devRef .tc main_v50) = val_main_v50 (F := Ideal) X Y) (h_main_v51 : V (Proc.devRef .tc main_v51) = val_main_v51 (F := Ideal) X Y) (h_main_cst_16 : V (Proc.devRef .tc main_cst_16) = val_main_cst_16 (F := Ideal)) :
    StableHlo.after (tl_79 (F := Ideal)) V (Proc.devRef .tc main_v66) = val_main_v66 (F := Ideal) X Y := by
  rw [tl_79, after_cons]
  refine stage_80 X Y _ ?_ ?_ ?_ ?_ ?_
  · rw [unary_result_ne]
    · exact h_main_v1
    · decide
  · rw [unary_result_ne]
    · exact h_main_v33
    · decide
  · rw [unary_result_ne]
    · exact h_main_v50
    · decide
  · rw [unary_result_ne]
    · exact h_main_v51
    · decide
  · rw [unary_result, h_main_cst_16]
    try rfl

theorem stage_78 (V : Valuation τ sig (Elt Ideal)) (h_main_v1 : V (Proc.devRef .tc main_v1) = val_main_v1 (F := Ideal) X) (h_main_v33 : V (Proc.devRef .tc main_v33) = val_main_v33 (F := Ideal) X Y) (h_main_v50 : V (Proc.devRef .tc main_v50) = val_main_v50 (F := Ideal) X Y) (h_main_v51 : V (Proc.devRef .tc main_v51) = val_main_v51 (F := Ideal) X Y) :
    StableHlo.after (tl_78 (F := Ideal)) V (Proc.devRef .tc main_v66) = val_main_v66 (F := Ideal) X Y := by
  rw [tl_78, after_cons]
  refine stage_79 X Y _ ?_ ?_ ?_ ?_ ?_
  · rw [nullary_result_ne]
    · exact h_main_v1
    · decide
  · rw [nullary_result_ne]
    · exact h_main_v33
    · decide
  · rw [nullary_result_ne]
    · exact h_main_v50
    · decide
  · rw [nullary_result_ne]
    · exact h_main_v51
    · decide
  · rw [nullary_result]
    try rfl

theorem stage_77 (V : Valuation τ sig (Elt Ideal)) (h_main_v1 : V (Proc.devRef .tc main_v1) = val_main_v1 (F := Ideal) X) (h_main_v33 : V (Proc.devRef .tc main_v33) = val_main_v33 (F := Ideal) X Y) (h_main_v47 : V (Proc.devRef .tc main_v47) = val_main_v47 (F := Ideal) X Y) (h_main_v50 : V (Proc.devRef .tc main_v50) = val_main_v50 (F := Ideal) X Y) :
    StableHlo.after (tl_77 (F := Ideal)) V (Proc.devRef .tc main_v66) = val_main_v66 (F := Ideal) X Y := by
  rw [tl_77, after_cons]
  refine stage_78 X Y _ ?_ ?_ ?_ ?_
  · rw [unary_result_ne]
    · exact h_main_v1
    · decide
  · rw [unary_result_ne]
    · exact h_main_v33
    · decide
  · rw [unary_result_ne]
    · exact h_main_v50
    · decide
  · rw [unary_result, h_main_v47]
    try rfl

theorem stage_76 (V : Valuation τ sig (Elt Ideal)) (h_main_v1 : V (Proc.devRef .tc main_v1) = val_main_v1 (F := Ideal) X) (h_main_v33 : V (Proc.devRef .tc main_v33) = val_main_v33 (F := Ideal) X Y) (h_main_v47 : V (Proc.devRef .tc main_v47) = val_main_v47 (F := Ideal) X Y) (h_main_v48 : V (Proc.devRef .tc main_v48) = val_main_v48 (F := Ideal) X Y) (h_main_v49 : V (Proc.devRef .tc main_v49) = val_main_v49 (F := Ideal)) :
    StableHlo.after (tl_76 (F := Ideal)) V (Proc.devRef .tc main_v66) = val_main_v66 (F := Ideal) X Y := by
  rw [tl_76, after_cons]
  refine stage_77 X Y _ ?_ ?_ ?_ ?_
  · rw [binary_result_ne]
    · exact h_main_v1
    · decide
  · rw [binary_result_ne]
    · exact h_main_v33
    · decide
  · rw [binary_result_ne]
    · exact h_main_v47
    · decide
  · rw [binary_result, h_main_v49, h_main_v48]
    try rfl

theorem stage_75 (V : Valuation τ sig (Elt Ideal)) (h_main_v1 : V (Proc.devRef .tc main_v1) = val_main_v1 (F := Ideal) X) (h_main_v33 : V (Proc.devRef .tc main_v33) = val_main_v33 (F := Ideal) X Y) (h_main_v47 : V (Proc.devRef .tc main_v47) = val_main_v47 (F := Ideal) X Y) (h_main_v48 : V (Proc.devRef .tc main_v48) = val_main_v48 (F := Ideal) X Y) (h_main_cst_15 : V (Proc.devRef .tc main_cst_15) = val_main_cst_15 (F := Ideal)) :
    StableHlo.after (tl_75 (F := Ideal)) V (Proc.devRef .tc main_v66) = val_main_v66 (F := Ideal) X Y := by
  rw [tl_75, after_cons]
  refine stage_76 X Y _ ?_ ?_ ?_ ?_ ?_
  · rw [unary_result_ne]
    · exact h_main_v1
    · decide
  · rw [unary_result_ne]
    · exact h_main_v33
    · decide
  · rw [unary_result_ne]
    · exact h_main_v47
    · decide
  · rw [unary_result_ne]
    · exact h_main_v48
    · decide
  · rw [unary_result, h_main_cst_15]
    try rfl

theorem stage_74 (V : Valuation τ sig (Elt Ideal)) (h_main_v1 : V (Proc.devRef .tc main_v1) = val_main_v1 (F := Ideal) X) (h_main_v33 : V (Proc.devRef .tc main_v33) = val_main_v33 (F := Ideal) X Y) (h_main_v47 : V (Proc.devRef .tc main_v47) = val_main_v47 (F := Ideal) X Y) (h_main_v48 : V (Proc.devRef .tc main_v48) = val_main_v48 (F := Ideal) X Y) :
    StableHlo.after (tl_74 (F := Ideal)) V (Proc.devRef .tc main_v66) = val_main_v66 (F := Ideal) X Y := by
  rw [tl_74, after_cons]
  refine stage_75 X Y _ ?_ ?_ ?_ ?_ ?_
  · rw [nullary_result_ne]
    · exact h_main_v1
    · decide
  · rw [nullary_result_ne]
    · exact h_main_v33
    · decide
  · rw [nullary_result_ne]
    · exact h_main_v47
    · decide
  · rw [nullary_result_ne]
    · exact h_main_v48
    · decide
  · rw [nullary_result]
    try rfl

theorem stage_73 (V : Valuation τ sig (Elt Ideal)) (h_main_v1 : V (Proc.devRef .tc main_v1) = val_main_v1 (F := Ideal) X) (h_main_v33 : V (Proc.devRef .tc main_v33) = val_main_v33 (F := Ideal) X Y) (h_main_v40 : V (Proc.devRef .tc main_v40) = val_main_v40 (F := Ideal) X Y) (h_main_v47 : V (Proc.devRef .tc main_v47) = val_main_v47 (F := Ideal) X Y) :
    StableHlo.after (tl_73 (F := Ideal)) V (Proc.devRef .tc main_v66) = val_main_v66 (F := Ideal) X Y := by
  rw [tl_73, after_cons]
  refine stage_74 X Y _ ?_ ?_ ?_ ?_
  · rw [unary_result_ne]
    · exact h_main_v1
    · decide
  · rw [unary_result_ne]
    · exact h_main_v33
    · decide
  · rw [unary_result_ne]
    · exact h_main_v47
    · decide
  · rw [unary_result, h_main_v40]
    try rfl

theorem stage_72 (V : Valuation τ sig (Elt Ideal)) (h_main_v1 : V (Proc.devRef .tc main_v1) = val_main_v1 (F := Ideal) X) (h_main_v33 : V (Proc.devRef .tc main_v33) = val_main_v33 (F := Ideal) X Y) (h_main_v40 : V (Proc.devRef .tc main_v40) = val_main_v40 (F := Ideal) X Y) (h_main_v46 : V (Proc.devRef .tc main_v46) = val_main_v46 (F := Ideal) X Y) (h_main_cst_14 : V (Proc.devRef .tc main_cst_14) = val_main_cst_14 (F := Ideal)) :
    StableHlo.after (tl_72 (F := Ideal)) V (Proc.devRef .tc main_v66) = val_main_v66 (F := Ideal) X Y := by
  rw [tl_72, after_cons]
  refine stage_73 X Y _ ?_ ?_ ?_ ?_
  · rw [binary_result_ne]
    · exact h_main_v1
    · decide
  · rw [binary_result_ne]
    · exact h_main_v33
    · decide
  · rw [binary_result_ne]
    · exact h_main_v40
    · decide
  · rw [binary_result, h_main_v46, h_main_cst_14]
    try rfl

theorem stage_71 (V : Valuation τ sig (Elt Ideal)) (h_main_v1 : V (Proc.devRef .tc main_v1) = val_main_v1 (F := Ideal) X) (h_main_v33 : V (Proc.devRef .tc main_v33) = val_main_v33 (F := Ideal) X Y) (h_main_v40 : V (Proc.devRef .tc main_v40) = val_main_v40 (F := Ideal) X Y) (h_main_v46 : V (Proc.devRef .tc main_v46) = val_main_v46 (F := Ideal) X Y) :
    StableHlo.after (tl_71 (F := Ideal)) V (Proc.devRef .tc main_v66) = val_main_v66 (F := Ideal) X Y := by
  rw [tl_71, after_cons]
  refine stage_72 X Y _ ?_ ?_ ?_ ?_ ?_
  · rw [nullary_result_ne]
    · exact h_main_v1
    · decide
  · rw [nullary_result_ne]
    · exact h_main_v33
    · decide
  · rw [nullary_result_ne]
    · exact h_main_v40
    · decide
  · rw [nullary_result_ne]
    · exact h_main_v46
    · decide
  · rw [nullary_result]
    try rfl

theorem stage_70 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v45 : V (Proc.devRef .tc main_v45) = val_main_v45 (F := Ideal) X) (h_main_call3_v1 : V (Proc.devRef .tc main_call3_v1) = val_main_call3_v1 (F := Ideal)) :
    StableHlo.after (tl_70 (F := Ideal)) V (Proc.devRef .tc main_v66) = val_main_v66 (F := Ideal) X Y := by
  rw [tl_70, after_cons]
  refine stage_71 X Y _ ?_ ?_ ?_ ?_
  · rw [ternary_result_ne]
    · exact h_main_v1
    · decide
  · rw [ternary_result_ne]
    · exact h_main_v33
    · decide
  · rw [ternary_result_ne]
    · exact h_main_v40
    · decide
  · rw [ternary_result, h_main_v24, h_main_v45, h_main_call3_v1]
    try rfl

theorem stage_69 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v45 : V (Proc.devRef .tc main_v45) = val_main_v45 (F := Ideal) X) (h_main_call3_v0 : V (Proc.devRef .tc main_call3_v0) = val_main_call3_v0 (F := Ideal)) :
    StableHlo.after (tl_69 (F := Ideal)) V (Proc.devRef .tc main_v66) = val_main_v66 (F := Ideal) X Y := by
  rw [tl_69, after_cons]
  refine stage_70 X Y _ ?_ ?_ ?_ ?_ ?_ ?_
  · rw [unary_result_ne]
    · exact h_main_v1
    · decide
  · rw [unary_result_ne]
    · exact h_main_v24
    · decide
  · rw [unary_result_ne]
    · exact h_main_v33
    · decide
  · rw [unary_result_ne]
    · exact h_main_v40
    · decide
  · rw [unary_result_ne]
    · exact h_main_v45
    · decide
  · rw [unary_result, h_main_call3_v0]
    try rfl

theorem stage_68 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v45 : V (Proc.devRef .tc main_v45) = val_main_v45 (F := Ideal) X) (h_main_cst_13 : V (Proc.devRef .tc main_cst_13) = val_main_cst_13 (F := Ideal)) :
    StableHlo.after (tl_68 (F := Ideal)) V (Proc.devRef .tc main_v66) = val_main_v66 (F := Ideal) X Y := by
  rw [tl_68, after_cons]
  refine stage_69 X Y _ ?_ ?_ ?_ ?_ ?_ ?_
  · rw [unary_result_ne]
    · exact h_main_v1
    · decide
  · rw [unary_result_ne]
    · exact h_main_v24
    · decide
  · rw [unary_result_ne]
    · exact h_main_v33
    · decide
  · rw [unary_result_ne]
    · exact h_main_v40
    · decide
  · rw [unary_result_ne]
    · exact h_main_v45
    · decide
  · rw [unary_result, h_main_cst_13]
    try rfl

theorem stage_67 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v45 : V (Proc.devRef .tc main_v45) = val_main_v45 (F := Ideal) X) :
    StableHlo.after (tl_67 (F := Ideal)) V (Proc.devRef .tc main_v66) = val_main_v66 (F := Ideal) X Y := by
  rw [tl_67, after_cons]
  refine stage_68 X Y _ ?_ ?_ ?_ ?_ ?_ ?_
  · rw [nullary_result_ne]
    · exact h_main_v1
    · decide
  · rw [nullary_result_ne]
    · exact h_main_v24
    · decide
  · rw [nullary_result_ne]
    · exact h_main_v33
    · decide
  · rw [nullary_result_ne]
    · exact h_main_v40
    · decide
  · rw [nullary_result_ne]
    · exact h_main_v45
    · decide
  · rw [nullary_result]
    try rfl

theorem stage_66 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v44 : V (Proc.devRef .tc main_v44) = val_main_v44 (F := Ideal) X) :
    StableHlo.after (tl_66 (F := Ideal)) V (Proc.devRef .tc main_v66) = val_main_v66 (F := Ideal) X Y := by
  rw [tl_66, after_cons]
  refine stage_67 X Y _ ?_ ?_ ?_ ?_ ?_
  · rw [unary_result_ne]
    · exact h_main_v1
    · decide
  · rw [unary_result_ne]
    · exact h_main_v24
    · decide
  · rw [unary_result_ne]
    · exact h_main_v33
    · decide
  · rw [unary_result_ne]
    · exact h_main_v40
    · decide
  · rw [unary_result, h_main_v44]
    try rfl

theorem stage_65 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v42 : V (Proc.devRef .tc main_v42) = val_main_v42 (F := Ideal) X) (h_main_v43 : V (Proc.devRef .tc main_v43) = val_main_v43 (F := Ideal)) :
    StableHlo.after (tl_65 (F := Ideal)) V (Proc.devRef .tc main_v66) = val_main_v66 (F := Ideal) X Y := by
  rw [tl_65, after_cons]
  refine stage_66 X Y _ ?_ ?_ ?_ ?_ ?_
  · rw [binary_result_ne]
    · exact h_main_v1
    · decide
  · rw [binary_result_ne]
    · exact h_main_v24
    · decide
  · rw [binary_result_ne]
    · exact h_main_v33
    · decide
  · rw [binary_result_ne]
    · exact h_main_v40
    · decide
  · rw [binary_result, h_main_v43, h_main_v42]
    try rfl

theorem stage_64 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v42 : V (Proc.devRef .tc main_v42) = val_main_v42 (F := Ideal) X) (h_main_cst_12 : V (Proc.devRef .tc main_cst_12) = val_main_cst_12 (F := Ideal)) :
    StableHlo.after (tl_64 (F := Ideal)) V (Proc.devRef .tc main_v66) = val_main_v66 (F := Ideal) X Y := by
  rw [tl_64, after_cons]
  refine stage_65 X Y _ ?_ ?_ ?_ ?_ ?_ ?_
  · rw [unary_result_ne]
    · exact h_main_v1
    · decide
  · rw [unary_result_ne]
    · exact h_main_v24
    · decide
  · rw [unary_result_ne]
    · exact h_main_v33
    · decide
  · rw [unary_result_ne]
    · exact h_main_v40
    · decide
  · rw [unary_result_ne]
    · exact h_main_v42
    · decide
  · rw [unary_result, h_main_cst_12]
    try rfl

theorem stage_63 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v42 : V (Proc.devRef .tc main_v42) = val_main_v42 (F := Ideal) X) :
    StableHlo.after (tl_63 (F := Ideal)) V (Proc.devRef .tc main_v66) = val_main_v66 (F := Ideal) X Y := by
  rw [tl_63, after_cons]
  refine stage_64 X Y _ ?_ ?_ ?_ ?_ ?_ ?_
  · rw [nullary_result_ne]
    · exact h_main_v1
    · decide
  · rw [nullary_result_ne]
    · exact h_main_v24
    · decide
  · rw [nullary_result_ne]
    · exact h_main_v33
    · decide
  · rw [nullary_result_ne]
    · exact h_main_v40
    · decide
  · rw [nullary_result_ne]
    · exact h_main_v42
    · decide
  · rw [nullary_result]
    try rfl

theorem stage_62 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_v41 : V (Proc.devRef .tc main_v41) = val_main_v41 (F := Ideal)) :
    StableHlo.after (tl_62 (F := Ideal)) V (Proc.devRef .tc main_v66) = val_main_v66 (F := Ideal) X Y := by
  rw [tl_62, after_cons]
  refine stage_63 X Y _ ?_ ?_ ?_ ?_ ?_
  · rw [binary_result_ne]
    · exact h_main_v1
    · decide
  · rw [binary_result_ne]
    · exact h_main_v24
    · decide
  · rw [binary_result_ne]
    · exact h_main_v33
    · decide
  · rw [binary_result_ne]
    · exact h_main_v40
    · decide
  · rw [binary_result, h_main_v1, h_main_v41]
    try rfl

theorem stage_61 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) (h_main_cst_11 : V (Proc.devRef .tc main_cst_11) = val_main_cst_11 (F := Ideal)) :
    StableHlo.after (tl_61 (F := Ideal)) V (Proc.devRef .tc main_v66) = val_main_v66 (F := Ideal) X Y := by
  rw [tl_61, after_cons]
  refine stage_62 X Y _ ?_ ?_ ?_ ?_ ?_
  · rw [unary_result_ne]
    · exact h_main_v1
    · decide
  · rw [unary_result_ne]
    · exact h_main_v24
    · decide
  · rw [unary_result_ne]
    · exact h_main_v33
    · decide
  · rw [unary_result_ne]
    · exact h_main_v40
    · decide
  · rw [unary_result, h_main_cst_11]
    try rfl

theorem stage_60 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v40 : V (Proc.devRef .tc main_v40) = val_main_v40 (F := Ideal) X Y) :
    StableHlo.after (tl_60 (F := Ideal)) V (Proc.devRef .tc main_v66) = val_main_v66 (F := Ideal) X Y := by
  rw [tl_60, after_cons]
  refine stage_61 X Y _ ?_ ?_ ?_ ?_ ?_
  · rw [nullary_result_ne]
    · exact h_main_v1
    · decide
  · rw [nullary_result_ne]
    · exact h_main_v24
    · decide
  · rw [nullary_result_ne]
    · exact h_main_v33
    · decide
  · rw [nullary_result_ne]
    · exact h_main_v40
    · decide
  · rw [nullary_result]
    try rfl

theorem stage_59 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v39 : V (Proc.devRef .tc main_v39) = val_main_v39 (F := Ideal) X Y) (h_main_cst_10 : V (Proc.devRef .tc main_cst_10) = val_main_cst_10 (F := Ideal)) :
    StableHlo.after (tl_59 (F := Ideal)) V (Proc.devRef .tc main_v66) = val_main_v66 (F := Ideal) X Y := by
  rw [tl_59, after_cons]
  refine stage_60 X Y _ ?_ ?_ ?_ ?_
  · rw [binary_result_ne]
    · exact h_main_v1
    · decide
  · rw [binary_result_ne]
    · exact h_main_v24
    · decide
  · rw [binary_result_ne]
    · exact h_main_v33
    · decide
  · rw [binary_result, h_main_v39, h_main_cst_10]
    try rfl

theorem stage_58 (V : Valuation τ sig (Elt Ideal)) (h_main_v1 : V (Proc.devRef .tc main_v1) = val_main_v1 (F := Ideal) X) (h_main_v24 : V (Proc.devRef .tc main_v24) = val_main_v24 (F := Ideal) X Y) (h_main_v33 : V (Proc.devRef .tc main_v33) = val_main_v33 (F := Ideal) X Y) (h_main_v39 : V (Proc.devRef .tc main_v39) = val_main_v39 (F := Ideal) X Y) :
    StableHlo.after (tl_58 (F := Ideal)) V (Proc.devRef .tc main_v66) = val_main_v66 (F := Ideal) X Y := by
  rw [tl_58, after_cons]
  refine stage_59 X Y _ ?_ ?_ ?_ ?_ ?_
  · rw [nullary_result_ne]
    · exact h_main_v1
    · decide
  · rw [nullary_result_ne]
    · exact h_main_v24
    · decide
  · rw [nullary_result_ne]
    · exact h_main_v33
    · decide
  · rw [nullary_result_ne]
    · exact h_main_v39
    · decide
  · rw [nullary_result]
    try rfl

theorem stage_57 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v38 : V (Proc.devRef .tc main_v38) = val_main_v38 (F := Ideal) X) (h_main_call2_v1 : V (Proc.devRef .tc main_call2_v1) = val_main_call2_v1 (F := Ideal)) :
    StableHlo.after (tl_57 (F := Ideal)) V (Proc.devRef .tc main_v66) = val_main_v66 (F := Ideal) X Y := by
  rw [tl_57, after_cons]
  refine stage_58 X Y _ ?_ ?_ ?_ ?_
  · rw [ternary_result_ne]
    · exact h_main_v1
    · decide
  · rw [ternary_result_ne]
    · exact h_main_v24
    · decide
  · rw [ternary_result_ne]
    · exact h_main_v33
    · decide
  · rw [ternary_result, h_main_v30, h_main_v38, h_main_call2_v1]
    try rfl

theorem stage_56 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v38 : V (Proc.devRef .tc main_v38) = val_main_v38 (F := Ideal) X) (h_main_call2_v0 : V (Proc.devRef .tc main_call2_v0) = val_main_call2_v0 (F := Ideal)) :
    StableHlo.after (tl_56 (F := Ideal)) V (Proc.devRef .tc main_v66) = val_main_v66 (F := Ideal) X Y := by
  rw [tl_56, after_cons]
  refine stage_57 X Y _ ?_ ?_ ?_ ?_ ?_ ?_
  · rw [unary_result_ne]
    · exact h_main_v1
    · decide
  · rw [unary_result_ne]
    · exact h_main_v24
    · decide
  · rw [unary_result_ne]
    · exact h_main_v30
    · decide
  · rw [unary_result_ne]
    · exact h_main_v33
    · decide
  · rw [unary_result_ne]
    · exact h_main_v38
    · decide
  · rw [unary_result, h_main_call2_v0]
    try rfl

theorem stage_55 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v38 : V (Proc.devRef .tc main_v38) = val_main_v38 (F := Ideal) X) (h_main_cst_9 : V (Proc.devRef .tc main_cst_9) = val_main_cst_9 (F := Ideal)) :
    StableHlo.after (tl_55 (F := Ideal)) V (Proc.devRef .tc main_v66) = val_main_v66 (F := Ideal) X Y := by
  rw [tl_55, after_cons]
  refine stage_56 X Y _ ?_ ?_ ?_ ?_ ?_ ?_
  · rw [unary_result_ne]
    · exact h_main_v1
    · decide
  · rw [unary_result_ne]
    · exact h_main_v24
    · decide
  · rw [unary_result_ne]
    · exact h_main_v30
    · decide
  · rw [unary_result_ne]
    · exact h_main_v33
    · decide
  · rw [unary_result_ne]
    · exact h_main_v38
    · decide
  · rw [unary_result, h_main_cst_9]
    try rfl

theorem stage_54 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v38 : V (Proc.devRef .tc main_v38) = val_main_v38 (F := Ideal) X) :
    StableHlo.after (tl_54 (F := Ideal)) V (Proc.devRef .tc main_v66) = val_main_v66 (F := Ideal) X Y := by
  rw [tl_54, after_cons]
  refine stage_55 X Y _ ?_ ?_ ?_ ?_ ?_ ?_
  · rw [nullary_result_ne]
    · exact h_main_v1
    · decide
  · rw [nullary_result_ne]
    · exact h_main_v24
    · decide
  · rw [nullary_result_ne]
    · exact h_main_v30
    · decide
  · rw [nullary_result_ne]
    · exact h_main_v33
    · decide
  · rw [nullary_result_ne]
    · exact h_main_v38
    · decide
  · rw [nullary_result]
    try rfl

theorem stage_53 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v37 : V (Proc.devRef .tc main_v37) = val_main_v37 (F := Ideal) X) :
    StableHlo.after (tl_53 (F := Ideal)) V (Proc.devRef .tc main_v66) = val_main_v66 (F := Ideal) X Y := by
  rw [tl_53, after_cons]
  refine stage_54 X Y _ ?_ ?_ ?_ ?_ ?_
  · rw [unary_result_ne]
    · exact h_main_v1
    · decide
  · rw [unary_result_ne]
    · exact h_main_v24
    · decide
  · rw [unary_result_ne]
    · exact h_main_v30
    · decide
  · rw [unary_result_ne]
    · exact h_main_v33
    · decide
  · rw [unary_result, h_main_v37]
    try rfl

theorem stage_52 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v35 : V (Proc.devRef .tc main_v35) = val_main_v35 (F := Ideal) X) (h_main_v36 : V (Proc.devRef .tc main_v36) = val_main_v36 (F := Ideal)) :
    StableHlo.after (tl_52 (F := Ideal)) V (Proc.devRef .tc main_v66) = val_main_v66 (F := Ideal) X Y := by
  rw [tl_52, after_cons]
  refine stage_53 X Y _ ?_ ?_ ?_ ?_ ?_
  · rw [binary_result_ne]
    · exact h_main_v1
    · decide
  · rw [binary_result_ne]
    · exact h_main_v24
    · decide
  · rw [binary_result_ne]
    · exact h_main_v30
    · decide
  · rw [binary_result_ne]
    · exact h_main_v33
    · decide
  · rw [binary_result, h_main_v36, h_main_v35]
    try rfl

theorem stage_51 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v35 : V (Proc.devRef .tc main_v35) = val_main_v35 (F := Ideal) X) (h_main_cst_8 : V (Proc.devRef .tc main_cst_8) = val_main_cst_8 (F := Ideal)) :
    StableHlo.after (tl_51 (F := Ideal)) V (Proc.devRef .tc main_v66) = val_main_v66 (F := Ideal) X Y := by
  rw [tl_51, after_cons]
  refine stage_52 X Y _ ?_ ?_ ?_ ?_ ?_ ?_
  · rw [unary_result_ne]
    · exact h_main_v1
    · decide
  · rw [unary_result_ne]
    · exact h_main_v24
    · decide
  · rw [unary_result_ne]
    · exact h_main_v30
    · decide
  · rw [unary_result_ne]
    · exact h_main_v33
    · decide
  · rw [unary_result_ne]
    · exact h_main_v35
    · decide
  · rw [unary_result, h_main_cst_8]
    try rfl

theorem stage_50 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v35 : V (Proc.devRef .tc main_v35) = val_main_v35 (F := Ideal) X) :
    StableHlo.after (tl_50 (F := Ideal)) V (Proc.devRef .tc main_v66) = val_main_v66 (F := Ideal) X Y := by
  rw [tl_50, after_cons]
  refine stage_51 X Y _ ?_ ?_ ?_ ?_ ?_ ?_
  · rw [nullary_result_ne]
    · exact h_main_v1
    · decide
  · rw [nullary_result_ne]
    · exact h_main_v24
    · decide
  · rw [nullary_result_ne]
    · exact h_main_v30
    · decide
  · rw [nullary_result_ne]
    · exact h_main_v33
    · decide
  · rw [nullary_result_ne]
    · exact h_main_v35
    · decide
  · rw [nullary_result]
    try rfl

theorem stage_49 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_v34 : V (Proc.devRef .tc main_v34) = val_main_v34 (F := Ideal)) :
    StableHlo.after (tl_49 (F := Ideal)) V (Proc.devRef .tc main_v66) = val_main_v66 (F := Ideal) X Y := by
  rw [tl_49, after_cons]
  refine stage_50 X Y _ ?_ ?_ ?_ ?_ ?_
  · rw [binary_result_ne]
    · exact h_main_v1
    · decide
  · rw [binary_result_ne]
    · exact h_main_v24
    · decide
  · rw [binary_result_ne]
    · exact h_main_v30
    · decide
  · rw [binary_result_ne]
    · exact h_main_v33
    · decide
  · rw [binary_result, h_main_v1, h_main_v34]
    try rfl

theorem stage_48 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) (h_main_cst_7 : V (Proc.devRef .tc main_cst_7) = val_main_cst_7 (F := Ideal)) :
    StableHlo.after (tl_48 (F := Ideal)) V (Proc.devRef .tc main_v66) = val_main_v66 (F := Ideal) X Y := by
  rw [tl_48, after_cons]
  refine stage_49 X Y _ ?_ ?_ ?_ ?_ ?_
  · rw [unary_result_ne]
    · exact h_main_v1
    · decide
  · rw [unary_result_ne]
    · exact h_main_v24
    · decide
  · rw [unary_result_ne]
    · exact h_main_v30
    · decide
  · rw [unary_result_ne]
    · exact h_main_v33
    · decide
  · rw [unary_result, h_main_cst_7]
    try rfl

theorem stage_47 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v33 : V (Proc.devRef .tc main_v33) = val_main_v33 (F := Ideal) X Y) :
    StableHlo.after (tl_47 (F := Ideal)) V (Proc.devRef .tc main_v66) = val_main_v66 (F := Ideal) X Y := by
  rw [tl_47, after_cons]
  refine stage_48 X Y _ ?_ ?_ ?_ ?_ ?_
  · rw [nullary_result_ne]
    · exact h_main_v1
    · decide
  · rw [nullary_result_ne]
    · exact h_main_v24
    · decide
  · rw [nullary_result_ne]
    · exact h_main_v30
    · decide
  · rw [nullary_result_ne]
    · exact h_main_v33
    · decide
  · rw [nullary_result]
    try rfl

theorem stage_46 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v31 : V (Proc.devRef .tc main_v31) = val_main_v31 (F := Ideal) X Y) (h_main_v32 : V (Proc.devRef .tc main_v32) = val_main_v32 (F := Ideal) X Y) :
    StableHlo.after (tl_46 (F := Ideal)) V (Proc.devRef .tc main_v66) = val_main_v66 (F := Ideal) X Y := by
  rw [tl_46, after_cons]
  refine stage_47 X Y _ ?_ ?_ ?_ ?_
  · rw [binary_result_ne]
    · exact h_main_v1
    · decide
  · rw [binary_result_ne]
    · exact h_main_v24
    · decide
  · rw [binary_result_ne]
    · exact h_main_v30
    · decide
  · rw [binary_result, h_main_v31, h_main_v32]
    try rfl

theorem stage_45 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v31 : V (Proc.devRef .tc main_v31) = val_main_v31 (F := Ideal) X Y) (h_main_c_6 : V (Proc.devRef .tc main_c_6) = val_main_c_6 (F := Ideal)) :
    StableHlo.after (tl_45 (F := Ideal)) V (Proc.devRef .tc main_v66) = val_main_v66 (F := Ideal) X Y := by
  rw [tl_45, after_cons]
  refine stage_46 X Y _ ?_ ?_ ?_ ?_ ?_
  · rw [binary_result_ne]
    · exact h_main_v1
    · decide
  · rw [binary_result_ne]
    · exact h_main_v24
    · decide
  · rw [binary_result_ne]
    · exact h_main_v30
    · decide
  · rw [binary_result_ne]
    · exact h_main_v31
    · decide
  · rw [binary_result, h_main_v30, h_main_c_6]
    try rfl

theorem stage_44 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_v31 : V (Proc.devRef .tc main_v31) = val_main_v31 (F := Ideal) X Y) :
    StableHlo.after (tl_44 (F := Ideal)) V (Proc.devRef .tc main_v66) = val_main_v66 (F := Ideal) X Y := by
  rw [tl_44, after_cons]
  refine stage_45 X Y _ ?_ ?_ ?_ ?_ ?_
  · rw [nullary_result_ne]
    · exact h_main_v1
    · decide
  · rw [nullary_result_ne]
    · exact h_main_v24
    · decide
  · rw [nullary_result_ne]
    · exact h_main_v30
    · decide
  · rw [nullary_result_ne]
    · exact h_main_v31
    · decide
  · rw [nullary_result]
    try rfl

theorem stage_43 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) (h_main_c_5 : V (Proc.devRef .tc main_c_5) = val_main_c_5 (F := Ideal)) :
    StableHlo.after (tl_43 (F := Ideal)) V (Proc.devRef .tc main_v66) = val_main_v66 (F := Ideal) X Y := by
  rw [tl_43, after_cons]
  refine stage_44 X Y _ ?_ ?_ ?_ ?_
  · rw [binary_result_ne]
    · exact h_main_v1
    · decide
  · rw [binary_result_ne]
    · exact h_main_v24
    · decide
  · rw [binary_result_ne]
    · exact h_main_v30
    · decide
  · rw [binary_result, h_main_v24, h_main_c_5]
    try rfl

theorem stage_42 (V : Valuation τ sig (Elt Ideal)) (h_main_v1 : V (Proc.devRef .tc main_v1) = val_main_v1 (F := Ideal) X) (h_main_v24 : V (Proc.devRef .tc main_v24) = val_main_v24 (F := Ideal) X Y) (h_main_v30 : V (Proc.devRef .tc main_v30) = val_main_v30 (F := Ideal) X Y) :
    StableHlo.after (tl_42 (F := Ideal)) V (Proc.devRef .tc main_v66) = val_main_v66 (F := Ideal) X Y := by
  rw [tl_42, after_cons]
  refine stage_43 X Y _ ?_ ?_ ?_ ?_
  · rw [nullary_result_ne]
    · exact h_main_v1
    · decide
  · rw [nullary_result_ne]
    · exact h_main_v24
    · decide
  · rw [nullary_result_ne]
    · exact h_main_v30
    · decide
  · rw [nullary_result]
    try rfl

theorem stage_41 (V : Valuation τ sig (Elt Ideal)) (h_main_v1 : V (Proc.devRef .tc main_v1) = val_main_v1 (F := Ideal) X) (h_main_v13 : V (Proc.devRef .tc main_v13) = val_main_v13 (F := Ideal) Y) (h_main_v24 : V (Proc.devRef .tc main_v24) = val_main_v24 (F := Ideal) X Y) (h_main_v29 : V (Proc.devRef .tc main_v29) = val_main_v29 (F := Ideal) X Y) :
    StableHlo.after (tl_41 (F := Ideal)) V (Proc.devRef .tc main_v66) = val_main_v66 (F := Ideal) X Y := by
  rw [tl_41, after_cons]
  refine stage_42 X Y _ ?_ ?_ ?_
  · rw [binary_result_ne]
    · exact h_main_v1
    · decide
  · rw [binary_result_ne]
    · exact h_main_v24
    · decide
  · rw [binary_result, h_main_v13, h_main_v29]
    try rfl

theorem stage_40 (V : Valuation τ sig (Elt Ideal)) (h_main_v1 : V (Proc.devRef .tc main_v1) = val_main_v1 (F := Ideal) X) (h_main_v13 : V (Proc.devRef .tc main_v13) = val_main_v13 (F := Ideal) Y) (h_main_v24 : V (Proc.devRef .tc main_v24) = val_main_v24 (F := Ideal) X Y) (h_main_v26 : V (Proc.devRef .tc main_v26) = val_main_v26 (F := Ideal) X) (h_main_v28 : V (Proc.devRef .tc main_v28) = val_main_v28 (F := Ideal) X Y) :
    StableHlo.after (tl_40 (F := Ideal)) V (Proc.devRef .tc main_v66) = val_main_v66 (F := Ideal) X Y := by
  rw [tl_40, after_cons]
  refine stage_41 X Y _ ?_ ?_ ?_ ?_
  · rw [binary_result_ne]
    · exact h_main_v1
    · decide
  · rw [binary_result_ne]
    · exact h_main_v13
    · decide
  · rw [binary_result_ne]
    · exact h_main_v24
    · decide
  · rw [binary_result, h_main_v26, h_main_v28]
    try rfl

theorem stage_39 (V : Valuation τ sig (Elt Ideal)) (h_main_v1 : V (Proc.devRef .tc main_v1) = val_main_v1 (F := Ideal) X) (h_main_v13 : V (Proc.devRef .tc main_v13) = val_main_v13 (F := Ideal) Y) (h_main_v24 : V (Proc.devRef .tc main_v24) = val_main_v24 (F := Ideal) X Y) (h_main_v26 : V (Proc.devRef .tc main_v26) = val_main_v26 (F := Ideal) X) (h_main_v27 : V (Proc.devRef .tc main_v27) = val_main_v27 (F := Ideal) X Y) :
    StableHlo.after (tl_39 (F := Ideal)) V (Proc.devRef .tc main_v66) = val_main_v66 (F := Ideal) X Y := by
  rw [tl_39, after_cons]
  refine stage_40 X Y _ ?_ ?_ ?_ ?_ ?_
  · rw [unary_result_ne]
    · exact h_main_v1
    · decide
  · rw [unary_result_ne]
    · exact h_main_v13
    · decide
  · rw [unary_result_ne]
    · exact h_main_v24
    · decide
  · rw [unary_result_ne]
    · exact h_main_v26
    · decide
  · rw [unary_result, h_main_v27]
    try rfl

theorem stage_38 (V : Valuation τ sig (Elt Ideal)) (h_main_v1 : V (Proc.devRef .tc main_v1) = val_main_v1 (F := Ideal) X) (h_main_v13 : V (Proc.devRef .tc main_v13) = val_main_v13 (F := Ideal) Y) (h_main_v18 : V (Proc.devRef .tc main_v18) = val_main_v18 (F := Ideal) X Y) (h_main_v24 : V (Proc.devRef .tc main_v24) = val_main_v24 (F := Ideal) X Y) (h_main_v26 : V (Proc.devRef .tc main_v26) = val_main_v26 (F := Ideal) X) :
    StableHlo.after (tl_38 (F := Ideal)) V (Proc.devRef .tc main_v66) = val_main_v66 (F := Ideal) X Y := by
  rw [tl_38, after_cons]
  refine stage_39 X Y _ ?_ ?_ ?_ ?_ ?_
  · rw [unary_result_ne]
    · exact h_main_v1
    · decide
  · rw [unary_result_ne]
    · exact h_main_v13
    · decide
  · rw [unary_result_ne]
    · exact h_main_v24
    · decide
  · rw [unary_result_ne]
    · exact h_main_v26
    · decide
  · rw [unary_result, h_main_v18]
    try rfl

theorem stage_37 (V : Valuation τ sig (Elt Ideal)) (h_main_v1 : V (Proc.devRef .tc main_v1) = val_main_v1 (F := Ideal) X) (h_main_v13 : V (Proc.devRef .tc main_v13) = val_main_v13 (F := Ideal) Y) (h_main_v18 : V (Proc.devRef .tc main_v18) = val_main_v18 (F := Ideal) X Y) (h_main_v24 : V (Proc.devRef .tc main_v24) = val_main_v24 (F := Ideal) X Y) (h_main_v25 : V (Proc.devRef .tc main_v25) = val_main_v25 (F := Ideal)) :
    StableHlo.after (tl_37 (F := Ideal)) V (Proc.devRef .tc main_v66) = val_main_v66 (F := Ideal) X Y := by
  rw [tl_37, after_cons]
  refine stage_38 X Y _ ?_ ?_ ?_ ?_ ?_
  · rw [binary_result_ne]
    · exact h_main_v1
    · decide
  · rw [binary_result_ne]
    · exact h_main_v13
    · decide
  · rw [binary_result_ne]
    · exact h_main_v18
    · decide
  · rw [binary_result_ne]
    · exact h_main_v24
    · decide
  · rw [binary_result, h_main_v1, h_main_v25]
    try rfl

theorem stage_36 (V : Valuation τ sig (Elt Ideal)) (h_main_v1 : V (Proc.devRef .tc main_v1) = val_main_v1 (F := Ideal) X) (h_main_v13 : V (Proc.devRef .tc main_v13) = val_main_v13 (F := Ideal) Y) (h_main_v18 : V (Proc.devRef .tc main_v18) = val_main_v18 (F := Ideal) X Y) (h_main_v24 : V (Proc.devRef .tc main_v24) = val_main_v24 (F := Ideal) X Y) (h_main_cst_4 : V (Proc.devRef .tc main_cst_4) = val_main_cst_4 (F := Ideal)) :
    StableHlo.after (tl_36 (F := Ideal)) V (Proc.devRef .tc main_v66) = val_main_v66 (F := Ideal) X Y := by
  rw [tl_36, after_cons]
  refine stage_37 X Y _ ?_ ?_ ?_ ?_ ?_
  · rw [unary_result_ne]
    · exact h_main_v1
    · decide
  · rw [unary_result_ne]
    · exact h_main_v13
    · decide
  · rw [unary_result_ne]
    · exact h_main_v18
    · decide
  · rw [unary_result_ne]
    · exact h_main_v24
    · decide
  · rw [unary_result, h_main_cst_4]
    try rfl

theorem stage_35 (V : Valuation τ sig (Elt Ideal)) (h_main_v1 : V (Proc.devRef .tc main_v1) = val_main_v1 (F := Ideal) X) (h_main_v13 : V (Proc.devRef .tc main_v13) = val_main_v13 (F := Ideal) Y) (h_main_v18 : V (Proc.devRef .tc main_v18) = val_main_v18 (F := Ideal) X Y) (h_main_v24 : V (Proc.devRef .tc main_v24) = val_main_v24 (F := Ideal) X Y) :
    StableHlo.after (tl_35 (F := Ideal)) V (Proc.devRef .tc main_v66) = val_main_v66 (F := Ideal) X Y := by
  rw [tl_35, after_cons]
  refine stage_36 X Y _ ?_ ?_ ?_ ?_ ?_
  · rw [nullary_result_ne]
    · exact h_main_v1
    · decide
  · rw [nullary_result_ne]
    · exact h_main_v13
    · decide
  · rw [nullary_result_ne]
    · exact h_main_v18
    · decide
  · rw [nullary_result_ne]
    · exact h_main_v24
    · decide
  · rw [nullary_result]
    try rfl

theorem stage_34 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v18 : V (Proc.devRef .tc main_v18) = val_main_v18 (F := Ideal) X Y) (h_main_v23 : V (Proc.devRef .tc main_v23) = val_main_v23 (F := Ideal) X Y) :
    StableHlo.after (tl_34 (F := Ideal)) V (Proc.devRef .tc main_v66) = val_main_v66 (F := Ideal) X Y := by
  rw [tl_34, after_cons]
  refine stage_35 X Y _ ?_ ?_ ?_ ?_
  · rw [binary_result_ne]
    · exact h_main_v1
    · decide
  · rw [binary_result_ne]
    · exact h_main_v13
    · decide
  · rw [binary_result_ne]
    · exact h_main_v18
    · decide
  · rw [binary_result, h_main_v14, h_main_v23]
    try rfl

theorem stage_33 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v18 : V (Proc.devRef .tc main_v18) = val_main_v18 (F := Ideal) X Y) (h_main_v20 : V (Proc.devRef .tc main_v20) = val_main_v20 (F := Ideal) X) (h_main_v22 : V (Proc.devRef .tc main_v22) = val_main_v22 (F := Ideal) X Y) :
    StableHlo.after (tl_33 (F := Ideal)) V (Proc.devRef .tc main_v66) = val_main_v66 (F := Ideal) X Y := by
  rw [tl_33, after_cons]
  refine stage_34 X Y _ ?_ ?_ ?_ ?_ ?_
  · rw [binary_result_ne]
    · exact h_main_v1
    · decide
  · rw [binary_result_ne]
    · exact h_main_v13
    · decide
  · rw [binary_result_ne]
    · exact h_main_v14
    · decide
  · rw [binary_result_ne]
    · exact h_main_v18
    · decide
  · rw [binary_result, h_main_v20, h_main_v22]
    try rfl

theorem stage_32 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v18 : V (Proc.devRef .tc main_v18) = val_main_v18 (F := Ideal) X Y) (h_main_v20 : V (Proc.devRef .tc main_v20) = val_main_v20 (F := Ideal) X) (h_main_v21 : V (Proc.devRef .tc main_v21) = val_main_v21 (F := Ideal) X Y) :
    StableHlo.after (tl_32 (F := Ideal)) V (Proc.devRef .tc main_v66) = val_main_v66 (F := Ideal) X Y := by
  rw [tl_32, after_cons]
  refine stage_33 X Y _ ?_ ?_ ?_ ?_ ?_ ?_
  · rw [unary_result_ne]
    · exact h_main_v1
    · decide
  · rw [unary_result_ne]
    · exact h_main_v13
    · decide
  · rw [unary_result_ne]
    · exact h_main_v14
    · decide
  · rw [unary_result_ne]
    · exact h_main_v18
    · decide
  · rw [unary_result_ne]
    · exact h_main_v20
    · decide
  · rw [unary_result, h_main_v21]
    try rfl

theorem stage_31 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_v18 : V (Proc.devRef .tc main_v18) = val_main_v18 (F := Ideal) X Y) (h_main_v20 : V (Proc.devRef .tc main_v20) = val_main_v20 (F := Ideal) X) :
    StableHlo.after (tl_31 (F := Ideal)) V (Proc.devRef .tc main_v66) = val_main_v66 (F := Ideal) X Y := by
  rw [tl_31, after_cons]
  refine stage_32 X Y _ ?_ ?_ ?_ ?_ ?_ ?_
  · rw [unary_result_ne]
    · exact h_main_v1
    · decide
  · rw [unary_result_ne]
    · exact h_main_v13
    · decide
  · rw [unary_result_ne]
    · exact h_main_v14
    · decide
  · rw [unary_result_ne]
    · exact h_main_v18
    · decide
  · rw [unary_result_ne]
    · exact h_main_v20
    · decide
  · rw [unary_result, h_main_v16]
    try rfl

theorem stage_30 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_v18 : V (Proc.devRef .tc main_v18) = val_main_v18 (F := Ideal) X Y) (h_main_v19 : V (Proc.devRef .tc main_v19) = val_main_v19 (F := Ideal)) :
    StableHlo.after (tl_30 (F := Ideal)) V (Proc.devRef .tc main_v66) = val_main_v66 (F := Ideal) X Y := by
  rw [tl_30, after_cons]
  refine stage_31 X Y _ ?_ ?_ ?_ ?_ ?_ ?_
  · rw [binary_result_ne]
    · exact h_main_v1
    · decide
  · rw [binary_result_ne]
    · exact h_main_v13
    · decide
  · rw [binary_result_ne]
    · exact h_main_v14
    · decide
  · rw [binary_result_ne]
    · exact h_main_v16
    · decide
  · rw [binary_result_ne]
    · exact h_main_v18
    · decide
  · rw [binary_result, h_main_v1, h_main_v19]
    try rfl

theorem stage_29 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_v18 : V (Proc.devRef .tc main_v18) = val_main_v18 (F := Ideal) X Y) (h_main_cst_3 : V (Proc.devRef .tc main_cst_3) = val_main_cst_3 (F := Ideal)) :
    StableHlo.after (tl_29 (F := Ideal)) V (Proc.devRef .tc main_v66) = val_main_v66 (F := Ideal) X Y := by
  rw [tl_29, after_cons]
  refine stage_30 X Y _ ?_ ?_ ?_ ?_ ?_ ?_
  · rw [unary_result_ne]
    · exact h_main_v1
    · decide
  · rw [unary_result_ne]
    · exact h_main_v13
    · decide
  · rw [unary_result_ne]
    · exact h_main_v14
    · decide
  · rw [unary_result_ne]
    · exact h_main_v16
    · decide
  · rw [unary_result_ne]
    · exact h_main_v18
    · decide
  · rw [unary_result, h_main_cst_3]
    try rfl

theorem stage_28 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_v18 : V (Proc.devRef .tc main_v18) = val_main_v18 (F := Ideal) X Y) :
    StableHlo.after (tl_28 (F := Ideal)) V (Proc.devRef .tc main_v66) = val_main_v66 (F := Ideal) X Y := by
  rw [tl_28, after_cons]
  refine stage_29 X Y _ ?_ ?_ ?_ ?_ ?_ ?_
  · rw [nullary_result_ne]
    · exact h_main_v1
    · decide
  · rw [nullary_result_ne]
    · exact h_main_v13
    · decide
  · rw [nullary_result_ne]
    · exact h_main_v14
    · decide
  · rw [nullary_result_ne]
    · exact h_main_v16
    · decide
  · rw [nullary_result_ne]
    · exact h_main_v18
    · decide
  · rw [nullary_result]
    try rfl

theorem stage_27 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_v17 : V (Proc.devRef .tc main_v17) = val_main_v17 (F := Ideal) X Y) (h_main_cst_2 : V (Proc.devRef .tc main_cst_2) = val_main_cst_2 (F := Ideal)) :
    StableHlo.after (tl_27 (F := Ideal)) V (Proc.devRef .tc main_v66) = val_main_v66 (F := Ideal) X Y := by
  rw [tl_27, after_cons]
  refine stage_28 X Y _ ?_ ?_ ?_ ?_ ?_
  · rw [binary_result_ne]
    · exact h_main_v1
    · decide
  · rw [binary_result_ne]
    · exact h_main_v13
    · decide
  · rw [binary_result_ne]
    · exact h_main_v14
    · decide
  · rw [binary_result_ne]
    · exact h_main_v16
    · decide
  · rw [binary_result, h_main_v17, h_main_cst_2]
    try rfl

theorem stage_26 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_v17 : V (Proc.devRef .tc main_v17) = val_main_v17 (F := Ideal) X Y) :
    StableHlo.after (tl_26 (F := Ideal)) V (Proc.devRef .tc main_v66) = val_main_v66 (F := Ideal) X Y := by
  rw [tl_26, after_cons]
  refine stage_27 X Y _ ?_ ?_ ?_ ?_ ?_ ?_
  · rw [nullary_result_ne]
    · exact h_main_v1
    · decide
  · rw [nullary_result_ne]
    · exact h_main_v13
    · decide
  · rw [nullary_result_ne]
    · exact h_main_v14
    · decide
  · rw [nullary_result_ne]
    · exact h_main_v16
    · decide
  · rw [nullary_result_ne]
    · exact h_main_v17
    · decide
  · rw [nullary_result]
    try rfl

theorem stage_25 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_call1_v1 : V (Proc.devRef .tc main_call1_v1) = val_main_call1_v1 (F := Ideal)) :
    StableHlo.after (tl_25 (F := Ideal)) V (Proc.devRef .tc main_v66) = val_main_v66 (F := Ideal) X Y := by
  rw [tl_25, after_cons]
  refine stage_26 X Y _ ?_ ?_ ?_ ?_ ?_
  · rw [ternary_result_ne]
    · exact h_main_v1
    · decide
  · rw [ternary_result_ne]
    · exact h_main_v13
    · decide
  · rw [ternary_result_ne]
    · exact h_main_v14
    · decide
  · rw [ternary_result_ne]
    · exact h_main_v16
    · decide
  · rw [ternary_result, h_main_v14, h_main_v1, h_main_call1_v1]
    try rfl

theorem stage_24 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_call1_v0 : V (Proc.devRef .tc main_call1_v0) = val_main_call1_v0 (F := Ideal)) :
    StableHlo.after (tl_24 (F := Ideal)) V (Proc.devRef .tc main_v66) = val_main_v66 (F := Ideal) X Y := by
  rw [tl_24, after_cons]
  refine stage_25 X Y _ ?_ ?_ ?_ ?_ ?_
  · rw [unary_result_ne]
    · exact h_main_v1
    · decide
  · rw [unary_result_ne]
    · exact h_main_v13
    · decide
  · rw [unary_result_ne]
    · exact h_main_v14
    · decide
  · rw [unary_result_ne]
    · exact h_main_v16
    · decide
  · rw [unary_result, h_main_call1_v0]
    try rfl

theorem stage_23 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) (h_main_cst_1 : V (Proc.devRef .tc main_cst_1) = val_main_cst_1 (F := Ideal)) :
    StableHlo.after (tl_23 (F := Ideal)) V (Proc.devRef .tc main_v66) = val_main_v66 (F := Ideal) X Y := by
  rw [tl_23, after_cons]
  refine stage_24 X Y _ ?_ ?_ ?_ ?_ ?_
  · rw [unary_result_ne]
    · exact h_main_v1
    · decide
  · rw [unary_result_ne]
    · exact h_main_v13
    · decide
  · rw [unary_result_ne]
    · exact h_main_v14
    · decide
  · rw [unary_result_ne]
    · exact h_main_v16
    · decide
  · rw [unary_result, h_main_cst_1]
    try rfl

theorem stage_22 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v16 : V (Proc.devRef .tc main_v16) = val_main_v16 (F := Ideal) X Y) :
    StableHlo.after (tl_22 (F := Ideal)) V (Proc.devRef .tc main_v66) = val_main_v66 (F := Ideal) X Y := by
  rw [tl_22, after_cons]
  refine stage_23 X Y _ ?_ ?_ ?_ ?_ ?_
  · rw [nullary_result_ne]
    · exact h_main_v1
    · decide
  · rw [nullary_result_ne]
    · exact h_main_v13
    · decide
  · rw [nullary_result_ne]
    · exact h_main_v14
    · decide
  · rw [nullary_result_ne]
    · exact h_main_v16
    · decide
  · rw [nullary_result]
    try rfl

theorem stage_21 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v15 : V (Proc.devRef .tc main_v15) = val_main_v15 (F := Ideal) X Y) (h_main_cst_0 : V (Proc.devRef .tc main_cst_0) = val_main_cst_0 (F := Ideal)) :
    StableHlo.after (tl_21 (F := Ideal)) V (Proc.devRef .tc main_v66) = val_main_v66 (F := Ideal) X Y := by
  rw [tl_21, after_cons]
  refine stage_22 X Y _ ?_ ?_ ?_ ?_
  · rw [binary_result_ne]
    · exact h_main_v1
    · decide
  · rw [binary_result_ne]
    · exact h_main_v13
    · decide
  · rw [binary_result_ne]
    · exact h_main_v14
    · decide
  · rw [binary_result, h_main_v15, h_main_cst_0]
    try rfl

theorem stage_20 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_v15 : V (Proc.devRef .tc main_v15) = val_main_v15 (F := Ideal) X Y) :
    StableHlo.after (tl_20 (F := Ideal)) V (Proc.devRef .tc main_v66) = val_main_v66 (F := Ideal) X Y := by
  rw [tl_20, after_cons]
  refine stage_21 X Y _ ?_ ?_ ?_ ?_ ?_
  · rw [nullary_result_ne]
    · exact h_main_v1
    · decide
  · rw [nullary_result_ne]
    · exact h_main_v13
    · decide
  · rw [nullary_result_ne]
    · exact h_main_v14
    · decide
  · rw [nullary_result_ne]
    · exact h_main_v15
    · decide
  · rw [nullary_result]
    try rfl

theorem stage_19 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_call0_v1 : V (Proc.devRef .tc main_call0_v1) = val_main_call0_v1 (F := Ideal)) :
    StableHlo.after (tl_19 (F := Ideal)) V (Proc.devRef .tc main_v66) = val_main_v66 (F := Ideal) X Y := by
  rw [tl_19, after_cons]
  refine stage_20 X Y _ ?_ ?_ ?_ ?_
  · rw [ternary_result_ne]
    · exact h_main_v1
    · decide
  · rw [ternary_result_ne]
    · exact h_main_v13
    · decide
  · rw [ternary_result_ne]
    · exact h_main_v14
    · decide
  · rw [ternary_result, h_main_v13, h_main_v1, h_main_call0_v1]
    try rfl

theorem stage_18 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_call0_v0 : V (Proc.devRef .tc main_call0_v0) = val_main_call0_v0 (F := Ideal)) :
    StableHlo.after (tl_18 (F := Ideal)) V (Proc.devRef .tc main_v66) = val_main_v66 (F := Ideal) X Y := by
  rw [tl_18, after_cons]
  refine stage_19 X Y _ ?_ ?_ ?_ ?_
  · rw [unary_result_ne]
    · exact h_main_v1
    · decide
  · rw [unary_result_ne]
    · exact h_main_v13
    · decide
  · rw [unary_result_ne]
    · exact h_main_v14
    · decide
  · rw [unary_result, h_main_call0_v0]
    try rfl

theorem stage_17 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) (h_main_cst : V (Proc.devRef .tc main_cst) = val_main_cst (F := Ideal)) :
    StableHlo.after (tl_17 (F := Ideal)) V (Proc.devRef .tc main_v66) = val_main_v66 (F := Ideal) X Y := by
  rw [tl_17, after_cons]
  refine stage_18 X Y _ ?_ ?_ ?_ ?_
  · rw [unary_result_ne]
    · exact h_main_v1
    · decide
  · rw [unary_result_ne]
    · exact h_main_v13
    · decide
  · rw [unary_result_ne]
    · exact h_main_v14
    · decide
  · rw [unary_result, h_main_cst]
    try rfl

theorem stage_16 (V : Valuation τ sig (Elt Ideal)) (h_main_v1 : V (Proc.devRef .tc main_v1) = val_main_v1 (F := Ideal) X) (h_main_v13 : V (Proc.devRef .tc main_v13) = val_main_v13 (F := Ideal) Y) (h_main_v14 : V (Proc.devRef .tc main_v14) = val_main_v14 (F := Ideal) Y) :
    StableHlo.after (tl_16 (F := Ideal)) V (Proc.devRef .tc main_v66) = val_main_v66 (F := Ideal) X Y := by
  rw [tl_16, after_cons]
  refine stage_17 X Y _ ?_ ?_ ?_ ?_
  · rw [nullary_result_ne]
    · exact h_main_v1
    · decide
  · rw [nullary_result_ne]
    · exact h_main_v13
    · decide
  · rw [nullary_result_ne]
    · exact h_main_v14
    · decide
  · rw [nullary_result]
    try rfl

theorem stage_15 (V : Valuation τ sig (Elt Ideal)) (h_main_v1 : V (Proc.devRef .tc main_v1) = val_main_v1 (F := Ideal) X) (h_main_v6 : V (Proc.devRef .tc main_v6) = val_main_v6 (F := Ideal) Y) (h_main_v13 : V (Proc.devRef .tc main_v13) = val_main_v13 (F := Ideal) Y) :
    StableHlo.after (tl_15 (F := Ideal)) V (Proc.devRef .tc main_v66) = val_main_v66 (F := Ideal) X Y := by
  rw [tl_15, after_cons]
  refine stage_16 X Y _ ?_ ?_ ?_
  · rw [unary_result_ne]
    · exact h_main_v1
    · decide
  · rw [unary_result_ne]
    · exact h_main_v13
    · decide
  · rw [unary_result, h_main_v6]
    try rfl

theorem stage_14 (V : Valuation τ sig (Elt Ideal)) (h_main_v1 : V (Proc.devRef .tc main_v1) = val_main_v1 (F := Ideal) X) (h_main_v6 : V (Proc.devRef .tc main_v6) = val_main_v6 (F := Ideal) Y) (h_main_v12 : V (Proc.devRef .tc main_v12) = val_main_v12 (F := Ideal)) :
    StableHlo.after (tl_14 (F := Ideal)) V (Proc.devRef .tc main_v66) = val_main_v66 (F := Ideal) X Y := by
  rw [tl_14, after_cons]
  refine stage_15 X Y _ ?_ ?_ ?_
  · rw [binary_result_ne]
    · exact h_main_v1
    · decide
  · rw [binary_result_ne]
    · exact h_main_v6
    · decide
  · rw [binary_result, h_main_v6, h_main_v12]
    try rfl

theorem stage_13 (V : Valuation τ sig (Elt Ideal)) (h_main_v1 : V (Proc.devRef .tc main_v1) = val_main_v1 (F := Ideal) X) (h_main_v6 : V (Proc.devRef .tc main_v6) = val_main_v6 (F := Ideal) Y) (h_main_v11 : V (Proc.devRef .tc main_v11) = val_main_v11 (F := Ideal)) :
    StableHlo.after (tl_13 (F := Ideal)) V (Proc.devRef .tc main_v66) = val_main_v66 (F := Ideal) X Y := by
  rw [tl_13, after_cons]
  refine stage_14 X Y _ ?_ ?_ ?_
  · rw [unary_result_ne]
    · exact h_main_v1
    · decide
  · rw [unary_result_ne]
    · exact h_main_v6
    · decide
  · rw [unary_result, h_main_v11]
    try rfl

theorem stage_12 (V : Valuation τ sig (Elt Ideal)) (h_main_v1 : V (Proc.devRef .tc main_v1) = val_main_v1 (F := Ideal) X) (h_main_v6 : V (Proc.devRef .tc main_v6) = val_main_v6 (F := Ideal) Y) (h_main_v8 : V (Proc.devRef .tc main_v8) = val_main_v8 (F := Ideal)) (h_main_v10 : V (Proc.devRef .tc main_v10) = val_main_v10 (F := Ideal)) :
    StableHlo.after (tl_12 (F := Ideal)) V (Proc.devRef .tc main_v66) = val_main_v66 (F := Ideal) X Y := by
  rw [tl_12, after_cons]
  refine stage_13 X Y _ ?_ ?_ ?_
  · rw [binary_result_ne]
    · exact h_main_v1
    · decide
  · rw [binary_result_ne]
    · exact h_main_v6
    · decide
  · rw [binary_result, h_main_v10, h_main_v8]
    try rfl

theorem stage_11 (V : Valuation τ sig (Elt Ideal)) (h_main_v1 : V (Proc.devRef .tc main_v1) = val_main_v1 (F := Ideal) X) (h_main_v6 : V (Proc.devRef .tc main_v6) = val_main_v6 (F := Ideal) Y) (h_main_v7 : V (Proc.devRef .tc main_v7) = val_main_v7 (F := Ideal)) (h_main_v8 : V (Proc.devRef .tc main_v8) = val_main_v8 (F := Ideal)) (h_main_v9 : V (Proc.devRef .tc main_v9) = val_main_v9 (F := Ideal)) :
    StableHlo.after (tl_11 (F := Ideal)) V (Proc.devRef .tc main_v66) = val_main_v66 (F := Ideal) X Y := by
  rw [tl_11, after_cons]
  refine stage_12 X Y _ ?_ ?_ ?_ ?_
  · rw [binary_result_ne]
    · exact h_main_v1
    · decide
  · rw [binary_result_ne]
    · exact h_main_v6
    · decide
  · rw [binary_result_ne]
    · exact h_main_v8
    · decide
  · rw [binary_result, h_main_v7, h_main_v9]
    try rfl

theorem stage_10 (V : Valuation τ sig (Elt Ideal)) (h_main_v1 : V (Proc.devRef .tc main_v1) = val_main_v1 (F := Ideal) X) (h_main_v6 : V (Proc.devRef .tc main_v6) = val_main_v6 (F := Ideal) Y) (h_main_v7 : V (Proc.devRef .tc main_v7) = val_main_v7 (F := Ideal)) (h_main_v8 : V (Proc.devRef .tc main_v8) = val_main_v8 (F := Ideal)) (h_main_c : V (Proc.devRef .tc main_c) = val_main_c (F := Ideal)) :
    StableHlo.after (tl_10 (F := Ideal)) V (Proc.devRef .tc main_v66) = val_main_v66 (F := Ideal) X Y := by
  rw [tl_10, after_cons]
  refine stage_11 X Y _ ?_ ?_ ?_ ?_ ?_
  · rw [unary_result_ne]
    · exact h_main_v1
    · decide
  · rw [unary_result_ne]
    · exact h_main_v6
    · decide
  · rw [unary_result_ne]
    · exact h_main_v7
    · decide
  · rw [unary_result_ne]
    · exact h_main_v8
    · decide
  · rw [unary_result, h_main_c]
    try rfl

theorem stage_9 (V : Valuation τ sig (Elt Ideal)) (h_main_v1 : V (Proc.devRef .tc main_v1) = val_main_v1 (F := Ideal) X) (h_main_v6 : V (Proc.devRef .tc main_v6) = val_main_v6 (F := Ideal) Y) (h_main_v7 : V (Proc.devRef .tc main_v7) = val_main_v7 (F := Ideal)) (h_main_v8 : V (Proc.devRef .tc main_v8) = val_main_v8 (F := Ideal)) :
    StableHlo.after (tl_9 (F := Ideal)) V (Proc.devRef .tc main_v66) = val_main_v66 (F := Ideal) X Y := by
  rw [tl_9, after_cons]
  refine stage_10 X Y _ ?_ ?_ ?_ ?_ ?_
  · rw [nullary_result_ne]
    · exact h_main_v1
    · decide
  · rw [nullary_result_ne]
    · exact h_main_v6
    · decide
  · rw [nullary_result_ne]
    · exact h_main_v7
    · decide
  · rw [nullary_result_ne]
    · exact h_main_v8
    · decide
  · rw [nullary_result]
    try rfl

theorem stage_8 (V : Valuation τ sig (Elt Ideal)) (h_main_v1 : V (Proc.devRef .tc main_v1) = val_main_v1 (F := Ideal) X) (h_main_v6 : V (Proc.devRef .tc main_v6) = val_main_v6 (F := Ideal) Y) (h_main_v7 : V (Proc.devRef .tc main_v7) = val_main_v7 (F := Ideal)) :
    StableHlo.after (tl_8 (F := Ideal)) V (Proc.devRef .tc main_v66) = val_main_v66 (F := Ideal) X Y := by
  rw [tl_8, after_cons]
  refine stage_9 X Y _ ?_ ?_ ?_ ?_
  · rw [nullary_result_ne]
    · exact h_main_v1
    · decide
  · rw [nullary_result_ne]
    · exact h_main_v6
    · decide
  · rw [nullary_result_ne]
    · exact h_main_v7
    · decide
  · rw [nullary_result]
    try rfl

theorem stage_7 (V : Valuation τ sig (Elt Ideal)) (h_main_v1 : V (Proc.devRef .tc main_v1) = val_main_v1 (F := Ideal) X) (h_main_v6 : V (Proc.devRef .tc main_v6) = val_main_v6 (F := Ideal) Y) :
    StableHlo.after (tl_7 (F := Ideal)) V (Proc.devRef .tc main_v66) = val_main_v66 (F := Ideal) X Y := by
  rw [tl_7, after_cons]
  refine stage_8 X Y _ ?_ ?_ ?_
  · rw [nullary_result_ne]
    · exact h_main_v1
    · decide
  · rw [nullary_result_ne]
    · exact h_main_v6
    · decide
  · rw [nullary_result]
    try rfl

theorem stage_6 (V : Valuation τ sig (Elt Ideal)) (h_main_v1 : V (Proc.devRef .tc main_v1) = val_main_v1 (F := Ideal) X) (h_main_v4 : V (Proc.devRef .tc main_v4) = val_main_v4 (F := Ideal) Y) (h_main_v5 : V (Proc.devRef .tc main_v5) = val_main_v5 (F := Ideal) Y) :
    StableHlo.after (tl_6 (F := Ideal)) V (Proc.devRef .tc main_v66) = val_main_v66 (F := Ideal) X Y := by
  rw [tl_6, after_cons]
  refine stage_7 X Y _ ?_ ?_
  · rw [binary_result_ne]
    · exact h_main_v1
    · decide
  · rw [binary_result, h_main_v4, h_main_v5]
    try rfl

theorem stage_5 (V : Valuation τ sig (Elt Ideal)) (h_main_v1 : V (Proc.devRef .tc main_v1) = val_main_v1 (F := Ideal) X) (h_main_v3 : V (Proc.devRef .tc main_v3) = val_main_v3 (F := Ideal) Y) (h_main_v4 : V (Proc.devRef .tc main_v4) = val_main_v4 (F := Ideal) Y) :
    StableHlo.after (tl_5 (F := Ideal)) V (Proc.devRef .tc main_v66) = val_main_v66 (F := Ideal) X Y := by
  rw [tl_5, after_cons]
  refine stage_6 X Y _ ?_ ?_ ?_
  · rw [unary_result_ne]
    · exact h_main_v1
    · decide
  · rw [unary_result_ne]
    · exact h_main_v4
    · decide
  · rw [unary_result, h_main_v3]
    try rfl

theorem stage_4 (V : Valuation τ sig (Elt Ideal)) (h_main_v1 : V (Proc.devRef .tc main_v1) = val_main_v1 (F := Ideal) X) (h_main_v2 : V (Proc.devRef .tc main_v2) = val_main_v2 (F := Ideal) Y) (h_main_v3 : V (Proc.devRef .tc main_v3) = val_main_v3 (F := Ideal) Y) :
    StableHlo.after (tl_4 (F := Ideal)) V (Proc.devRef .tc main_v66) = val_main_v66 (F := Ideal) X Y := by
  rw [tl_4, after_cons]
  refine stage_5 X Y _ ?_ ?_ ?_
  · rw [unary_result_ne]
    · exact h_main_v1
    · decide
  · rw [unary_result_ne]
    · exact h_main_v3
    · decide
  · rw [unary_result, h_main_v2]
    try rfl

theorem stage_3 (V : Valuation τ sig (Elt Ideal)) (h_main_arg1 : V (Proc.devRef .tc main_arg1) = Y) (h_main_v1 : V (Proc.devRef .tc main_v1) = val_main_v1 (F := Ideal) X) (h_main_v2 : V (Proc.devRef .tc main_v2) = val_main_v2 (F := Ideal) Y) :
    StableHlo.after (tl_3 (F := Ideal)) V (Proc.devRef .tc main_v66) = val_main_v66 (F := Ideal) X Y := by
  rw [tl_3, after_cons]
  refine stage_4 X Y _ ?_ ?_ ?_
  · rw [unary_result_ne]
    · exact h_main_v1
    · decide
  · rw [unary_result_ne]
    · exact h_main_v2
    · decide
  · rw [unary_result, h_main_arg1]
    try rfl

theorem stage_2 (V : Valuation τ sig (Elt Ideal)) (h_main_arg1 : V (Proc.devRef .tc main_arg1) = Y) (h_main_v1 : V (Proc.devRef .tc main_v1) = val_main_v1 (F := Ideal) X) :
    StableHlo.after (tl_2 (F := Ideal)) V (Proc.devRef .tc main_v66) = val_main_v66 (F := Ideal) X Y := by
  rw [tl_2, after_cons]
  refine stage_3 X Y _ ?_ ?_ ?_
  · rw [unary_result_ne]
    · exact h_main_arg1
    · decide
  · rw [unary_result_ne]
    · exact h_main_v1
    · decide
  · rw [unary_result, h_main_arg1]
    try rfl

theorem stage_1 (V : Valuation τ sig (Elt Ideal)) (h_main_arg0 : V (Proc.devRef .tc main_arg0) = X) (h_main_arg1 : V (Proc.devRef .tc main_arg1) = Y) (h_main_v0 : V (Proc.devRef .tc main_v0) = val_main_v0 (F := Ideal) X) :
    StableHlo.after (tl_1 (F := Ideal)) V (Proc.devRef .tc main_v66) = val_main_v66 (F := Ideal) X Y := by
  rw [tl_1, after_cons]
  refine stage_2 X Y _ ?_ ?_
  · rw [binary_result_ne]
    · exact h_main_arg1
    · decide
  · rw [binary_result, h_main_arg0, h_main_v0]
    try rfl

theorem stage_0 (V : Valuation τ sig (Elt Ideal)) (h_main_arg0 : V (Proc.devRef .tc main_arg0) = X) (h_main_arg1 : V (Proc.devRef .tc main_arg1) = Y) :
    StableHlo.after (tl_0 (F := Ideal)) V (Proc.devRef .tc main_v66) = val_main_v66 (F := Ideal) X Y := by
  rw [tl_0, after_cons]
  refine stage_1 X Y _ ?_ ?_ ?_
  · rw [unary_result_ne]
    · exact h_main_arg0
    · decide
  · rw [unary_result_ne]
    · exact h_main_arg1
    · decide
  · rw [unary_result, h_main_arg0]
    try rfl

/-- The reference's result buffer after its 104 operations is the last stage of the embedding matrix and the labels. -/
theorem after_result (m : (ℓ : Loc nD τ sig) → Buf (Elt Ideal) ℓ) (c : Dev nD) :
    StableHlo.after (ops (F := Ideal)) (fun b => m (c, b)) (Proc.devRef .tc main_v66)
      = val_main_v66 (F := Ideal) (m ((c.tc : Thread nD τ).loc main_arg0)) (m ((c.tc : Thread nD τ).loc main_arg1)) := by
  rw [ops_eq]
  exact stage_0 _ _ (fun b => m (c, b)) rfl rfl

/-- No operation writes an argument. -/
theorem after_arg0 (m : (ℓ : Loc nD τ sig) → Buf (Elt Ideal) ℓ) (c : Dev nD) :
    StableHlo.after (ops (F := Ideal)) (fun b => m (c, b)) (Proc.devRef .tc main_arg0) = m ((c.tc : Thread nD τ).loc main_arg0) := by
  after_results_simp <;> rfl
theorem after_arg1 (m : (ℓ : Loc nD τ sig) → Buf (Elt Ideal) ℓ) (c : Dev nD) :
    StableHlo.after (ops (F := Ideal)) (fun b => m (c, b)) (Proc.devRef .tc main_arg1) = m ((c.tc : Thread nD τ).loc main_arg1) := by
  after_results_simp <;> rfl

end Cert.RefLink

end
-- ==== Proof.lean ====
/-
  The multi-similarity loss kernel against its jnp reference.

  Both programs compute, from an embedding matrix X (8192 rows of 128 features) and labels Y, the mean over the valid
  rows of the per-row multi-similarity loss, and 0 when no row is valid (Proof/Spec.lean states it). The kernel walks the
  rows in 64 blocks of 128 with the whole matrix resident as the key set, writes each row's loss and validity flag, and
  the host sums them; the reference forms the whole 8192 × 8192 similarity matrix on the host.

  At the ideal instance the two agree index by index: the similarities are the same inner products; the masks are the
  same comparisons of labels and of row numbers; the mining thresholds are the same folds of min and max; a row keeps
  some negative exactly when the maximum over the row of the 0/1 indicator exceeds 0, which is how the kernel spells
  the reference's "any"; the exponential sums, the two logarithms and the weights are the same words; the number of
  valid rows, counted by the reference in 32-bit integers (at most 8192, so nothing wraps) and by the kernel as a sum
  of the flags 1.0 and 0.0, is one number; and the reference's fallback 0 · mean(S) is 0. No input needs to be finite
  for any of this: the precondition is not used.

  The frames: the kernel program runs through its region with the embedding matrix's share split between the two
  windows that read it (Proof/IdealLaunch.lean, and the same text for the word-level program), and the reference is 104
  host operations none of which writes an argument (Proof/RefLink.lean). The idealization rewrote nothing, so
  `preserves` has no conjunct.
-/
import proofs.«125543_j56839597195693_1_alg».proof.Defs
import proofs.«125543_j56839597195693_1_alg».proof.Proof.Gen.Kernel
import proofs.«125543_j56839597195693_1_alg».proof.Proof.Gen.KernelIdeal
import proofs.«125543_j56839597195693_1_alg».proof.Proof.Gen.ReferenceIdeal
import proofs.«125543_j56839597195693_1_alg».proof.Proof.Gen.Pre_finite_inputs
import proofs.«125543_j56839597195693_1_alg».proof.Proof.BitsLaunch
import proofs.«125543_j56839597195693_1_alg».proof.Proof.IdealArrays
import proofs.«125543_j56839597195693_1_alg».proof.Proof.KerRows
import proofs.«125543_j56839597195693_1_alg».proof.Proof.RefResult
import proofs.«125543_j56839597195693_1_alg».proof.Proof.RefLink
import Idealize.ShloMosaic.Adequacy
import Idealize.ShloMosaic.Init

noncomputable section

namespace Cert.Proof

open Idealize.ShloMosaic Idealize.SL.Sem

/-- The word-level kernel program runs to the end, faults nowhere, and leaves its arguments as they were. -/
theorem frame_k : Cert.frame_Kernel := fun m ρ _ =>
  (θ_run Cert.Kernel.defs _ _).mono (fun _ h c => ⟨(h c).2.1, (h c).2.2⟩) (Cert.Kernel.Hand.run_main (F := Bits) m ρ)

/-- So does the idealized kernel program. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- And the reference: its 104 host operations write buffers of their own, never an argument. -/
theorem frame_ri : Cert.frame_ReferenceIdeal := fun m ρ _ =>
  (θ_run Cert.ReferenceIdeal.defs _ _).mono
    (fun _ h c => ⟨(h c Cert.ReferenceIdeal.main_arg0).trans (Cert.RefLink.after_arg0 m c),
      (h c Cert.ReferenceIdeal.main_arg1).trans (Cert.RefLink.after_arg1 m c)⟩)
    (Cert.ReferenceIdeal.ValueP.run_after (F := Ideal) m ρ)

/-- The idealization rewrote no operation. -/
theorem preserves : Cert.preserves_Kernel_KernelIdeal := trivial

/-- From memories agreeing on the embedding matrix and the labels, both idealized programs end with the mean loss over
    the valid rows in their result buffer: the kernel program by its blocks' rows and the host's two sums, the
    reference by its stages. -/
theorem algebraic : Cert.algebraic_KernelIdeal_ReferenceIdeal := by
  intro m ρ m' ρ' _ hagree
  refine ⟨fun c _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_result m Cert.KerSide.block_rows c), (h c).2.1, (h c).2.2⟩)
      (Cert.KernelIdeal.Hand.run_main (F := Ideal) m ρ)
  · refine (θ_run Cert.ReferenceIdeal.defs _ _).mono
      (fun _ h c => ⟨?_, (h c Cert.ReferenceIdeal.main_arg0).trans (Cert.RefLink.after_arg0 m' c),
        (h c Cert.ReferenceIdeal.main_arg1).trans (Cert.RefLink.after_arg1 m' c)⟩)
      (Cert.ReferenceIdeal.ValueP.run_after (F := Ideal) m' ρ')
    rw [h c Cert.ReferenceIdeal.main_v66, Cert.RefLink.after_result, Cert.RefSide.ref_result, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
